-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2560x32 : Shape := ⟨3, ![4, 2560, 32]⟩
abbrev S2x32x32 : Shape := ⟨3, ![2, 32, 32]⟩
abbrev S2x32 : Shape := ⟨2, ![2, 32]⟩
abbrev S_ : Shape := ⟨0, ![]⟩

class Facts : Prop where
  bcast_S_S4x2560x32 : S_.BroadcastsInDim S4x2560x32 (![] : Fin 0 → Fin S4x2560x32.rank)
  reducesTo_S4x2560x32_S_d0_1_2 : S4x2560x32.ReducesTo [0, 1, 2] S_
  h_S_ : 0 < S_.numel
  bcast_S_S2x32x32 : S_.BroadcastsInDim S2x32x32 (![] : Fin 0 → Fin S2x32x32.rank)
  reducesTo_S2x32x32_S_d0_1_2 : S2x32x32.ReducesTo [0, 1, 2] S_
  bcast_S_S2x32 : S_.BroadcastsInDim S2x32 (![] : Fin 0 → Fin S2x32.rank)
  reducesTo_S2x32_S_d0_1 : S2x32.ReducesTo [0, 1] S_

variable [Facts]

def fn_part1 {F : FTy → Type} [FloatOps F] (main_v13 : IVec S_ 1) (main_v16 : IVec S2x32 1) : IVec S_ 1 :=
  let main_c_5 : IVec S_ 1 := constantI S_ 1 1#1
  let main_v17 : IVec S_ 1 := (fun x v => Host.reduce IntOp.andi x v reducesTo_S2x32_S_d0_1 h_S_) main_v16 main_c_5
  let main_v18 : IVec S_ 1 := andi main_v13 main_v17
  main_v18

def fn {F : FTy → Type} [FloatOps F] (main_arg0 : FVec F S4x2560x32 .f32) (main_arg1 : FVec F S2x32x32 .f32) (main_arg2 : FVec F S2x32x32 .f32) (main_arg3 : FVec F S2x32 .f32) : IVec S_ 1 :=
  let main_v0 : FVec F S4x2560x32 .f32 := Host.absf main_arg0
  let main_cst : FVec F S_ .f32 := constant S_ .f32 0x7F800000#32
  let main_v1 : FVec F S4x2560x32 .f32 := broadcastInDim S4x2560x32 ![] bcast_S_S4x2560x32 main_cst
  let main_v2 : IVec S4x2560x32 1 := cmpf .olt main_v0 main_v1
  let main_c : IVec S_ 1 := constantI S_ 1 1#1
  let main_v3 : IVec S_ 1 := (fun x v => Host.reduce IntOp.andi x v reducesTo_S4x2560x32_S_d0_1_2 h_S_) main_v2 main_c
  let main_v4 : FVec F S2x32x32 .f32 := Host.absf main_arg1
  let main_cst_0 : FVec F S_ .f32 := constant S_ .f32 0x7F800000#32
  let main_v5 : FVec F S2x32x32 .f32 := broadcastInDim S2x32x32 ![] bcast_S_S2x32x32 main_cst_0
  let main_v6 : IVec S2x32x32 1 := cmpf .olt main_v4 main_v5
  let main_c_1 : IVec S_ 1 := constantI S_ 1 1#1
  let main_v7 : IVec S_ 1 := (fun x v => Host.reduce IntOp.andi x v reducesTo_S2x32x32_S_d0_1_2 h_S_) main_v6 main_c_1
  let main_v8 : IVec S_ 1 := andi main_v3 main_v7
  let main_v9 : FVec F S2x32x32 .f32 := Host.absf main_arg2
  let main_cst_2 : FVec F S_ .f32 := constant S_ .f32 0x7F800000#32
  let main_v10 : FVec F S2x32x32 .f32 := broadcastInDim S2x32x32 ![] bcast_S_S2x32x32 main_cst_2
  let main_v11 : IVec S2x32x32 1 := cmpf .olt main_v9 main_v10
  let main_c_3 : IVec S_ 1 := constantI S_ 1 1#1
  let main_v12 : IVec S_ 1 := (fun x v => Host.reduce IntOp.andi x v reducesTo_S2x32x32_S_d0_1_2 h_S_) main_v11 main_c_3
  let main_v13 : IVec S_ 1 := andi main_v8 main_v12
  let main_v14 : FVec F S2x32 .f32 := Host.absf main_arg3
  let main_cst_4 : FVec F S_ .f32 := constant S_ .f32 0x7F800000#32
  let main_v15 : FVec F S2x32 .f32 := broadcastInDim S2x32 ![] bcast_S_S2x32 main_cst_4
  let main_v16 : IVec S2x32 1 := cmpf .olt main_v14 main_v15
  fn_part1 (F := F) main_v13 main_v16
-- ==== Kernel.lean ====
abbrev S4x2560x32 : Shape := ⟨3, ![4, 2560, 32]⟩
abbrev S2x32x32 : Shape := ⟨3, ![2, 32, 32]⟩
abbrev S2x32 : Shape := ⟨2, ![2, 32]⟩
abbrev S1x32x32 : Shape := ⟨3, ![1, 32, 32]⟩
abbrev S32x32 : Shape := ⟨2, ![32, 32]⟩
abbrev S1x32 : Shape := ⟨2, ![1, 32]⟩
abbrev S32 : Shape := ⟨1, ![32]⟩
abbrev S1x256x32 : Shape := ⟨3, ![1, 256, 32]⟩
abbrev S1x2560x32 : Shape := ⟨3, ![1, 2560, 32]⟩
abbrev S256x32 : Shape := ⟨2, ![256, 32]⟩
abbrev S2560x32 : Shape := ⟨2, ![2560, 32]⟩
abbrev S256x2560 : Shape := ⟨2, ![256, 2560]⟩

abbrev nBuf : Space → Nat
  | .hbm => 20
  | .vmem => 26
  | .smem => 0
  | _ => 0

abbrev bufTy : (tb : Table) → Fin (tcTables nBuf tb) → BufTy
  | .hbm, ⟨0, _⟩ => ⟨S4x2560x32, .f32⟩
  | .hbm, ⟨1, _⟩ => ⟨S2x32x32, .f32⟩
  | .hbm, ⟨2, _⟩ => ⟨S2x32x32, .f32⟩
  | .hbm, ⟨3, _⟩ => ⟨S2x32, .f32⟩
  | .hbm, ⟨4, _⟩ => ⟨S1x32x32, .f32⟩
  | .hbm, ⟨5, _⟩ => ⟨S32x32, .f32⟩
  | .hbm, ⟨6, _⟩ => ⟨S1x32x32, .f32⟩
  | .hbm, ⟨7, _⟩ => ⟨S32x32, .f32⟩
  | .hbm, ⟨8, _⟩ => ⟨S1x32, .f32⟩
  | .hbm, ⟨9, _⟩ => ⟨S32, .f32⟩
  | .hbm, ⟨10, _⟩ => ⟨S1x32, .f32⟩
  | .hbm, ⟨11, _⟩ => ⟨S4x2560x32, .f32⟩
  | .hbm, ⟨12, _⟩ => ⟨S1x32x32, .f32⟩
  | .hbm, ⟨13, _⟩ => ⟨S32x32, .f32⟩
  | .hbm, ⟨14, _⟩ => ⟨S1x32x32, .f32⟩
  | .hbm, ⟨15, _⟩ => ⟨S32x32, .f32⟩
  | .hbm, ⟨16, _⟩ => ⟨S1x32, .f32⟩
  | .hbm, ⟨17, _⟩ => ⟨S32, .f32⟩
  | .hbm, ⟨18, _⟩ => ⟨S1x32, .f32⟩
  | .hbm, ⟨19, _⟩ => ⟨S4x2560x32, .f32⟩
  | .local _ .vmem, ⟨0, _⟩ => ⟨S1x256x32, .f32⟩
  | .local _ .vmem, ⟨1, _⟩ => ⟨S1x256x32, .f32⟩
  | .local _ .vmem, ⟨2, _⟩ => ⟨S1x2560x32, .f32⟩
  | .local _ .vmem, ⟨3, _⟩ => ⟨S1x2560x32, .f32⟩
  | .local _ .vmem, ⟨4, _⟩ => ⟨S1x256x32, .f32⟩
  | .local _ .vmem, ⟨5, _⟩ => ⟨S1x256x32, .f32⟩
  | .local _ .vmem, ⟨6, _⟩ => ⟨S1x2560x32, .f32⟩
  | .local _ .vmem, ⟨7, _⟩ => ⟨S1x2560x32, .f32⟩
  | .local _ .vmem, ⟨8, _⟩ => ⟨S32x32, .f32⟩
  | .local _ .vmem, ⟨9, _⟩ => ⟨S32x32, .f32⟩
  | .local _ .vmem, ⟨10, _⟩ => ⟨S1x32, .f32⟩
  | .local _ .vmem, ⟨11, _⟩ => ⟨S1x256x32, .f32⟩
  | .local _ .vmem, ⟨12, _⟩ => ⟨S1x256x32, .f32⟩
  | .local _ .vmem, ⟨13, _⟩ => ⟨S1x256x32, .f32⟩
  | .local _ .vmem, ⟨14, _⟩ => ⟨S1x256x32, .f32⟩
  | .local _ .vmem, ⟨15, _⟩ => ⟨S1x2560x32, .f32⟩
  | .local _ .vmem, ⟨16, _⟩ => ⟨S1x2560x32, .f32⟩
  | .local _ .vmem, ⟨17, _⟩ => ⟨S1x256x32, .f32⟩
  | .local _ .vmem, ⟨18, _⟩ => ⟨S1x256x32, .f32⟩
  | .local _ .vmem, ⟨19, _⟩ => ⟨S1x2560x32, .f32⟩
  | .local _ .vmem, ⟨20, _⟩ => ⟨S1x2560x32, .f32⟩
  | .local _ .vmem, ⟨21, _⟩ => ⟨S32x32, .f32⟩
  | .local _ .vmem, ⟨22, _⟩ => ⟨S32x32, .f32⟩
  | .local _ .vmem, ⟨23, _⟩ => ⟨S1x32, .f32⟩
  | .local _ .vmem, ⟨24, _⟩ => ⟨S1x256x32, .f32⟩
  | .local _ .vmem, ⟨25, _⟩ => ⟨S1x256x32, .f32⟩
  | _, _ => ⟨S4x2560x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg7_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem7_1 : DmaSem sig := 25

abbrev nD : Nat := 1
abbrev τ : Topo := Topo.v7x

variable {F : FTy → Type} [FloatOps F]

abbrev grid0 : Pipeline.Grid := ⟨2, ![4, 10], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2560x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2560x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S32x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S32x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![4, 10], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2560x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x256x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x2560x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S32x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S32x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x256x32 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

class Facts₀ : Prop where
  slices_S2x32x32_S1x32x32_0_0_0 : S2x32x32.Slices ![0, 0, 0] S1x32x32
  shapeCasts_S1x32x32_S32x32 : S1x32x32.ShapeCasts S32x32
  slices_S2x32_S1x32_0_0 : S2x32.Slices ![0, 0] S1x32
  shapeCasts_S1x32_S32 : S1x32.ShapeCasts S32
  shapeCasts_S32_S1x32 : S32.ShapeCasts S1x32
  inb_S1x256x32_S1x256x32_0_0_0 : ∀ a, (![0, 0, 0] : Fin 3 → Nat) a + S1x256x32.size a ≤ S1x256x32.size a
  h_S1x256x32 : 0 < S1x256x32.numel
  shapeCasts_S1x256x32_S256x32 : S1x256x32.ShapeCasts S256x32
  bitsLt_bf16_f32 : FTy.bits .bf16 < FTy.bits .f32
  inb_S1x2560x32_S1x2560x32_0_0_0 : ∀ a, (![0, 0, 0] : Fin 3 → Nat) a + S1x2560x32.size a ≤ S1x2560x32.size a
  h_S1x2560x32 : 0 < S1x2560x32.numel
  shapeCasts_S1x2560x32_S2560x32 : S1x2560x32.ShapeCasts S2560x32
  iota_S256x2560_d0_w32 : S256x2560.Iotas .tc 32 [0]
  iota_S256x2560_d1_w32 : S256x2560.Iotas .tc 32 [1]
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S256x32 : S1x32.Broadcasts S256x32
  shapeCasts_S256x32_S1x256x32 : S256x32.ShapeCasts S1x256x32
  slices_S2x32x32_S1x32x32_1_0_0 : S2x32x32.Slices ![1, 0, 0] S1x32x32
  slices_S2x32_S1x32_1_0 : S2x32.Slices ![1, 0] S1x32
  dot_S256x32_S2560x32_S256x2560_1_1_0_0_n_n_wf : DotDims.WF S256x32 S2560x32 S256x2560 [1] [1] [0] [0] [] []
  dot_S256x2560_S2560x32_S256x32_1_0_0_1_n_n_wf : DotDims.WF S256x2560 S2560x32 S256x32 [1] [0] [0] [1] [] []
  dot_S256x32_S32x32_S256x32_1_0_0_1_n_n_wf : DotDims.WF S256x32 S32x32 S256x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x32.size a ≤ S4x2560x32.size a
  hwx0_0 : ∀ i : grid0.Coords, EltTy.bits .f32 = 32 ∨ (Rect.block (s := S4x2560x32) S1x256x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2560x32.size a ≤ S4x2560x32.size a
  hwx0_1 : ∀ i : grid0.Coords, EltTy.bits .f32 = 32 ∨ (Rect.block (s := S4x2560x32) S1x2560x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x32.size a ≤ S4x2560x32.size a
  hwx0_2 : ∀ i : grid0.Coords, EltTy.bits .f32 = 32 ∨ (Rect.block (s := S4x2560x32) S1x256x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2560x32.size a ≤ S4x2560x32.size a
  hwx0_3 : ∀ i : grid0.Coords, EltTy.bits .f32 = 32 ∨ (Rect.block (s := S4x2560x32) S1x2560x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x32.size a ≤ S32x32.size a
  hwx0_4 : ∀ i : grid0.Coords, EltTy.bits .f32 = 32 ∨ (Rect.block (s := S32x32) S32x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x32.size a ≤ S32x32.size a
  hwx0_5 : ∀ i : grid0.Coords, EltTy.bits .f32 = 32 ∨ (Rect.block (s := S32x32) S32x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x256x32.size a ≤ S4x2560x32.size a
  hwx0_7 : ∀ i : grid0.Coords, EltTy.bits .f32 = 32 ∨ (Rect.block (s := S4x2560x32) S1x256x32.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x32.size a ≤ S4x2560x32.size a
  hwx1_0 : ∀ i : grid1.Coords, EltTy.bits .f32 = 32 ∨ (Rect.block (s := S4x2560x32) S1x256x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2560x32.size a ≤ S4x2560x32.size a
  hwx1_1 : ∀ i : grid1.Coords, EltTy.bits .f32 = 32 ∨ (Rect.block (s := S4x2560x32) S1x2560x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256x32.size a ≤ S4x2560x32.size a
  hwx1_2 : ∀ i : grid1.Coords, EltTy.bits .f32 = 32 ∨ (Rect.block (s := S4x2560x32) S1x256x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2560x32.size a ≤ S4x2560x32.size a
  hwx1_3 : ∀ i : grid1.Coords, EltTy.bits .f32 = 32 ∨ (Rect.block (s := S4x2560x32) S1x2560x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x32.size a ≤ S32x32.size a
  hwx1_4 : ∀ i : grid1.Coords, EltTy.bits .f32 = 32 ∨ (Rect.block (s := S32x32) S32x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32x32.size a ≤ S32x32.size a
  hwx1_5 : ∀ i : grid1.Coords, EltTy.bits .f32 = 32 ∨ (Rect.block (s := S32x32) S32x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x32.size a ≤ S1x32.size a
  hwx1_6 : ∀ i : grid1.Coords, EltTy.bits .f32 = 32 ∨ (Rect.block (s := S1x32) S1x32.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x256x32.size a ≤ S4x2560x32.size a
  hwx1_7 : ∀ i : grid1.Coords, EltTy.bits .f32 = 32 ∨ (Rect.block (s := S4x2560x32) S1x256x32.size (cc1_transform_7 i) (hinb1_7 i)).WholeWords (EltTy.packing .f32)

variable [Facts₀]

def dot_S256x32_S2560x32_S256x2560_1_1_0_0_n_n : DotDims S256x32 S2560x32 S256x2560 where
  lhsContracting := [1]
  rhsContracting := [1]
  lhsNonContracting := [0]
  rhsNonContracting := [0]
  lhsBatch := []
  rhsBatch := []
  wf := dot_S256x32_S2560x32_S256x2560_1_1_0_0_n_n_wf
def dot_S256x2560_S2560x32_S256x32_1_0_0_1_n_n : DotDims S256x2560 S2560x32 S256x32 where
  lhsContracting := [1]
  rhsContracting := [0]
  lhsNonContracting := [0]
  rhsNonContracting := [1]
  lhsBatch := []
  rhsBatch := []
  wf := dot_S256x2560_S2560x32_S256x32_1_0_0_1_n_n_wf
def dot_S256x32_S32x32_S256x32_1_0_0_1_n_n : DotDims S256x32 S32x32 S256x32 where
  lhsContracting := [1]
  rhsContracting := [0]
  lhsNonContracting := [0]
  rhsNonContracting := [1]
  lhsBatch := []
  rhsBatch := []
  wf := dot_S256x32_S32x32_S256x32_1_0_0_1_n_n_wf

abbrev win0_0 : Pipeline.Window sig grid0 :=
  Pipeline.Window.ofSpec (Memref.whole main_arg0) S1x256x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x2560x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x256x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S1x2560x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S32x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S32x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x256x32.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S1x256x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1x2560x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x256x32.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x2560x32.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v9) S32x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v11) S32x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v14) S1x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v15) S1x256x32.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S4x2560x32 : Shape := ⟨3, ![4, 2560, 32]⟩
abbrev S2x32x32 : Shape := ⟨3, ![2, 32, 32]⟩
abbrev S2x32 : Shape := ⟨2, ![2, 32]⟩
abbrev S4x2560x2560 : Shape := ⟨3, ![4, 2560, 2560]⟩
abbrev S_ : Shape := ⟨0, ![]⟩
abbrev S2560x2560 : Shape := ⟨2, ![2560, 2560]⟩
abbrev S1x2560x2560 : Shape := ⟨3, ![1, 2560, 2560]⟩
abbrev S1x32x32 : Shape := ⟨3, ![1, 32, 32]⟩
abbrev S32x32 : Shape := ⟨2, ![32, 32]⟩
abbrev S1x32 : Shape := ⟨2, ![1, 32]⟩
abbrev S32 : Shape := ⟨1, ![32]⟩
abbrev S1x1x32 : Shape := ⟨3, ![1, 1, 32]⟩

abbrev nBuf : Space → Nat
  | .hbm => 78
  | .vmem => 0
  | .smem => 0
  | _ => 0

abbrev bufTy : (tb : Table) → Fin (tcTables nBuf tb) → BufTy
  | .hbm, ⟨0, _⟩ => ⟨S4x2560x32, .f32⟩
  | .hbm, ⟨1, _⟩ => ⟨S2x32x32, .f32⟩
  | .hbm, ⟨2, _⟩ => ⟨S2x32x32, .f32⟩
  | .hbm, ⟨3, _⟩ => ⟨S2x32, .f32⟩
  | .hbm, ⟨4, _⟩ => ⟨S4x2560x2560, .f32⟩
  | .hbm, ⟨5, _⟩ => ⟨S_, .f32⟩
  | .hbm, ⟨6, _⟩ => ⟨S4x2560x2560, .f32⟩
  | .hbm, ⟨7, _⟩ => ⟨S4x2560x2560, .f32⟩
  | .hbm, ⟨8, _⟩ => ⟨S4x2560x2560, .f32⟩
  | .hbm, ⟨9, _⟩ => ⟨S2560x2560, .i32⟩
  | .hbm, ⟨10, _⟩ => ⟨S2560x2560, .i32⟩
  | .hbm, ⟨11, _⟩ => ⟨S_, .i32⟩
  | .hbm, ⟨12, _⟩ => ⟨S2560x2560, .i32⟩
  | .hbm, ⟨13, _⟩ => ⟨S2560x2560, .i32⟩
  | .hbm, ⟨14, _⟩ => ⟨S2560x2560, .i1⟩
  | .hbm, ⟨15, _⟩ => ⟨S2560x2560, .f32⟩
  | .hbm, ⟨16, _⟩ => ⟨S_, .f32⟩
  | .hbm, ⟨17, _⟩ => ⟨S2560x2560, .f32⟩
  | .hbm, ⟨18, _⟩ => ⟨S2560x2560, .f32⟩
  | .hbm, ⟨19, _⟩ => ⟨S1x2560x2560, .f32⟩
  | .hbm, ⟨20, _⟩ => ⟨S4x2560x2560, .f32⟩
  | .hbm, ⟨21, _⟩ => ⟨S4x2560x2560, .f32⟩
  | .hbm, ⟨22, _⟩ => ⟨S4x2560x32, .f32⟩
  | .hbm, ⟨23, _⟩ => ⟨S1x32x32, .f32⟩
  | .hbm, ⟨24, _⟩ => ⟨S32x32, .f32⟩
  | .hbm, ⟨25, _⟩ => ⟨S4x2560x32, .f32⟩
  | .hbm, ⟨26, _⟩ => ⟨S1x32x32, .f32⟩
  | .hbm, ⟨27, _⟩ => ⟨S32x32, .f32⟩
  | .hbm, ⟨28, _⟩ => ⟨S4x2560x32, .f32⟩
  | .hbm, ⟨29, _⟩ => ⟨S4x2560x32, .f32⟩
  | .hbm, ⟨30, _⟩ => ⟨S1x32, .f32⟩
  | .hbm, ⟨31, _⟩ => ⟨S32, .f32⟩
  | .hbm, ⟨32, _⟩ => ⟨S1x1x32, .f32⟩
  | .hbm, ⟨33, _⟩ => ⟨S4x2560x32, .f32⟩
  | .hbm, ⟨34, _⟩ => ⟨S4x2560x32, .f32⟩
  | .hbm, ⟨35, _⟩ => ⟨S_, .f32⟩
  | .hbm, ⟨36, _⟩ => ⟨S4x2560x32, .f32⟩
  | .hbm, ⟨37, _⟩ => ⟨S4x2560x32, .i1⟩
  | .hbm, ⟨38, _⟩ => ⟨S_, .f32⟩
  | .hbm, ⟨39, _⟩ => ⟨S4x2560x32, .f32⟩
  | .hbm, ⟨40, _⟩ => ⟨S4x2560x32, .i1⟩
  | .hbm, ⟨41, _⟩ => ⟨S_, .f32⟩
  | .hbm, ⟨42, _⟩ => ⟨S_, .f32⟩
  | .hbm, ⟨43, _⟩ => ⟨S4x2560x32, .f32⟩
  | .hbm, ⟨44, _⟩ => ⟨S4x2560x32, .f32⟩
  | .hbm, ⟨45, _⟩ => ⟨S4x2560x32, .f32⟩
  | .hbm, ⟨46, _⟩ => ⟨S_, .f32⟩
  | .hbm, ⟨47, _⟩ => ⟨S4x2560x32, .f32⟩
  | .hbm, ⟨48, _⟩ => ⟨S4x2560x32, .f32⟩
  | .hbm, ⟨49, _⟩ => ⟨S4x2560x32, .f32⟩
  | .hbm, ⟨50, _⟩ => ⟨S4x2560x32, .f32⟩
  | .hbm, ⟨51, _⟩ => ⟨S1x32x32, .f32⟩
  | .hbm, ⟨52, _⟩ => ⟨S32x32, .f32⟩
  | .hbm, ⟨53, _⟩ => ⟨S4x2560x32, .f32⟩
  | .hbm, ⟨54, _⟩ => ⟨S1x32x32, .f32⟩
  | .hbm, ⟨55, _⟩ => ⟨S32x32, .f32⟩
  | .hbm, ⟨56, _⟩ => ⟨S4x2560x32, .f32⟩
  | .hbm, ⟨57, _⟩ => ⟨S4x2560x32, .f32⟩
  | .hbm, ⟨58, _⟩ => ⟨S1x32, .f32⟩
  | .hbm, ⟨59, _⟩ => ⟨S32, .f32⟩
  | .hbm, ⟨60, _⟩ => ⟨S1x1x32, .f32⟩
  | .hbm, ⟨61, _⟩ => ⟨S4x2560x32, .f32⟩
  | .hbm, ⟨62, _⟩ => ⟨S4x2560x32, .f32⟩
  | .hbm, ⟨63, _⟩ => ⟨S_, .f32⟩
  | .hbm, ⟨64, _⟩ => ⟨S4x2560x32, .f32⟩
  | .hbm, ⟨65, _⟩ => ⟨S4x2560x32, .i1⟩
  | .hbm, ⟨66, _⟩ => ⟨S_, .f32⟩
  | .hbm, ⟨67, _⟩ => ⟨S4x2560x32, .f32⟩
  | .hbm, ⟨68, _⟩ => ⟨S4x2560x32, .i1⟩
  | .hbm, ⟨69, _⟩ => ⟨S_, .f32⟩
  | .hbm, ⟨70, _⟩ => ⟨S_, .f32⟩
  | .hbm, ⟨71, _⟩ => ⟨S4x2560x32, .f32⟩
  | .hbm, ⟨72, _⟩ => ⟨S4x2560x32, .f32⟩
  | .hbm, ⟨73, _⟩ => ⟨S4x2560x32, .f32⟩
  | .hbm, ⟨74, _⟩ => ⟨S_, .f32⟩
  | .hbm, ⟨75, _⟩ => ⟨S4x2560x32, .f32⟩
  | .hbm, ⟨76, _⟩ => ⟨S4x2560x32, .f32⟩
  | .hbm, ⟨77, _⟩ => ⟨S4x2560x32, .f32⟩
  | _, _ => ⟨S4x2560x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_call1_cst : Ref sig .tc := ⟨.hbm, 35, rfl⟩
abbrev main_call1_v0 : Ref sig .tc := ⟨.hbm, 36, rfl⟩
abbrev main_call1_v1 : Ref sig .tc := ⟨.hbm, 37, rfl⟩
abbrev main_call1_cst_0 : Ref sig .tc := ⟨.hbm, 38, rfl⟩
abbrev main_call1_v2 : Ref sig .tc := ⟨.hbm, 39, rfl⟩
abbrev main_call1_v3 : Ref sig .tc := ⟨.hbm, 40, rfl⟩
abbrev main_call1_cst_1 : Ref sig .tc := ⟨.hbm, 41, rfl⟩
abbrev main_call1_call0_v0 : Ref sig .tc := ⟨.hbm, 42, rfl⟩
abbrev main_call1_call0_v1 : Ref sig .tc := ⟨.hbm, 43, rfl⟩
abbrev main_call1_v4 : Ref sig .tc := ⟨.hbm, 44, rfl⟩
abbrev main_call1_v5 : Ref sig .tc := ⟨.hbm, 45, rfl⟩
abbrev main_call1_cst_2 : Ref sig .tc := ⟨.hbm, 46, rfl⟩
abbrev main_call1_v6 : Ref sig .tc := ⟨.hbm, 47, rfl⟩
abbrev main_call1_v7 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_call2_cst : Ref sig .tc := ⟨.hbm, 63, rfl⟩
abbrev main_call2_v0 : Ref sig .tc := ⟨.hbm, 64, rfl⟩
abbrev main_call2_v1 : Ref sig .tc := ⟨.hbm, 65, rfl⟩
abbrev main_call2_cst_0 : Ref sig .tc := ⟨.hbm, 66, rfl⟩
abbrev main_call2_v2 : Ref sig .tc := ⟨.hbm, 67, rfl⟩
abbrev main_call2_v3 : Ref sig .tc := ⟨.hbm, 68, rfl⟩
abbrev main_call2_cst_1 : Ref sig .tc := ⟨.hbm, 69, rfl⟩
abbrev main_call2_call0_v0 : Ref sig .tc := ⟨.hbm, 70, rfl⟩
abbrev main_call2_call0_v1 : Ref sig .tc := ⟨.hbm, 71, rfl⟩
abbrev main_call2_v4 : Ref sig .tc := ⟨.hbm, 72, rfl⟩
abbrev main_call2_v5 : Ref sig .tc := ⟨.hbm, 73, rfl⟩
abbrev main_call2_cst_2 : Ref sig .tc := ⟨.hbm, 74, rfl⟩
abbrev main_call2_v6 : Ref sig .tc := ⟨.hbm, 75, rfl⟩
abbrev main_call2_v7 : Ref sig .tc := ⟨.hbm, 76, rfl⟩
abbrev main_v41 : Ref sig .tc := ⟨.hbm, 77, rfl⟩

abbrev nD : Nat := 1
abbrev τ : Topo := Topo.v7x

variable {F : FTy → Type} [FloatOps F]

class Facts₀ : Prop where
  bcast_S_S4x2560x2560 : S_.BroadcastsInDim S4x2560x2560 (![] : Fin 0 → Fin S4x2560x2560.rank)
  bcast_S_S2560x2560 : S_.BroadcastsInDim S2560x2560 (![] : Fin 0 → Fin S2560x2560.rank)
  bcast_S2560x2560_S1x2560x2560_1_2 : S2560x2560.BroadcastsInDim S1x2560x2560 (![1, 2] : Fin 2 → Fin S1x2560x2560.rank)
  bcast_S1x2560x2560_S4x2560x2560_0_1_2 : S1x2560x2560.BroadcastsInDim S4x2560x2560 (![0, 1, 2] : Fin 3 → Fin S4x2560x2560.rank)
  slices_S2x32x32_S1x32x32_0_0_0 : S2x32x32.Slices ![0, 0, 0] S1x32x32
  shapeCasts_S1x32x32_S32x32 : S1x32x32.ShapeCasts S32x32
  slices_S2x32_S1x32_0_0 : S2x32.Slices ![0, 0] S1x32
  shapeCasts_S1x32_S32 : S1x32.ShapeCasts S32
  bcast_S32_S1x1x32_2 : S32.BroadcastsInDim S1x1x32 (![2] : Fin 1 → Fin S1x1x32.rank)
  bcast_S1x1x32_S4x2560x32_0_1_2 : S1x1x32.BroadcastsInDim S4x2560x32 (![0, 1, 2] : Fin 3 → Fin S4x2560x32.rank)
  bcast_S_S4x2560x32 : S_.BroadcastsInDim S4x2560x32 (![] : Fin 0 → Fin S4x2560x32.rank)
  slices_S2x32x32_S1x32x32_1_0_0 : S2x32x32.Slices ![1, 0, 0] S1x32x32
  slices_S2x32_S1x32_1_0 : S2x32.Slices ![1, 0] S1x32
  dot_S4x2560x32_S4x2560x32_S4x2560x2560_2_2_1_1_0_0_wf : DotDims.WF S4x2560x32 S4x2560x32 S4x2560x2560 [2] [2] [1] [1] [0] [0]
  dot_S4x2560x2560_S4x2560x32_S4x2560x32_2_1_1_2_0_0_wf : DotDims.WF S4x2560x2560 S4x2560x32 S4x2560x32 [2] [1] [1] [2] [0] [0]
  dot_S4x2560x32_S32x32_S4x2560x32_2_0_01_1_n_n_wf : DotDims.WF S4x2560x32 S32x32 S4x2560x32 [2] [0] [0, 1] [1] [] []

variable [Facts₀]

def dot_S4x2560x32_S4x2560x32_S4x2560x2560_2_2_1_1_0_0 : DotDims S4x2560x32 S4x2560x32 S4x2560x2560 where
  lhsContracting := [2]
  rhsContracting := [2]
  lhsNonContracting := [1]
  rhsNonContracting := [1]
  lhsBatch := [0]
  rhsBatch := [0]
  wf := dot_S4x2560x32_S4x2560x32_S4x2560x2560_2_2_1_1_0_0_wf
def dot_S4x2560x2560_S4x2560x32_S4x2560x32_2_1_1_2_0_0 : DotDims S4x2560x2560 S4x2560x32 S4x2560x32 where
  lhsContracting := [2]
  rhsContracting := [1]
  lhsNonContracting := [1]
  rhsNonContracting := [2]
  lhsBatch := [0]
  rhsBatch := [0]
  wf := dot_S4x2560x2560_S4x2560x32_S4x2560x32_2_1_1_2_0_0_wf
def dot_S4x2560x32_S32x32_S4x2560x32_2_0_01_1_n_n : DotDims S4x2560x32 S32x32 S4x2560x32 where
  lhsContracting := [2]
  rhsContracting := [0]
  lhsNonContracting := [0, 1]
  rhsNonContracting := [1]
  lhsBatch := []
  rhsBatch := []
  wf := dot_S4x2560x32_S32x32_S4x2560x32_2_0_01_1_n_n_wf

class Facts : Prop extends Facts₀ where

variable [Facts]
-- ==== Proof.BitsBody0.lean ====
/-
  Launch 0 of the layer kernel, on one TensorCore, at the buffer contents `V` the launch finds.

  A grid point (b, i) is handed eight staging buffers: the 256 feature rows of tile i and all 2560 rows of batch
  entry b, of the feature array and of the previous layer's output (four windows on two arrays, or on one
  array for the first layer), the two 32×32 weight matrices, the bias row, and the output tile. The body reads
  the seven inputs whole, leaves them as they were, and overwrites the output tile with one store of a value
  that is a pure function of the seven blocks and of the point (the row offset 256·i enters the diagonal test).
  This file states that value (`out0_7`), proves the body's specification against it, and packages the
  per-point facts the pipeline's launch rule asks for: what every staging buffer holds before and after the body
  at each point. Windows that share an array hold it at complementary fractions of the full share.
-/
import proofs.«126938_j63393717289327_1_alg».proof.Proof.Gen.Kernel.Launch
import proofs.«126938_j63393717289327_1_alg».proof.Proof.Gen.Kernel.Skeleton
import proofs.«126938_j63393717289327_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every point, fetched there or not: where it is
    not fetched the block index has not moved since the point before, and the body left the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take a whole buffer -/

abbrev rT0 : Rect S1x256x32 := Rect.unit (s := S1x256x32) ![0, 0, 0] S1x256x32.size inb_S1x256x32_S1x256x32_0_0_0
abbrev rA0 : Rect S1x2560x32 := Rect.unit (s := S1x2560x32) ![0, 0, 0] S1x2560x32.size inb_S1x2560x32_S1x2560x32_0_0_0
abbrev rW0 : Rect S32x32 := Rect.unit (s := S32x32) ![0, 0] S32x32.size inb_S32x32_S32x32_0_0
abbrev rB0 : Rect S1x32 := Rect.unit (s := S1x32) ![0, 0] S1x32.size inb_S1x32_S1x32_0_0

/-! ## What the body leaves in the output tile -/

/-- The output tile after the body at grid coordinates `i`, from the seven input blocks: the one store's value,
    the activation of  h_tile · Ws + (adj · h_all) · Wn + bias  with adj built from x_tile and x_all. -/
def out0_7 (i : grid0.Coords) (x0 : Vec F S1x256x32 .f32) (x1 : Vec F S1x2560x32 .f32) (x2 : Vec F S1x256x32 .f32) (x3 : Vec F S1x2560x32 .f32) (x4 : Vec F S32x32 .f32) (x5 : Vec F S32x32 .f32) (x6 : Vec F S1x32 .f32) : Vec F S1x256x32 .f32 :=
  View.canon [⟨rT0, k0_pay1 (k0_pay2 (View.ld x5 rW0)) (k0_pay3 (View.ld x2 rT0) (View.ld x4 rW0)) (k0_pay4 i (View.ld x0 rT0) (View.ld x1 rA0) (View.ld x3 rA0)) (constant S256x32 .f32 0x00000000#32) (View.ld x6 rB0)⟩]

/-- The store covers the tile. -/
theorem cover0_7 (p0 : Vec F S1x256x32 .f32) (y : S1x256x32.Idx) :
    ∃ pc ∈ ([⟨rT0, p0⟩] : List (View.Piece (Elt F) S1x256x32 .f32)), y ∈ pc.1.set :=
  View.cover_of_tiled [⟨rT0, p0⟩] S1x256x32.size (by rfl) y

/-! ## The body's specification -/

set_option maxHeartbeats 4000000 in
/-- On whole staging buffers, the inputs' at contents `xW` and the output's at anything, the body runs to its end
    holding the inputs' as they were and the output's at `out0_7` of the inputs'. -/
theorem sound_kernel0 (c : Dev nD) (E : Set ℕ) (i : grid0.Coords) (arg2 : Memref sig .tc .vmem S1x256x32 .f32) (harg2 : arg2.IsWhole) (arg3 : Memref sig .tc .vmem S1x2560x32 .f32) (harg3 : arg3.IsWhole) (arg4 : Memref sig .tc .vmem S1x256x32 .f32) (harg4 : arg4.IsWhole) (arg5 : Memref sig .tc .vmem S1x2560x32 .f32) (harg5 : arg5.IsWhole) (arg6 : Memref sig .tc .vmem S32x32 .f32) (harg6 : arg6.IsWhole) (arg7 : Memref sig .tc .vmem S32x32 .f32) (harg7 : arg7.IsWhole) (arg8 : Memref sig .tc .vmem S1x32 .f32) (harg8 : arg8.IsWhole) (arg9 : Memref sig .tc .vmem S1x256x32 .f32) (harg9 : arg9.IsWhole)
    (x0 : Vec F S1x256x32 .f32) (x1 : Vec F S1x2560x32 .f32) (x2 : Vec F S1x256x32 .f32) (x3 : Vec F S1x2560x32 .f32) (x4 : Vec F S32x32 .f32) (x5 : Vec F S32x32 .f32) (x6 : Vec F S1x32 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (out0_7 i x0 x1 x2 x3 x4 x5 x6)) -∗ K ⟨⟩))
      ⊢ wp frame (wpE (defs₀ (F := F)) Variants.none c none) E (cc0__gnn_layer_kernel i arg2 harg2 arg3 harg3 arg4 harg4 arg5 harg5 arg6 harg6 arg7 harg7 arg8 harg8 arg9 harg9) K := by
  simp only [cc0__gnn_layer_kernel_eq_skeleton]; unfold cc0__gnn_layer_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover0_7 _)

/-! ## The per-point data the launch rule asks for -/

/-- The arrays as the launch finds them; after the body at point `t` each input's buffer at its block and the
    output's at `out0_7` of the blocks; the invariant the untouched rest of the core's scoped buffers and its
    generator register; nothing owed. Windows on one array hold complementary parts of its full share. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (grid0.coords t) (iblk0 V c 0 t) (iblk0 V c 1 t) (iblk0 V c 2 t) (iblk0 V c 3 t) (iblk0 V c 4 t) (iblk0 V c 5 t) (iblk0 V c 6 t)
  Φ _ := Pipeline.ΦA spec0 c
  q w := match w with
    | ⟨0, _⟩ => fullShare.left.left
    | ⟨1, _⟩ => fullShare.left.right
    | ⟨2, _⟩ => fullShare.right.left
    | ⟨3, _⟩ => fullShare.right.right
    | ⟨4, _⟩ => fullShare
    | ⟨5, _⟩ => fullShare
    | ⟨6, _⟩ => fullShare
    | ⟨7, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (grid0.coords t) (iblk0 V c 0 t) (iblk0 V c 1 t) (iblk0 V c 2 t) (iblk0 V c 3 t) (iblk0 V c 4 t) (iblk0 V c 5 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' buffers hold their blocks, so the specification applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid0.coords t) _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The launch rule's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BitsBody1.lean ====
/-
  Launch 1 of the layer kernel, on one TensorCore, at the buffer contents `V` the launch finds.

  A grid point (b, i) is handed eight staging buffers: the 256 feature rows of tile i and all 2560 rows of batch
  entry b, of the feature array and of the previous layer's output (four windows on two arrays, or on one
  array for the first layer), the two 32×32 weight matrices, the bias row, and the output tile. The body reads
  the seven inputs whole, leaves them as they were, and overwrites the output tile with one store of a value
  that is a pure function of the seven blocks and of the point (the row offset 256·i enters the diagonal test).
  This file states that value (`out1_7`), proves the body's specification against it, and packages the
  per-point facts the pipeline's launch rule asks for: what every staging buffer holds before and after the body
  at each point. Windows that share an array hold it at complementary fractions of the full share.
-/
import proofs.«126938_j63393717289327_1_alg».proof.Proof.Gen.Kernel.Launch
import proofs.«126938_j63393717289327_1_alg».proof.Proof.Gen.Kernel.Skeleton
import proofs.«126938_j63393717289327_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, fetched there or not: where it is
    not fetched the block index has not moved since the point before, and the body left the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take a whole buffer -/

abbrev rT1 : Rect S1x256x32 := Rect.unit (s := S1x256x32) ![0, 0, 0] S1x256x32.size inb_S1x256x32_S1x256x32_0_0_0
abbrev rA1 : Rect S1x2560x32 := Rect.unit (s := S1x2560x32) ![0, 0, 0] S1x2560x32.size inb_S1x2560x32_S1x2560x32_0_0_0
abbrev rW1 : Rect S32x32 := Rect.unit (s := S32x32) ![0, 0] S32x32.size inb_S32x32_S32x32_0_0
abbrev rB1 : Rect S1x32 := Rect.unit (s := S1x32) ![0, 0] S1x32.size inb_S1x32_S1x32_0_0

/-! ## What the body leaves in the output tile -/

/-- The output tile after the body at grid coordinates `i`, from the seven input blocks: the one store's value,
    the activation of  h_tile · Ws + (adj · h_all) · Wn + bias  with adj built from x_tile and x_all. -/
def out1_7 (i : grid1.Coords) (x0 : Vec F S1x256x32 .f32) (x1 : Vec F S1x2560x32 .f32) (x2 : Vec F S1x256x32 .f32) (x3 : Vec F S1x2560x32 .f32) (x4 : Vec F S32x32 .f32) (x5 : Vec F S32x32 .f32) (x6 : Vec F S1x32 .f32) : Vec F S1x256x32 .f32 :=
  View.canon [⟨rT1, k1_pay1 (k1_pay2 (View.ld x5 rW1)) (k1_pay3 (View.ld x2 rT1) (View.ld x4 rW1)) (k1_pay4 i (View.ld x0 rT1) (View.ld x1 rA1) (View.ld x3 rA1)) (constant S256x32 .f32 0x00000000#32) (View.ld x6 rB1)⟩]

/-- The store covers the tile. -/
theorem cover1_7 (p0 : Vec F S1x256x32 .f32) (y : S1x256x32.Idx) :
    ∃ pc ∈ ([⟨rT1, p0⟩] : List (View.Piece (Elt F) S1x256x32 .f32)), y ∈ pc.1.set :=
  View.cover_of_tiled [⟨rT1, p0⟩] S1x256x32.size (by rfl) y

/-! ## The body's specification -/

set_option maxHeartbeats 4000000 in
/-- On whole staging buffers, the inputs' at contents `xW` and the output's at anything, the body runs to its end
    holding the inputs' as they were and the output's at `out1_7` of the inputs'. -/
theorem sound_kernel1 (c : Dev nD) (E : Set ℕ) (i : grid1.Coords) (arg2 : Memref sig .tc .vmem S1x256x32 .f32) (harg2 : arg2.IsWhole) (arg3 : Memref sig .tc .vmem S1x2560x32 .f32) (harg3 : arg3.IsWhole) (arg4 : Memref sig .tc .vmem S1x256x32 .f32) (harg4 : arg4.IsWhole) (arg5 : Memref sig .tc .vmem S1x2560x32 .f32) (harg5 : arg5.IsWhole) (arg6 : Memref sig .tc .vmem S32x32 .f32) (harg6 : arg6.IsWhole) (arg7 : Memref sig .tc .vmem S32x32 .f32) (harg7 : arg7.IsWhole) (arg8 : Memref sig .tc .vmem S1x32 .f32) (harg8 : arg8.IsWhole) (arg9 : Memref sig .tc .vmem S1x256x32 .f32) (harg9 : arg9.IsWhole)
    (x0 : Vec F S1x256x32 .f32) (x1 : Vec F S1x2560x32 .f32) (x2 : Vec F S1x256x32 .f32) (x3 : Vec F S1x2560x32 .f32) (x4 : Vec F S32x32 .f32) (x5 : Vec F S32x32 .f32) (x6 : Vec F S1x32 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (out1_7 i x0 x1 x2 x3 x4 x5 x6)) -∗ K ⟨⟩))
      ⊢ wp frame (wpE (defs₀ (F := F)) Variants.none c none) E (cc1__gnn_layer_kernel i arg2 harg2 arg3 harg3 arg4 harg4 arg5 harg5 arg6 harg6 arg7 harg7 arg8 harg8 arg9 harg9) K := by
  simp only [cc1__gnn_layer_kernel_eq_skeleton]; unfold cc1__gnn_layer_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover1_7 _)

/-! ## The per-point data the launch rule asks for -/

/-- The arrays as the launch finds them; after the body at point `t` each input's buffer at its block and the
    output's at `out1_7` of the blocks; the invariant the untouched rest of the core's scoped buffers and its
    generator register; nothing owed. Windows on one array hold complementary parts of its full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (grid1.coords t) (iblk1 V c 0 t) (iblk1 V c 1 t) (iblk1 V c 2 t) (iblk1 V c 3 t) (iblk1 V c 4 t) (iblk1 V c 5 t) (iblk1 V c 6 t)
  Φ _ := Pipeline.ΦA spec1 c
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
    | ⟨6, _⟩ => fullShare
    | ⟨7, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (grid1.coords t) (iblk1 V c 0 t) (iblk1 V c 1 t) (iblk1 V c 2 t) (iblk1 V c 3 t) (iblk1 V c 4 t) (iblk1 V c 5 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' buffers hold their blocks, so the specification applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The launch rule's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BitsShares.lean ====
/-
  Windows that share an array: dealing the array's full share among them, and collecting it again.

  In launch 0 four windows (the feature tile, all feature rows, and the same two again as the first layer's
  input) sit on the one argument array; in launch 1 two windows sit on the argument array and two on the first
  launch's result. Each such window only reads, so it needs no more than a fraction of the array: the full
  share is halved (and halved again for four windows), one part per window, and after the last grid point the
  parts — all still at the contents the launch found — are put together again. The other arrays have one
  window each and are passed whole.
-/
import proofs.«126938_j63393717289327_1_alg».proof.Proof.BitsBody0
import proofs.«126938_j63393717289327_1_alg».proof.Proof.BitsBody1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Launch 0 -/

/-- The windows' arrays are whole buffers, so each is held on all of its indices. -/
theorem arrays0_eq (c : Dev nD) (Fv : (w : Fin cfg0.W) → Buf (Elt F) ((cfg0.win w).arr.view.loc (c : Thread nD τ))) :
    ((dat0 V c).arrays Fv : sProp 𝕄) = bigSep Finset.univ fun w : Fin cfg0.W => ((cfg0.win w).arr.view.loc (c : Thread nD τ) ↦{(dat0 V c).share w} Fv w : sProp 𝕄) := by
  unfold Dat.arrays
  exact bigSep_congr fun w _ => by rw [(arr_whole0 w).set_eq_univ]

/-- The distinct buffers behind launch 0's windows, one by one. -/
theorem arrBufs0_eq (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      = iprop((((c : Thread nD τ).loc main_arg0) ↦{fullShare} V' main_arg0) ∗ (((c : Thread nD τ).loc main_v1) ↦{fullShare} V' main_v1) ∗ (((c : Thread nD τ).loc main_v3) ↦{fullShare} V' main_v3) ∗ (((c : Thread nD τ).loc main_v6) ↦{fullShare} V' main_v6) ∗ (((c : Thread nD τ).loc main_v7) ↦{fullShare} V' main_v7)) := by
  unfold Pipeline.arrBufs
  exact bigSep_eq_bigSepL_of_eq [main_arg0, main_v1, main_v3, main_v6, main_v7] (by decide) (by decide) _

/-- ENTRY: the five distinct buffers behind launch 0's eight windows, each whole at the full share, are the eight
    windows' arrays at their shares — the argument array's full share quartered. -/
theorem arrays_entry0 (c : Dev nD) :
    (Pipeline.arrBufs (Ix := Unit) (Name := ℕ) (U := UR sig nD τ) (Lvl := ℕ) spec0 c (V c) : sProp 𝕄)
      ⊢ (dat0 V c).arrays (fun w => V c (Pipeline.arrRef spec0 w)) := by
  rw [arrays0_eq, bigSep_W0]
  rw [arrBufs0_eq]
  iintro ⟨H0, H1, H3, H6, H7⟩
  ihave Hs := (pointsTo_share (PosShare.mem_left_op_right fullShare)).1 $$ H0
  icases Hs with ⟨Hl, Hr⟩
  ihave Hs := (pointsTo_share (PosShare.mem_left_op_right fullShare.left)).1 $$ Hl
  icases Hs with ⟨Hll, Hlr⟩
  ihave Hs := (pointsTo_share (PosShare.mem_left_op_right fullShare.right)).1 $$ Hr
  icases Hs with ⟨Hrl, Hrr⟩
  isplitl [Hll]; · iexact Hll
  isplitl [Hlr]; · iexact Hlr
  isplitl [Hrl]; · iexact Hrl
  isplitl [Hrr]; · iexact Hrr
  isplitl [H1]; · iexact H1
  isplitl [H3]; · iexact H3
  isplitl [H6]; · iexact H6
  iexact H7

/-- EXIT: the eight windows' arrays, the four on the argument array all at one contents, are the five buffers whole
    again, at any valuation `V'` that reads those contents. -/
theorem arrays_exit0 (c : Dev nD) (Fv : (w : Fin cfg0.W) → Buf (Elt F) ((cfg0.win w).arr.view.loc (c : Thread nD τ)))
    (V' : (b : Ref sig .tc) → Buf (Elt F) ((c : Thread nD τ).loc b))
    (h0 : Fv 0 = V' main_arg0) (h1 : Fv 1 = V' main_arg0) (h2 : Fv 2 = V' main_arg0) (h3 : Fv 3 = V' main_arg0)
    (h4 : Fv 4 = V' main_v1) (h5 : Fv 5 = V' main_v3) (h6 : Fv 6 = V' main_v6) (h7 : Fv 7 = V' main_v7) :
    ((dat0 V c).arrays Fv : sProp 𝕄)
      ⊢ (Pipeline.arrBufs (Ix := Unit) (Name := ℕ) (U := UR sig nD τ) (Lvl := ℕ) spec0 c V' : sProp 𝕄) := by
  rw [arrays0_eq, bigSep_W0, h0, h1, h2, h3, h4, h5, h6, h7]
  rw [arrBufs0_eq]
  iintro ⟨Hll, Hlr, Hrl, Hrr, H1, H3, H6, H7⟩
  ihave Hl := (pointsTo_share (PosShare.mem_left_op_right fullShare.left)).2 $$ [Hll Hlr]
  · isplitl [Hll]; · iexact Hll
    iexact Hlr
  ihave Hr := (pointsTo_share (PosShare.mem_left_op_right fullShare.right)).2 $$ [Hrl Hrr]
  · isplitl [Hrl]; · iexact Hrl
    iexact Hrr
  ihave H0 := (pointsTo_share (PosShare.mem_left_op_right fullShare)).2 $$ [Hl Hr]
  · isplitl [Hl]; · iexact Hl
    iexact Hr
  isplitl [H0]; · iexact H0
  isplitl [H1]; · iexact H1
  isplitl [H3]; · iexact H3
  isplitl [H6]; · iexact H6
  iexact H7

/-! ## Launch 1 -/

theorem arrays1_eq (c : Dev nD) (Fv : (w : Fin cfg1.W) → Buf (Elt F) ((cfg1.win w).arr.view.loc (c : Thread nD τ))) :
    ((dat1 V c).arrays Fv : sProp 𝕄) = bigSep Finset.univ fun w : Fin cfg1.W => ((cfg1.win w).arr.view.loc (c : Thread nD τ) ↦{(dat1 V c).share w} Fv w : sProp 𝕄) := by
  unfold Dat.arrays
  exact bigSep_congr fun w _ => by rw [(arr_whole1 w).set_eq_univ]

/-- The distinct buffers behind launch 1's windows, one by one. -/
theorem arrBufs1_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc main_arg0) ↦{fullShare} V' main_arg0) ∗ (((c : Thread nD τ).loc main_v7) ↦{fullShare} V' main_v7) ∗ (((c : Thread nD τ).loc main_v9) ↦{fullShare} V' main_v9) ∗ (((c : Thread nD τ).loc main_v11) ↦{fullShare} V' main_v11) ∗ (((c : Thread nD τ).loc main_v14) ↦{fullShare} V' main_v14) ∗ (((c : Thread nD τ).loc main_v15) ↦{fullShare} V' main_v15)) := by
  unfold Pipeline.arrBufs
  exact bigSep_eq_bigSepL_of_eq [main_arg0, main_v7, main_v9, main_v11, main_v14, main_v15] (by decide) (by decide) _

/-- ENTRY: the six distinct buffers behind launch 1's eight windows are the windows' arrays at their shares — the
    argument array's and the first result's full shares halved. -/
theorem arrays_entry1 (c : Dev nD) :
    (Pipeline.arrBufs (Ix := Unit) (Name := ℕ) (U := UR sig nD τ) (Lvl := ℕ) spec1 c (V c) : sProp 𝕄)
      ⊢ (dat1 V c).arrays (fun w => V c (Pipeline.arrRef spec1 w)) := by
  rw [arrays1_eq, bigSep_W1]
  rw [arrBufs1_eq]
  iintro ⟨H0, H2, H4, H5, H6, H7⟩
  ihave Hs := (pointsTo_share (PosShare.mem_left_op_right fullShare)).1 $$ H0
  icases Hs with ⟨Hl, Hr⟩
  ihave Hs := (pointsTo_share (PosShare.mem_left_op_right fullShare)).1 $$ H2
  icases Hs with ⟨Hl', Hr'⟩
  isplitl [Hl]; · iexact Hl
  isplitl [Hr]; · iexact Hr
  isplitl [Hl']; · iexact Hl'
  isplitl [Hr']; · iexact Hr'
  isplitl [H4]; · iexact H4
  isplitl [H5]; · iexact H5
  isplitl [H6]; · iexact H6
  iexact H7

/-- EXIT: the eight windows' arrays are the six buffers whole again. -/
theorem arrays_exit1 (c : Dev nD) (Fv : (w : Fin cfg1.W) → Buf (Elt F) ((cfg1.win w).arr.view.loc (c : Thread nD τ)))
    (V' : (b : Ref sig .tc) → Buf (Elt F) ((c : Thread nD τ).loc b))
    (h0 : Fv 0 = V' main_arg0) (h1 : Fv 1 = V' main_arg0) (h2 : Fv 2 = V' main_v7) (h3 : Fv 3 = V' main_v7)
    (h4 : Fv 4 = V' main_v9) (h5 : Fv 5 = V' main_v11) (h6 : Fv 6 = V' main_v14) (h7 : Fv 7 = V' main_v15) :
    ((dat1 V c).arrays Fv : sProp 𝕄)
      ⊢ (Pipeline.arrBufs (Ix := Unit) (Name := ℕ) (U := UR sig nD τ) (Lvl := ℕ) spec1 c V' : sProp 𝕄) := by
  rw [arrays1_eq, bigSep_W1, h0, h1, h2, h3, h4, h5, h6, h7]
  rw [arrBufs1_eq]
  iintro ⟨Hl, Hr, Hl', Hr', H4, H5, H6, H7⟩
  ihave H0 := (pointsTo_share (PosShare.mem_left_op_right fullShare)).2 $$ [Hl Hr]
  · isplitl [Hl]; · iexact Hl
    iexact Hr
  ihave H2 := (pointsTo_share (PosShare.mem_left_op_right fullShare)).2 $$ [Hl' Hr']
  · isplitl [Hl']; · iexact Hl'
    iexact Hr'
  isplitl [H0]; · iexact H0
  isplitl [H2]; · iexact H2
  isplitl [H4]; · iexact H4
  isplitl [H5]; · iexact H5
  isplitl [H6]; · iexact H6
  iexact H7

end Cert.Kernel.Hand

end
-- ==== Proof.BitsRun.lean ====
/-
  The whole program on the TensorCores: two stretches of host operations (slicing the stacked weights and
  biases) and the two launches of the layer kernel, from the launch memory to the return.

  The buffer contents at each boundary are a fold from the launch memory: a host stretch applies its operations;
  a launch leaves every buffer as it found it except its result array, which ends at what the grid's write-backs
  leave. Each launch is entered by dealing its windows' arrays out of the buffers (fractions of the full share
  where windows sit on one array) and left by collecting them again. The run ends with the four argument arrays
  as launched and the second launch's result array at its folded write-backs.
-/
import proofs.«126938_j63393717289327_1_alg».proof.Proof.BitsShares
import proofs.«126938_j63393717289327_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## A launch's arrays out of, and back among, the core's unscoped buffers -/

section Arrays
variable (V : (c : Dev nD) → (b : Ref sig .tc) → Buf (Elt F) ((c : Thread nD τ).loc b))

/-- ENTRY of launch 0: the core's unscoped buffers at `V` are the launch's arrays at their entry contents and the rest. -/
theorem entry0 (c : Dev nD) :
    (unscopedBufs (Ix := Unit) (Name := ℕ) (U := UR sig nD τ) (Lvl := ℕ) c (V c) : sProp 𝕄)
      ⊢ iprop((dat0 V c).arrays ((dat0 V c).arrAt · 0) ∗ Pipeline.unscopedRest (Ix := Unit) (Name := ℕ) (U := UR sig nD τ) (Lvl := ℕ) spec0 c (V c)) := by
  rw [Pipeline.unscopedBufs_split₀ (Ix := Unit) (Name := ℕ) (U := UR sig nD τ) (Lvl := ℕ) cfgs 0 winFacts₀0.arr_unscoped c (V c)]
  exact sep_mono (arrays_entry0 V c) .rfl

/-- EXIT of launch 0: its arrays after the last point and the rest are the unscoped buffers at any valuation that
    has the result array at its final contents and agrees with `V` elsewhere. -/
theorem exit0 (c : Dev nD) (V' : (b : Ref sig .tc) → Buf (Elt F) ((c : Thread nD τ).loc b))
    (h7 : (dat0 V c).arrAt 7 cfg0.N = V' main_v7) (hne : ∀ b, b ≠ main_v7 → V' b = V c b) :
    iprop((dat0 V c).arrays ((dat0 V c).arrAt · cfg0.N) ∗ Pipeline.unscopedRest (Ix := Unit) (Name := ℕ) (U := UR sig nD τ) (Lvl := ℕ) spec0 c (V c))
      ⊢ (unscopedBufs (Ix := Unit) (Name := ℕ) (U := UR sig nD τ) (Lvl := ℕ) c V' : sProp 𝕄) := by
  rw [Pipeline.unscopedBufs_split₀ (Ix := Unit) (Name := ℕ) (U := UR sig nD τ) (Lvl := ℕ) cfgs 0 winFacts₀0.arr_unscoped c V']
  refine sep_mono (arrays_exit0 V c _ V' ?_ ?_ ?_ ?_ ?_ ?_ ?_ h7) (Entails.of_eq ?_)
  · exact ((dat0 V c).arrAt_in 0 rfl _).trans ((A_eq0 V c 0).trans (hne main_arg0 (by decide)).symm)
  · exact ((dat0 V c).arrAt_in 1 rfl _).trans ((A_eq0 V c 1).trans (hne main_arg0 (by decide)).symm)
  · exact ((dat0 V c).arrAt_in 2 rfl _).trans ((A_eq0 V c 2).trans (hne main_arg0 (by decide)).symm)
  · exact ((dat0 V c).arrAt_in 3 rfl _).trans ((A_eq0 V c 3).trans (hne main_arg0 (by decide)).symm)
  · exact ((dat0 V c).arrAt_in 4 rfl _).trans ((A_eq0 V c 4).trans (hne main_v1 (by decide)).symm)
  · exact ((dat0 V c).arrAt_in 5 rfl _).trans ((A_eq0 V c 5).trans (hne main_v3 (by decide)).symm)
  · exact ((dat0 V c).arrAt_in 6 rfl _).trans ((A_eq0 V c 6).trans (hne main_v6 (by decide)).symm)
  · unfold Pipeline.unscopedRest
    exact bigSep_congr fun b hb => by
      rw [hne b fun e => (Finset.mem_sdiff.mp hb).2 (Finset.mem_image.mpr ⟨7, Finset.mem_univ _, e.symm⟩)]

/-- ENTRY of launch 1. -/
theorem entry1 (c : Dev nD) :
    (unscopedBufs (Ix := Unit) (Name := ℕ) (U := UR sig nD τ) (Lvl := ℕ) c (V c) : sProp 𝕄)
      ⊢ iprop((dat1 V c).arrays ((dat1 V c).arrAt · 0) ∗ Pipeline.unscopedRest (Ix := Unit) (Name := ℕ) (U := UR sig nD τ) (Lvl := ℕ) spec1 c (V c)) := by
  rw [Pipeline.unscopedBufs_split₀ (Ix := Unit) (Name := ℕ) (U := UR sig nD τ) (Lvl := ℕ) cfgs 1 winFacts₀1.arr_unscoped c (V c)]
  exact sep_mono (arrays_entry1 V c) .rfl

/-- EXIT of launch 1. -/
theorem exit1 (c : Dev nD) (V' : (b : Ref sig .tc) → Buf (Elt F) ((c : Thread nD τ).loc b))
    (h7 : (dat1 V c).arrAt 7 cfg1.N = V' main_v15) (hne : ∀ b, b ≠ main_v15 → V' b = V c b) :
    iprop((dat1 V c).arrays ((dat1 V c).arrAt · cfg1.N) ∗ Pipeline.unscopedRest (Ix := Unit) (Name := ℕ) (U := UR sig nD τ) (Lvl := ℕ) spec1 c (V c))
      ⊢ (unscopedBufs (Ix := Unit) (Name := ℕ) (U := UR sig nD τ) (Lvl := ℕ) c V' : sProp 𝕄) := by
  rw [Pipeline.unscopedBufs_split₀ (Ix := Unit) (Name := ℕ) (U := UR sig nD τ) (Lvl := ℕ) cfgs 1 winFacts₀1.arr_unscoped c V']
  refine sep_mono (arrays_exit1 V c _ V' ?_ ?_ ?_ ?_ ?_ ?_ ?_ h7) (Entails.of_eq ?_)
  · exact ((dat1 V c).arrAt_in 0 rfl _).trans ((A_eq1 V c 0).trans (hne main_arg0 (by decide)).symm)
  · exact ((dat1 V c).arrAt_in 1 rfl _).trans ((A_eq1 V c 1).trans (hne main_arg0 (by decide)).symm)
  · exact ((dat1 V c).arrAt_in 2 rfl _).trans ((A_eq1 V c 2).trans (hne main_v7 (by decide)).symm)
  · exact ((dat1 V c).arrAt_in 3 rfl _).trans ((A_eq1 V c 3).trans (hne main_v7 (by decide)).symm)
  · exact ((dat1 V c).arrAt_in 4 rfl _).trans ((A_eq1 V c 4).trans (hne main_v9 (by decide)).symm)
  · exact ((dat1 V c).arrAt_in 5 rfl _).trans ((A_eq1 V c 5).trans (hne main_v11 (by decide)).symm)
  · exact ((dat1 V c).arrAt_in 6 rfl _).trans ((A_eq1 V c 6).trans (hne main_v14 (by decide)).symm)
  · unfold Pipeline.unscopedRest
    exact bigSep_congr fun b hb => by
      rw [hne b fun e => (Finset.mem_sdiff.mp hb).2 (Finset.mem_image.mpr ⟨7, Finset.mem_univ _, e.symm⟩)]

end Arrays

variable (m : (ℓ : Loc nD τ sig) → Buf (Elt F) ℓ) (ρ : Dev nD → PrngReg)

/-! ## The buffer contents at each boundary: a fold through the program -/

/-- Core `c`'s buffers at launch. -/
abbrev W0 : Dev nD → Valuation τ sig (Elt F) := fun c b => (s₀ m ρ).mem ((c : Dev nD), b)
/-- After the first host stretch (launch 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At launch 0's exit: its result array at what the write-backs leave, every other buffer as entered. -/
def W2 (c : Dev nD) : Valuation τ sig (Elt F) :=
  Function.update (W1 m ρ c) (Proc.devRef .tc main_v7) ((dat0 (V1 m ρ) c).arrAt 7 cfg0.N)
abbrev V2 : (c : Dev nD) → (b : Ref sig .tc) → Buf (Elt F) ((c : Thread nD τ).loc b) := fun c b => W2 m ρ c b
theorem V2_v7 (c : Dev nD) : V2 m ρ c main_v7 = (dat0 (V1 m ρ) c).arrAt 7 cfg0.N := by
  unfold V2 W2; exact Function.update_self ..
theorem V2_of_ne (c : Dev nD) (b : Ref sig .tc) (hb : b ≠ main_v7) : V2 m ρ c b = V1 m ρ c b := by
  unfold V2 W2; exact Function.update_of_ne (StableHlo.devRef_ne_of_ne hb) ..
/-- After the second host stretch (launch 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At launch 1's exit. -/
def W4 (c : Dev nD) : Valuation τ sig (Elt F) :=
  Function.update (W3 m ρ c) (Proc.devRef .tc main_v15) ((dat1 (V3 m ρ) c).arrAt 7 cfg1.N)
abbrev V4 : (c : Dev nD) → (b : Ref sig .tc) → Buf (Elt F) ((c : Thread nD τ).loc b) := fun c b => W4 m ρ c b
theorem V4_v15 (c : Dev nD) : V4 m ρ c main_v15 = (dat1 (V3 m ρ) c).arrAt 7 cfg1.N := by
  unfold V4 W4; exact Function.update_self ..
theorem V4_of_ne (c : Dev nD) (b : Ref sig .tc) (hb : b ≠ main_v15) : V4 m ρ c b = V3 m ρ c b := by
  unfold V4 W4; exact Function.update_of_ne (StableHlo.devRef_ne_of_ne hb) ..

/-- A buffer no host stretch writes and no launch changes ends as launched. -/
theorem V4_kept (c : Dev nD) (b : Ref sig .tc) (h15 : b ≠ main_v15) (h1 : b ∉ hostOps1_W) (h7 : b ≠ main_v7) (h0 : b ∉ hostOps0_W) :
    V4 m ρ c b = m ((c : Thread nD τ).loc b) :=
  (V4_of_ne m ρ c b h15).trans <| (StableHlo.after_of_writes_sub hostOps1 _ hostOps1_writes h1).trans <|
    (V2_of_ne m ρ c b h7).trans <| (StableHlo.after_of_writes_sub hostOps0 _ hostOps0_writes h0).trans rfl

/-! ## The proof data family and the thread state -/

/-- Each launch's per-point data, at its entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W4 m ρ c) ∗ ∃ r, prngReg c r)

/-! ## The launches as segments -/

set_option backward.isDefEq.respectTransparency.types false in
/-- LAUNCH 0 over the thread state: entered from every unscoped buffer at `W1`, left at `W2`. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit : (unscopedBufs (Ix := Unit) (Name := ℕ) (U := UR sig nD τ) (Lvl := ℕ) c (V1 m ρ c) : sProp 𝕄)
        ⊢ iprop((pdats m ρ 0 c).arrays ((pdats m ρ 0 c).arrAt · 0) ∗ Pipeline.unscopedRest (Ix := Unit) (Name := ℕ) (U := UR sig nD τ) (Lvl := ℕ) spec0 c (V1 m ρ c)) := entry0 (V1 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · cfg0.N) ∗ Pipeline.unscopedRest (Ix := Unit) (Name := ℕ) (U := UR sig nD τ) (Lvl := ℕ) spec0 c (V1 m ρ c))
        ⊢ (unscopedBufs (Ix := Unit) (Name := ℕ) (U := UR sig nD τ) (Lvl := ℕ) c (V2 m ρ c) : sProp 𝕄) :=
      exit0 (V1 m ρ) c (V2 m ρ c) (V2_v7 m ρ c).symm (fun b hb => V2_of_ne m ρ c b hb)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- LAUNCH 1 over the thread state: entered from every unscoped buffer at `W3`, left at `W4`. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit : (unscopedBufs (Ix := Unit) (Name := ℕ) (U := UR sig nD τ) (Lvl := ℕ) c (V3 m ρ c) : sProp 𝕄)
        ⊢ iprop((pdats m ρ 1 c).arrays ((pdats m ρ 1 c).arrAt · 0) ∗ Pipeline.unscopedRest (Ix := Unit) (Name := ℕ) (U := UR sig nD τ) (Lvl := ℕ) spec1 c (V3 m ρ c)) := entry1 (V3 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest (Ix := Unit) (Name := ℕ) (U := UR sig nD τ) (Lvl := ℕ) spec1 c (V3 m ρ c))
        ⊢ (unscopedBufs (Ix := Unit) (Name := ℕ) (U := UR sig nD τ) (Lvl := ℕ) c (V4 m ρ c) : sProp 𝕄) :=
      exit1 (V3 m ρ) c (V4 m ρ c) (V4_v15 m ρ c).symm (fun b hb => V4_of_ne m ρ c b hb)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, with the result array at the second launch's folded write-backs and the four argument arrays as
    launched. -/
theorem run_main : θ_run defs (onTc (τ := τ) (main (F := F))) ⟨m, fun _ => 0, ρ⟩ (fun r => ∀ c : Dev nD,
      r.2.mem ((c.tc : Thread nD τ).loc main_v15) = (dat1 (V3 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v15 (by decide))).trans (V4_v15 m ρ c),
       (h c _ (mem_uc main_arg0 (by decide))).trans (V4_kept m ρ c main_arg0 (by decide) (by decide) (by decide) (by decide)),
       (h c _ (mem_uc main_arg1 (by decide))).trans (V4_kept m ρ c main_arg1 (by decide) (by decide) (by decide) (by decide)),
       (h c _ (mem_uc main_arg2 (by decide))).trans (V4_kept m ρ c main_arg2 (by decide) (by decide) (by decide) (by decide)),
       (h c _ (mem_uc main_arg3 (by decide))).trans (V4_kept m ρ c main_arg3 (by decide) (by decide) (by decide) (by decide))⟩)

end Cert.Kernel.Hand

end
-- ==== Proof.IdealBody0.lean ====
/-
  Launch 0 of the layer kernel, on one TensorCore, at the buffer contents `V` the launch finds.

  A grid point (b, i) is handed eight staging buffers: the 256 feature rows of tile i and all 2560 rows of batch
  entry b, of the feature array and of the previous layer's output (four windows on two arrays, or on one
  array for the first layer), the two 32×32 weight matrices, the bias row, and the output tile. The body reads
  the seven inputs whole, leaves them as they were, and overwrites the output tile with one store of a value
  that is a pure function of the seven blocks and of the point (the row offset 256·i enters the diagonal test).
  This file states that value (`out0_7`), proves the body's specification against it, and packages the
  per-point facts the pipeline's launch rule asks for: what every staging buffer holds before and after the body
  at each point. Windows that share an array hold it at complementary fractions of the full share.
-/
import proofs.«126938_j63393717289327_1_alg».proof.Proof.Gen.KernelIdeal.Launch
import proofs.«126938_j63393717289327_1_alg».proof.Proof.Gen.KernelIdeal.Skeleton
import proofs.«126938_j63393717289327_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every point, fetched there or not: where it is
    not fetched the block index has not moved since the point before, and the body left the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take a whole buffer -/

abbrev rT0 : Rect S1x256x32 := Rect.unit (s := S1x256x32) ![0, 0, 0] S1x256x32.size inb_S1x256x32_S1x256x32_0_0_0
abbrev rA0 : Rect S1x2560x32 := Rect.unit (s := S1x2560x32) ![0, 0, 0] S1x2560x32.size inb_S1x2560x32_S1x2560x32_0_0_0
abbrev rW0 : Rect S32x32 := Rect.unit (s := S32x32) ![0, 0] S32x32.size inb_S32x32_S32x32_0_0
abbrev rB0 : Rect S1x32 := Rect.unit (s := S1x32) ![0, 0] S1x32.size inb_S1x32_S1x32_0_0

/-! ## What the body leaves in the output tile -/

/-- The output tile after the body at grid coordinates `i`, from the seven input blocks: the one store's value,
    the activation of  h_tile · Ws + (adj · h_all) · Wn + bias  with adj built from x_tile and x_all. -/
def out0_7 (i : grid0.Coords) (x0 : Vec F S1x256x32 .f32) (x1 : Vec F S1x2560x32 .f32) (x2 : Vec F S1x256x32 .f32) (x3 : Vec F S1x2560x32 .f32) (x4 : Vec F S32x32 .f32) (x5 : Vec F S32x32 .f32) (x6 : Vec F S1x32 .f32) : Vec F S1x256x32 .f32 :=
  View.canon [⟨rT0, k0_pay1 (k0_pay2 (View.ld x5 rW0)) (k0_pay3 (View.ld x2 rT0) (View.ld x4 rW0)) (k0_pay4 i (View.ld x0 rT0) (View.ld x1 rA0) (View.ld x3 rA0)) (constant S256x32 .f32 0x00000000#32) (View.ld x6 rB0)⟩]

/-- The store covers the tile. -/
theorem cover0_7 (p0 : Vec F S1x256x32 .f32) (y : S1x256x32.Idx) :
    ∃ pc ∈ ([⟨rT0, p0⟩] : List (View.Piece (Elt F) S1x256x32 .f32)), y ∈ pc.1.set :=
  View.cover_of_tiled [⟨rT0, p0⟩] S1x256x32.size (by rfl) y

/-! ## The body's specification -/

set_option maxHeartbeats 4000000 in
/-- On whole staging buffers, the inputs' at contents `xW` and the output's at anything, the body runs to its end
    holding the inputs' as they were and the output's at `out0_7` of the inputs'. -/
theorem sound_kernel0 (c : Dev nD) (E : Set ℕ) (i : grid0.Coords) (arg2 : Memref sig .tc .vmem S1x256x32 .f32) (harg2 : arg2.IsWhole) (arg3 : Memref sig .tc .vmem S1x2560x32 .f32) (harg3 : arg3.IsWhole) (arg4 : Memref sig .tc .vmem S1x256x32 .f32) (harg4 : arg4.IsWhole) (arg5 : Memref sig .tc .vmem S1x2560x32 .f32) (harg5 : arg5.IsWhole) (arg6 : Memref sig .tc .vmem S32x32 .f32) (harg6 : arg6.IsWhole) (arg7 : Memref sig .tc .vmem S32x32 .f32) (harg7 : arg7.IsWhole) (arg8 : Memref sig .tc .vmem S1x32 .f32) (harg8 : arg8.IsWhole) (arg9 : Memref sig .tc .vmem S1x256x32 .f32) (harg9 : arg9.IsWhole)
    (x0 : Vec F S1x256x32 .f32) (x1 : Vec F S1x2560x32 .f32) (x2 : Vec F S1x256x32 .f32) (x3 : Vec F S1x2560x32 .f32) (x4 : Vec F S32x32 .f32) (x5 : Vec F S32x32 .f32) (x6 : Vec F S1x32 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (out0_7 i x0 x1 x2 x3 x4 x5 x6)) -∗ K ⟨⟩))
      ⊢ wp frame (wpE (defs₀ (F := F)) Variants.none c none) E (cc0__gnn_layer_kernel i arg2 harg2 arg3 harg3 arg4 harg4 arg5 harg5 arg6 harg6 arg7 harg7 arg8 harg8 arg9 harg9) K := by
  simp only [cc0__gnn_layer_kernel_eq_skeleton]; unfold cc0__gnn_layer_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover0_7 _)

/-! ## The per-point data the launch rule asks for -/

/-- The arrays as the launch finds them; after the body at point `t` each input's buffer at its block and the
    output's at `out0_7` of the blocks; the invariant the untouched rest of the core's scoped buffers and its
    generator register; nothing owed. Windows on one array hold complementary parts of its full share. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (grid0.coords t) (iblk0 V c 0 t) (iblk0 V c 1 t) (iblk0 V c 2 t) (iblk0 V c 3 t) (iblk0 V c 4 t) (iblk0 V c 5 t) (iblk0 V c 6 t)
  Φ _ := Pipeline.ΦA spec0 c
  q w := match w with
    | ⟨0, _⟩ => fullShare.left.left
    | ⟨1, _⟩ => fullShare.left.right
    | ⟨2, _⟩ => fullShare.right.left
    | ⟨3, _⟩ => fullShare.right.right
    | ⟨4, _⟩ => fullShare
    | ⟨5, _⟩ => fullShare
    | ⟨6, _⟩ => fullShare
    | ⟨7, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (grid0.coords t) (iblk0 V c 0 t) (iblk0 V c 1 t) (iblk0 V c 2 t) (iblk0 V c 3 t) (iblk0 V c 4 t) (iblk0 V c 5 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' buffers hold their blocks, so the specification applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid0.coords t) _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The launch rule's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.IdealBody1.lean ====
/-
  Launch 1 of the layer kernel, on one TensorCore, at the buffer contents `V` the launch finds.

  A grid point (b, i) is handed eight staging buffers: the 256 feature rows of tile i and all 2560 rows of batch
  entry b, of the feature array and of the previous layer's output (four windows on two arrays, or on one
  array for the first layer), the two 32×32 weight matrices, the bias row, and the output tile. The body reads
  the seven inputs whole, leaves them as they were, and overwrites the output tile with one store of a value
  that is a pure function of the seven blocks and of the point (the row offset 256·i enters the diagonal test).
  This file states that value (`out1_7`), proves the body's specification against it, and packages the
  per-point facts the pipeline's launch rule asks for: what every staging buffer holds before and after the body
  at each point. Windows that share an array hold it at complementary fractions of the full share.
-/
import proofs.«126938_j63393717289327_1_alg».proof.Proof.Gen.KernelIdeal.Launch
import proofs.«126938_j63393717289327_1_alg».proof.Proof.Gen.KernelIdeal.Skeleton
import proofs.«126938_j63393717289327_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, fetched there or not: where it is
    not fetched the block index has not moved since the point before, and the body left the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take a whole buffer -/

abbrev rT1 : Rect S1x256x32 := Rect.unit (s := S1x256x32) ![0, 0, 0] S1x256x32.size inb_S1x256x32_S1x256x32_0_0_0
abbrev rA1 : Rect S1x2560x32 := Rect.unit (s := S1x2560x32) ![0, 0, 0] S1x2560x32.size inb_S1x2560x32_S1x2560x32_0_0_0
abbrev rW1 : Rect S32x32 := Rect.unit (s := S32x32) ![0, 0] S32x32.size inb_S32x32_S32x32_0_0
abbrev rB1 : Rect S1x32 := Rect.unit (s := S1x32) ![0, 0] S1x32.size inb_S1x32_S1x32_0_0

/-! ## What the body leaves in the output tile -/

/-- The output tile after the body at grid coordinates `i`, from the seven input blocks: the one store's value,
    the activation of  h_tile · Ws + (adj · h_all) · Wn + bias  with adj built from x_tile and x_all. -/
def out1_7 (i : grid1.Coords) (x0 : Vec F S1x256x32 .f32) (x1 : Vec F S1x2560x32 .f32) (x2 : Vec F S1x256x32 .f32) (x3 : Vec F S1x2560x32 .f32) (x4 : Vec F S32x32 .f32) (x5 : Vec F S32x32 .f32) (x6 : Vec F S1x32 .f32) : Vec F S1x256x32 .f32 :=
  View.canon [⟨rT1, k1_pay1 (k1_pay2 (View.ld x5 rW1)) (k1_pay3 (View.ld x2 rT1) (View.ld x4 rW1)) (k1_pay4 i (View.ld x0 rT1) (View.ld x1 rA1) (View.ld x3 rA1)) (constant S256x32 .f32 0x00000000#32) (View.ld x6 rB1)⟩]

/-- The store covers the tile. -/
theorem cover1_7 (p0 : Vec F S1x256x32 .f32) (y : S1x256x32.Idx) :
    ∃ pc ∈ ([⟨rT1, p0⟩] : List (View.Piece (Elt F) S1x256x32 .f32)), y ∈ pc.1.set :=
  View.cover_of_tiled [⟨rT1, p0⟩] S1x256x32.size (by rfl) y

/-! ## The body's specification -/

set_option maxHeartbeats 4000000 in
/-- On whole staging buffers, the inputs' at contents `xW` and the output's at anything, the body runs to its end
    holding the inputs' as they were and the output's at `out1_7` of the inputs'. -/
theorem sound_kernel1 (c : Dev nD) (E : Set ℕ) (i : grid1.Coords) (arg2 : Memref sig .tc .vmem S1x256x32 .f32) (harg2 : arg2.IsWhole) (arg3 : Memref sig .tc .vmem S1x2560x32 .f32) (harg3 : arg3.IsWhole) (arg4 : Memref sig .tc .vmem S1x256x32 .f32) (harg4 : arg4.IsWhole) (arg5 : Memref sig .tc .vmem S1x2560x32 .f32) (harg5 : arg5.IsWhole) (arg6 : Memref sig .tc .vmem S32x32 .f32) (harg6 : arg6.IsWhole) (arg7 : Memref sig .tc .vmem S32x32 .f32) (harg7 : arg7.IsWhole) (arg8 : Memref sig .tc .vmem S1x32 .f32) (harg8 : arg8.IsWhole) (arg9 : Memref sig .tc .vmem S1x256x32 .f32) (harg9 : arg9.IsWhole)
    (x0 : Vec F S1x256x32 .f32) (x1 : Vec F S1x2560x32 .f32) (x2 : Vec F S1x256x32 .f32) (x3 : Vec F S1x2560x32 .f32) (x4 : Vec F S32x32 .f32) (x5 : Vec F S32x32 .f32) (x6 : Vec F S1x32 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (out1_7 i x0 x1 x2 x3 x4 x5 x6)) -∗ K ⟨⟩))
      ⊢ wp frame (wpE (defs₀ (F := F)) Variants.none c none) E (cc1__gnn_layer_kernel i arg2 harg2 arg3 harg3 arg4 harg4 arg5 harg5 arg6 harg6 arg7 harg7 arg8 harg8 arg9 harg9) K := by
  simp only [cc1__gnn_layer_kernel_eq_skeleton]; unfold cc1__gnn_layer_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover1_7 _)

/-! ## The per-point data the launch rule asks for -/

/-- The arrays as the launch finds them; after the body at point `t` each input's buffer at its block and the
    output's at `out1_7` of the blocks; the invariant the untouched rest of the core's scoped buffers and its
    generator register; nothing owed. Windows on one array hold complementary parts of its full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (grid1.coords t) (iblk1 V c 0 t) (iblk1 V c 1 t) (iblk1 V c 2 t) (iblk1 V c 3 t) (iblk1 V c 4 t) (iblk1 V c 5 t) (iblk1 V c 6 t)
  Φ _ := Pipeline.ΦA spec1 c
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
    | ⟨6, _⟩ => fullShare
    | ⟨7, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (grid1.coords t) (iblk1 V c 0 t) (iblk1 V c 1 t) (iblk1 V c 2 t) (iblk1 V c 3 t) (iblk1 V c 4 t) (iblk1 V c 5 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' buffers hold their blocks, so the specification applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The launch rule's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.IdealShares.lean ====
/-
  Windows that share an array: dealing the array's full share among them, and collecting it again.

  In launch 0 four windows (the feature tile, all feature rows, and the same two again as the first layer's
  input) sit on the one argument array; in launch 1 two windows sit on the argument array and two on the first
  launch's result. Each such window only reads, so it needs no more than a fraction of the array: the full
  share is halved (and halved again for four windows), one part per window, and after the last grid point the
  parts — all still at the contents the launch found — are put together again. The other arrays have one
  window each and are passed whole.
-/
import proofs.«126938_j63393717289327_1_alg».proof.Proof.IdealBody0
import proofs.«126938_j63393717289327_1_alg».proof.Proof.IdealBody1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Launch 0 -/

/-- The windows' arrays are whole buffers, so each is held on all of its indices. -/
theorem arrays0_eq (c : Dev nD) (Fv : (w : Fin cfg0.W) → Buf (Elt F) ((cfg0.win w).arr.view.loc (c : Thread nD τ))) :
    ((dat0 V c).arrays Fv : sProp 𝕄) = bigSep Finset.univ fun w : Fin cfg0.W => ((cfg0.win w).arr.view.loc (c : Thread nD τ) ↦{(dat0 V c).share w} Fv w : sProp 𝕄) := by
  unfold Dat.arrays
  exact bigSep_congr fun w _ => by rw [(arr_whole0 w).set_eq_univ]

/-- The distinct buffers behind launch 0's windows, one by one. -/
theorem arrBufs0_eq (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      = iprop((((c : Thread nD τ).loc main_arg0) ↦{fullShare} V' main_arg0) ∗ (((c : Thread nD τ).loc main_v1) ↦{fullShare} V' main_v1) ∗ (((c : Thread nD τ).loc main_v3) ↦{fullShare} V' main_v3) ∗ (((c : Thread nD τ).loc main_v6) ↦{fullShare} V' main_v6) ∗ (((c : Thread nD τ).loc main_v7) ↦{fullShare} V' main_v7)) := by
  unfold Pipeline.arrBufs
  exact bigSep_eq_bigSepL_of_eq [main_arg0, main_v1, main_v3, main_v6, main_v7] (by decide) (by decide) _

/-- ENTRY: the five distinct buffers behind launch 0's eight windows, each whole at the full share, are the eight
    windows' arrays at their shares — the argument array's full share quartered. -/
theorem arrays_entry0 (c : Dev nD) :
    (Pipeline.arrBufs (Ix := Unit) (Name := ℕ) (U := UR sig nD τ) (Lvl := ℕ) spec0 c (V c) : sProp 𝕄)
      ⊢ (dat0 V c).arrays (fun w => V c (Pipeline.arrRef spec0 w)) := by
  rw [arrays0_eq, bigSep_W0]
  rw [arrBufs0_eq]
  iintro ⟨H0, H1, H3, H6, H7⟩
  ihave Hs := (pointsTo_share (PosShare.mem_left_op_right fullShare)).1 $$ H0
  icases Hs with ⟨Hl, Hr⟩
  ihave Hs := (pointsTo_share (PosShare.mem_left_op_right fullShare.left)).1 $$ Hl
  icases Hs with ⟨Hll, Hlr⟩
  ihave Hs := (pointsTo_share (PosShare.mem_left_op_right fullShare.right)).1 $$ Hr
  icases Hs with ⟨Hrl, Hrr⟩
  isplitl [Hll]; · iexact Hll
  isplitl [Hlr]; · iexact Hlr
  isplitl [Hrl]; · iexact Hrl
  isplitl [Hrr]; · iexact Hrr
  isplitl [H1]; · iexact H1
  isplitl [H3]; · iexact H3
  isplitl [H6]; · iexact H6
  iexact H7

/-- EXIT: the eight windows' arrays, the four on the argument array all at one contents, are the five buffers whole
    again, at any valuation `V'` that reads those contents. -/
theorem arrays_exit0 (c : Dev nD) (Fv : (w : Fin cfg0.W) → Buf (Elt F) ((cfg0.win w).arr.view.loc (c : Thread nD τ)))
    (V' : (b : Ref sig .tc) → Buf (Elt F) ((c : Thread nD τ).loc b))
    (h0 : Fv 0 = V' main_arg0) (h1 : Fv 1 = V' main_arg0) (h2 : Fv 2 = V' main_arg0) (h3 : Fv 3 = V' main_arg0)
    (h4 : Fv 4 = V' main_v1) (h5 : Fv 5 = V' main_v3) (h6 : Fv 6 = V' main_v6) (h7 : Fv 7 = V' main_v7) :
    ((dat0 V c).arrays Fv : sProp 𝕄)
      ⊢ (Pipeline.arrBufs (Ix := Unit) (Name := ℕ) (U := UR sig nD τ) (Lvl := ℕ) spec0 c V' : sProp 𝕄) := by
  rw [arrays0_eq, bigSep_W0, h0, h1, h2, h3, h4, h5, h6, h7]
  rw [arrBufs0_eq]
  iintro ⟨Hll, Hlr, Hrl, Hrr, H1, H3, H6, H7⟩
  ihave Hl := (pointsTo_share (PosShare.mem_left_op_right fullShare.left)).2 $$ [Hll Hlr]
  · isplitl [Hll]; · iexact Hll
    iexact Hlr
  ihave Hr := (pointsTo_share (PosShare.mem_left_op_right fullShare.right)).2 $$ [Hrl Hrr]
  · isplitl [Hrl]; · iexact Hrl
    iexact Hrr
  ihave H0 := (pointsTo_share (PosShare.mem_left_op_right fullShare)).2 $$ [Hl Hr]
  · isplitl [Hl]; · iexact Hl
    iexact Hr
  isplitl [H0]; · iexact H0
  isplitl [H1]; · iexact H1
  isplitl [H3]; · iexact H3
  isplitl [H6]; · iexact H6
  iexact H7

/-! ## Launch 1 -/

theorem arrays1_eq (c : Dev nD) (Fv : (w : Fin cfg1.W) → Buf (Elt F) ((cfg1.win w).arr.view.loc (c : Thread nD τ))) :
    ((dat1 V c).arrays Fv : sProp 𝕄) = bigSep Finset.univ fun w : Fin cfg1.W => ((cfg1.win w).arr.view.loc (c : Thread nD τ) ↦{(dat1 V c).share w} Fv w : sProp 𝕄) := by
  unfold Dat.arrays
  exact bigSep_congr fun w _ => by rw [(arr_whole1 w).set_eq_univ]

/-- The distinct buffers behind launch 1's windows, one by one. -/
theorem arrBufs1_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc main_arg0) ↦{fullShare} V' main_arg0) ∗ (((c : Thread nD τ).loc main_v7) ↦{fullShare} V' main_v7) ∗ (((c : Thread nD τ).loc main_v9) ↦{fullShare} V' main_v9) ∗ (((c : Thread nD τ).loc main_v11) ↦{fullShare} V' main_v11) ∗ (((c : Thread nD τ).loc main_v14) ↦{fullShare} V' main_v14) ∗ (((c : Thread nD τ).loc main_v15) ↦{fullShare} V' main_v15)) := by
  unfold Pipeline.arrBufs
  exact bigSep_eq_bigSepL_of_eq [main_arg0, main_v7, main_v9, main_v11, main_v14, main_v15] (by decide) (by decide) _

/-- ENTRY: the six distinct buffers behind launch 1's eight windows are the windows' arrays at their shares — the
    argument array's and the first result's full shares halved. -/
theorem arrays_entry1 (c : Dev nD) :
    (Pipeline.arrBufs (Ix := Unit) (Name := ℕ) (U := UR sig nD τ) (Lvl := ℕ) spec1 c (V c) : sProp 𝕄)
      ⊢ (dat1 V c).arrays (fun w => V c (Pipeline.arrRef spec1 w)) := by
  rw [arrays1_eq, bigSep_W1]
  rw [arrBufs1_eq]
  iintro ⟨H0, H2, H4, H5, H6, H7⟩
  ihave Hs := (pointsTo_share (PosShare.mem_left_op_right fullShare)).1 $$ H0
  icases Hs with ⟨Hl, Hr⟩
  ihave Hs := (pointsTo_share (PosShare.mem_left_op_right fullShare)).1 $$ H2
  icases Hs with ⟨Hl', Hr'⟩
  isplitl [Hl]; · iexact Hl
  isplitl [Hr]; · iexact Hr
  isplitl [Hl']; · iexact Hl'
  isplitl [Hr']; · iexact Hr'
  isplitl [H4]; · iexact H4
  isplitl [H5]; · iexact H5
  isplitl [H6]; · iexact H6
  iexact H7

/-- EXIT: the eight windows' arrays are the six buffers whole again. -/
theorem arrays_exit1 (c : Dev nD) (Fv : (w : Fin cfg1.W) → Buf (Elt F) ((cfg1.win w).arr.view.loc (c : Thread nD τ)))
    (V' : (b : Ref sig .tc) → Buf (Elt F) ((c : Thread nD τ).loc b))
    (h0 : Fv 0 = V' main_arg0) (h1 : Fv 1 = V' main_arg0) (h2 : Fv 2 = V' main_v7) (h3 : Fv 3 = V' main_v7)
    (h4 : Fv 4 = V' main_v9) (h5 : Fv 5 = V' main_v11) (h6 : Fv 6 = V' main_v14) (h7 : Fv 7 = V' main_v15) :
    ((dat1 V c).arrays Fv : sProp 𝕄)
      ⊢ (Pipeline.arrBufs (Ix := Unit) (Name := ℕ) (U := UR sig nD τ) (Lvl := ℕ) spec1 c V' : sProp 𝕄) := by
  rw [arrays1_eq, bigSep_W1, h0, h1, h2, h3, h4, h5, h6, h7]
  rw [arrBufs1_eq]
  iintro ⟨Hl, Hr, Hl', Hr', H4, H5, H6, H7⟩
  ihave H0 := (pointsTo_share (PosShare.mem_left_op_right fullShare)).2 $$ [Hl Hr]
  · isplitl [Hl]; · iexact Hl
    iexact Hr
  ihave H2 := (pointsTo_share (PosShare.mem_left_op_right fullShare)).2 $$ [Hl' Hr']
  · isplitl [Hl']; · iexact Hl'
    iexact Hr'
  isplitl [H0]; · iexact H0
  isplitl [H2]; · iexact H2
  isplitl [H4]; · iexact H4
  isplitl [H5]; · iexact H5
  isplitl [H6]; · iexact H6
  iexact H7

end Cert.KernelIdeal.Hand

end
-- ==== Proof.IdealRun.lean ====
/-
  The whole program on the TensorCores: two stretches of host operations (slicing the stacked weights and
  biases) and the two launches of the layer kernel, from the launch memory to the return.

  The buffer contents at each boundary are a fold from the launch memory: a host stretch applies its operations;
  a launch leaves every buffer as it found it except its result array, which ends at what the grid's write-backs
  leave. Each launch is entered by dealing its windows' arrays out of the buffers (fractions of the full share
  where windows sit on one array) and left by collecting them again. The run ends with the four argument arrays
  as launched and the second launch's result array at its folded write-backs.
-/
import proofs.«126938_j63393717289327_1_alg».proof.Proof.IdealShares
import proofs.«126938_j63393717289327_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## A launch's arrays out of, and back among, the core's unscoped buffers -/

section Arrays
variable (V : (c : Dev nD) → (b : Ref sig .tc) → Buf (Elt F) ((c : Thread nD τ).loc b))

/-- ENTRY of launch 0: the core's unscoped buffers at `V` are the launch's arrays at their entry contents and the rest. -/
theorem entry0 (c : Dev nD) :
    (unscopedBufs (Ix := Unit) (Name := ℕ) (U := UR sig nD τ) (Lvl := ℕ) c (V c) : sProp 𝕄)
      ⊢ iprop((dat0 V c).arrays ((dat0 V c).arrAt · 0) ∗ Pipeline.unscopedRest (Ix := Unit) (Name := ℕ) (U := UR sig nD τ) (Lvl := ℕ) spec0 c (V c)) := by
  rw [Pipeline.unscopedBufs_split₀ (Ix := Unit) (Name := ℕ) (U := UR sig nD τ) (Lvl := ℕ) cfgs 0 winFacts₀0.arr_unscoped c (V c)]
  exact sep_mono (arrays_entry0 V c) .rfl

/-- EXIT of launch 0: its arrays after the last point and the rest are the unscoped buffers at any valuation that
    has the result array at its final contents and agrees with `V` elsewhere. -/
theorem exit0 (c : Dev nD) (V' : (b : Ref sig .tc) → Buf (Elt F) ((c : Thread nD τ).loc b))
    (h7 : (dat0 V c).arrAt 7 cfg0.N = V' main_v7) (hne : ∀ b, b ≠ main_v7 → V' b = V c b) :
    iprop((dat0 V c).arrays ((dat0 V c).arrAt · cfg0.N) ∗ Pipeline.unscopedRest (Ix := Unit) (Name := ℕ) (U := UR sig nD τ) (Lvl := ℕ) spec0 c (V c))
      ⊢ (unscopedBufs (Ix := Unit) (Name := ℕ) (U := UR sig nD τ) (Lvl := ℕ) c V' : sProp 𝕄) := by
  rw [Pipeline.unscopedBufs_split₀ (Ix := Unit) (Name := ℕ) (U := UR sig nD τ) (Lvl := ℕ) cfgs 0 winFacts₀0.arr_unscoped c V']
  refine sep_mono (arrays_exit0 V c _ V' ?_ ?_ ?_ ?_ ?_ ?_ ?_ h7) (Entails.of_eq ?_)
  · exact ((dat0 V c).arrAt_in 0 rfl _).trans ((A_eq0 V c 0).trans (hne main_arg0 (by decide)).symm)
  · exact ((dat0 V c).arrAt_in 1 rfl _).trans ((A_eq0 V c 1).trans (hne main_arg0 (by decide)).symm)
  · exact ((dat0 V c).arrAt_in 2 rfl _).trans ((A_eq0 V c 2).trans (hne main_arg0 (by decide)).symm)
  · exact ((dat0 V c).arrAt_in 3 rfl _).trans ((A_eq0 V c 3).trans (hne main_arg0 (by decide)).symm)
  · exact ((dat0 V c).arrAt_in 4 rfl _).trans ((A_eq0 V c 4).trans (hne main_v1 (by decide)).symm)
  · exact ((dat0 V c).arrAt_in 5 rfl _).trans ((A_eq0 V c 5).trans (hne main_v3 (by decide)).symm)
  · exact ((dat0 V c).arrAt_in 6 rfl _).trans ((A_eq0 V c 6).trans (hne main_v6 (by decide)).symm)
  · unfold Pipeline.unscopedRest
    exact bigSep_congr fun b hb => by
      rw [hne b fun e => (Finset.mem_sdiff.mp hb).2 (Finset.mem_image.mpr ⟨7, Finset.mem_univ _, e.symm⟩)]

/-- ENTRY of launch 1. -/
theorem entry1 (c : Dev nD) :
    (unscopedBufs (Ix := Unit) (Name := ℕ) (U := UR sig nD τ) (Lvl := ℕ) c (V c) : sProp 𝕄)
      ⊢ iprop((dat1 V c).arrays ((dat1 V c).arrAt · 0) ∗ Pipeline.unscopedRest (Ix := Unit) (Name := ℕ) (U := UR sig nD τ) (Lvl := ℕ) spec1 c (V c)) := by
  rw [Pipeline.unscopedBufs_split₀ (Ix := Unit) (Name := ℕ) (U := UR sig nD τ) (Lvl := ℕ) cfgs 1 winFacts₀1.arr_unscoped c (V c)]
  exact sep_mono (arrays_entry1 V c) .rfl

/-- EXIT of launch 1. -/
theorem exit1 (c : Dev nD) (V' : (b : Ref sig .tc) → Buf (Elt F) ((c : Thread nD τ).loc b))
    (h7 : (dat1 V c).arrAt 7 cfg1.N = V' main_v15) (hne : ∀ b, b ≠ main_v15 → V' b = V c b) :
    iprop((dat1 V c).arrays ((dat1 V c).arrAt · cfg1.N) ∗ Pipeline.unscopedRest (Ix := Unit) (Name := ℕ) (U := UR sig nD τ) (Lvl := ℕ) spec1 c (V c))
      ⊢ (unscopedBufs (Ix := Unit) (Name := ℕ) (U := UR sig nD τ) (Lvl := ℕ) c V' : sProp 𝕄) := by
  rw [Pipeline.unscopedBufs_split₀ (Ix := Unit) (Name := ℕ) (U := UR sig nD τ) (Lvl := ℕ) cfgs 1 winFacts₀1.arr_unscoped c V']
  refine sep_mono (arrays_exit1 V c _ V' ?_ ?_ ?_ ?_ ?_ ?_ ?_ h7) (Entails.of_eq ?_)
  · exact ((dat1 V c).arrAt_in 0 rfl _).trans ((A_eq1 V c 0).trans (hne main_arg0 (by decide)).symm)
  · exact ((dat1 V c).arrAt_in 1 rfl _).trans ((A_eq1 V c 1).trans (hne main_arg0 (by decide)).symm)
  · exact ((dat1 V c).arrAt_in 2 rfl _).trans ((A_eq1 V c 2).trans (hne main_v7 (by decide)).symm)
  · exact ((dat1 V c).arrAt_in 3 rfl _).trans ((A_eq1 V c 3).trans (hne main_v7 (by decide)).symm)
  · exact ((dat1 V c).arrAt_in 4 rfl _).trans ((A_eq1 V c 4).trans (hne main_v9 (by decide)).symm)
  · exact ((dat1 V c).arrAt_in 5 rfl _).trans ((A_eq1 V c 5).trans (hne main_v11 (by decide)).symm)
  · exact ((dat1 V c).arrAt_in 6 rfl _).trans ((A_eq1 V c 6).trans (hne main_v14 (by decide)).symm)
  · unfold Pipeline.unscopedRest
    exact bigSep_congr fun b hb => by
      rw [hne b fun e => (Finset.mem_sdiff.mp hb).2 (Finset.mem_image.mpr ⟨7, Finset.mem_univ _, e.symm⟩)]

end Arrays

variable (m : (ℓ : Loc nD τ sig) → Buf (Elt F) ℓ) (ρ : Dev nD → PrngReg)

/-! ## The buffer contents at each boundary: a fold through the program -/

/-- Core `c`'s buffers at launch. -/
abbrev W0 : Dev nD → Valuation τ sig (Elt F) := fun c b => (s₀ m ρ).mem ((c : Dev nD), b)
/-- After the first host stretch (launch 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At launch 0's exit: its result array at what the write-backs leave, every other buffer as entered. -/
def W2 (c : Dev nD) : Valuation τ sig (Elt F) :=
  Function.update (W1 m ρ c) (Proc.devRef .tc main_v7) ((dat0 (V1 m ρ) c).arrAt 7 cfg0.N)
abbrev V2 : (c : Dev nD) → (b : Ref sig .tc) → Buf (Elt F) ((c : Thread nD τ).loc b) := fun c b => W2 m ρ c b
theorem V2_v7 (c : Dev nD) : V2 m ρ c main_v7 = (dat0 (V1 m ρ) c).arrAt 7 cfg0.N := by
  unfold V2 W2; exact Function.update_self ..
theorem V2_of_ne (c : Dev nD) (b : Ref sig .tc) (hb : b ≠ main_v7) : V2 m ρ c b = V1 m ρ c b := by
  unfold V2 W2; exact Function.update_of_ne (StableHlo.devRef_ne_of_ne hb) ..
/-- After the second host stretch (launch 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At launch 1's exit. -/
def W4 (c : Dev nD) : Valuation τ sig (Elt F) :=
  Function.update (W3 m ρ c) (Proc.devRef .tc main_v15) ((dat1 (V3 m ρ) c).arrAt 7 cfg1.N)
abbrev V4 : (c : Dev nD) → (b : Ref sig .tc) → Buf (Elt F) ((c : Thread nD τ).loc b) := fun c b => W4 m ρ c b
theorem V4_v15 (c : Dev nD) : V4 m ρ c main_v15 = (dat1 (V3 m ρ) c).arrAt 7 cfg1.N := by
  unfold V4 W4; exact Function.update_self ..
theorem V4_of_ne (c : Dev nD) (b : Ref sig .tc) (hb : b ≠ main_v15) : V4 m ρ c b = V3 m ρ c b := by
  unfold V4 W4; exact Function.update_of_ne (StableHlo.devRef_ne_of_ne hb) ..

/-- A buffer no host stretch writes and no launch changes ends as launched. -/
theorem V4_kept (c : Dev nD) (b : Ref sig .tc) (h15 : b ≠ main_v15) (h1 : b ∉ hostOps1_W) (h7 : b ≠ main_v7) (h0 : b ∉ hostOps0_W) :
    V4 m ρ c b = m ((c : Thread nD τ).loc b) :=
  (V4_of_ne m ρ c b h15).trans <| (StableHlo.after_of_writes_sub hostOps1 _ hostOps1_writes h1).trans <|
    (V2_of_ne m ρ c b h7).trans <| (StableHlo.after_of_writes_sub hostOps0 _ hostOps0_writes h0).trans rfl

/-! ## The proof data family and the thread state -/

/-- Each launch's per-point data, at its entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W4 m ρ c) ∗ ∃ r, prngReg c r)

/-! ## The launches as segments -/

set_option backward.isDefEq.respectTransparency.types false in
/-- LAUNCH 0 over the thread state: entered from every unscoped buffer at `W1`, left at `W2`. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit : (unscopedBufs (Ix := Unit) (Name := ℕ) (U := UR sig nD τ) (Lvl := ℕ) c (V1 m ρ c) : sProp 𝕄)
        ⊢ iprop((pdats m ρ 0 c).arrays ((pdats m ρ 0 c).arrAt · 0) ∗ Pipeline.unscopedRest (Ix := Unit) (Name := ℕ) (U := UR sig nD τ) (Lvl := ℕ) spec0 c (V1 m ρ c)) := entry0 (V1 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · cfg0.N) ∗ Pipeline.unscopedRest (Ix := Unit) (Name := ℕ) (U := UR sig nD τ) (Lvl := ℕ) spec0 c (V1 m ρ c))
        ⊢ (unscopedBufs (Ix := Unit) (Name := ℕ) (U := UR sig nD τ) (Lvl := ℕ) c (V2 m ρ c) : sProp 𝕄) :=
      exit0 (V1 m ρ) c (V2 m ρ c) (V2_v7 m ρ c).symm (fun b hb => V2_of_ne m ρ c b hb)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- LAUNCH 1 over the thread state: entered from every unscoped buffer at `W3`, left at `W4`. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit : (unscopedBufs (Ix := Unit) (Name := ℕ) (U := UR sig nD τ) (Lvl := ℕ) c (V3 m ρ c) : sProp 𝕄)
        ⊢ iprop((pdats m ρ 1 c).arrays ((pdats m ρ 1 c).arrAt · 0) ∗ Pipeline.unscopedRest (Ix := Unit) (Name := ℕ) (U := UR sig nD τ) (Lvl := ℕ) spec1 c (V3 m ρ c)) := entry1 (V3 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest (Ix := Unit) (Name := ℕ) (U := UR sig nD τ) (Lvl := ℕ) spec1 c (V3 m ρ c))
        ⊢ (unscopedBufs (Ix := Unit) (Name := ℕ) (U := UR sig nD τ) (Lvl := ℕ) c (V4 m ρ c) : sProp 𝕄) :=
      exit1 (V3 m ρ) c (V4 m ρ c) (V4_v15 m ρ c).symm (fun b hb => V4_of_ne m ρ c b hb)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, with the result array at the second launch's folded write-backs and the four argument arrays as
    launched. -/
theorem run_main : θ_run defs (onTc (τ := τ) (main (F := F))) ⟨m, fun _ => 0, ρ⟩ (fun r => ∀ c : Dev nD,
      r.2.mem ((c.tc : Thread nD τ).loc main_v15) = (dat1 (V3 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v15 (by decide))).trans (V4_v15 m ρ c),
       (h c _ (mem_uc main_arg0 (by decide))).trans (V4_kept m ρ c main_arg0 (by decide) (by decide) (by decide) (by decide)),
       (h c _ (mem_uc main_arg1 (by decide))).trans (V4_kept m ρ c main_arg1 (by decide) (by decide) (by decide) (by decide)),
       (h c _ (mem_uc main_arg2 (by decide))).trans (V4_kept m ρ c main_arg2 (by decide) (by decide) (by decide) (by decide)),
       (h c _ (mem_uc main_arg3 (by decide))).trans (V4_kept m ρ c main_arg3 (by decide) (by decide) (by decide) (by decide))⟩)

end Cert.KernelIdeal.Hand

end
-- ==== Proof.IdealHost.lean ====
/-
  What the host stretches before the two launches put in the buffers the launches read: the l-th slice of the
  stacked self weights, of the stacked neighbour weights, and of the stacked biases (the leading unit axis dropped,
  for the bias added again), entry by entry the stacked arrays at leading index l.
-/
import proofs.«126938_j63393717289327_1_alg».proof.Proof.IdealRun
import Idealize.ShloMosaic.Lib.Pipeline.Value
import Idealize.ShloMosaic.Lib.ValueIdx
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- Reading slice `l` of a stacked [2, 32, 32] array, with the unit axis dropped, at (d, e). -/
theorem slice_w_apply (x : S2x32x32.Idx → EReal) (l : Fin 2) (off : Fin 3 → Nat) (hoff : off = ![l.val, 0, 0])
    (hs : S2x32x32.Slices off S1x32x32) (hc : S1x32x32.ShapeCasts S32x32) (d e : Fin 32) :
    shapeCast S32x32 (extractStridedSlice S1x32x32 off x hs) hc (ix2 d e) = x (ix3 l d e) := by
  subst hoff
  rw [shapeCast_apply _ hc (ix2 d e) (ix3 (0 : Fin 1) d e) (by rw [Shape.rowMajor_val_three, Shape.rowMajor_val_two]; simp),
    extractStridedSlice_apply _ x hs (ix3 (0 : Fin 1) d e) (ix3 l d e) (by intro a; fin_cases a <;> simp)]

/-- Reading slice `l` of the stacked [2, 32] biases, the unit axis dropped and added again, at (0, e). -/
theorem slice_b_apply (x : S2x32.Idx → EReal) (l : Fin 2) (off : Fin 2 → Nat) (hoff : off = ![l.val, 0])
    (hs : S2x32.Slices off S1x32) (hc : S1x32.ShapeCasts S32) (hc' : S32.ShapeCasts S1x32) (e : Fin 32) :
    shapeCast S1x32 (shapeCast S32 (extractStridedSlice S1x32 off x hs) hc) hc' (ix2 (0 : Fin 1) e) = x (ix2 l e) := by
  subst hoff
  rw [shapeCast_apply _ hc' (ix2 (0 : Fin 1) e) (ix1 e) (by rw [Shape.rowMajor_val_two, Shape.rowMajor_val_one]; simp),
    shapeCast_apply _ hc (ix1 e) (ix2 (0 : Fin 1) e) (by rw [Shape.rowMajor_val_two, Shape.rowMajor_val_one]; simp),
    extractStridedSlice_apply _ x hs (ix2 (0 : Fin 1) e) (ix2 l e) (by intro a; fin_cases a <;> simp)]

/-! ## Before launch 0 -/

theorem host_v1 (c : Dev nD) (d e : Fin 32) : V1 m ρ c main_v1 (ix2 d e) = m ((c : Thread nD τ).loc main_arg1) (ix3 (0 : Fin 2) d e) := by
  have hE : (V1 m ρ c main_v1 : S32x32.Idx → EReal) = shapeCast S32x32 (extractStridedSlice S1x32x32 ![0, 0, 0] (m ((c : Thread nD τ).loc main_arg1)) Facts₀.slices_S2x32x32_S1x32x32_0_0_0) Facts₀.shapeCasts_S1x32x32_S32x32 := by
    show StableHlo.after hostOps0 (fun b => m (c, b)) (Proc.devRef .tc main_v1) = _
    after_results; rfl
  rw [hE]; exact slice_w_apply _ 0 _ rfl _ _ d e

theorem host_v3 (c : Dev nD) (d e : Fin 32) : V1 m ρ c main_v3 (ix2 d e) = m ((c : Thread nD τ).loc main_arg2) (ix3 (0 : Fin 2) d e) := by
  have hE : (V1 m ρ c main_v3 : S32x32.Idx → EReal) = shapeCast S32x32 (extractStridedSlice S1x32x32 ![0, 0, 0] (m ((c : Thread nD τ).loc main_arg2)) Facts₀.slices_S2x32x32_S1x32x32_0_0_0) Facts₀.shapeCasts_S1x32x32_S32x32 := by
    show StableHlo.after hostOps0 (fun b => m (c, b)) (Proc.devRef .tc main_v3) = _
    after_results; rfl
  rw [hE]; exact slice_w_apply _ 0 _ rfl _ _ d e

theorem host_v6 (c : Dev nD) (e : Fin 32) : V1 m ρ c main_v6 (ix2 (0 : Fin 1) e) = m ((c : Thread nD τ).loc main_arg3) (ix2 (0 : Fin 2) e) := by
  have hE : (V1 m ρ c main_v6 : S1x32.Idx → EReal) = shapeCast S1x32 (shapeCast S32 (extractStridedSlice S1x32 ![0, 0] (m ((c : Thread nD τ).loc main_arg3)) Facts₀.slices_S2x32_S1x32_0_0) Facts₀.shapeCasts_S1x32_S32) Facts₀.shapeCasts_S32_S1x32 := by
    show StableHlo.after hostOps0 (fun b => m (c, b)) (Proc.devRef .tc main_v6) = _
    after_results; rfl
  rw [hE]; exact slice_b_apply _ 0 _ rfl _ _ _ e

theorem host_arg0 (c : Dev nD) : V1 m ρ c main_arg0 = m ((c : Thread nD τ).loc main_arg0) :=
  (StableHlo.after_of_writes_sub hostOps0 _ hostOps0_writes (by decide : main_arg0 ∉ hostOps0_W)).trans rfl

/-! ## Before launch 1 -/

theorem host3_arg0 (c : Dev nD) : V3 m ρ c main_arg0 = m ((c : Thread nD τ).loc main_arg0) :=
  (StableHlo.after_of_writes_sub hostOps1 _ hostOps1_writes (by decide : main_arg0 ∉ hostOps1_W)).trans
    ((V2_of_ne m ρ c main_arg0 (by decide)).trans (host_arg0 m ρ c))

theorem host3_v7 (c : Dev nD) : V3 m ρ c main_v7 = (dat0 (V1 m ρ) c).arrAt 7 cfg0.N :=
  (StableHlo.after_of_writes_sub hostOps1 _ hostOps1_writes (by decide : main_v7 ∉ hostOps1_W)).trans (V2_v7 m ρ c)

theorem W2_arg (c : Dev nD) (b : Ref sig .tc) (h7 : b ≠ main_v7) (h0 : b ∉ hostOps0_W) : V2 m ρ c b = m ((c : Thread nD τ).loc b) :=
  (V2_of_ne m ρ c b h7).trans ((StableHlo.after_of_writes_sub hostOps0 _ hostOps0_writes h0).trans rfl)

theorem host_v9 (c : Dev nD) (d e : Fin 32) : V3 m ρ c main_v9 (ix2 d e) = m ((c : Thread nD τ).loc main_arg1) (ix3 (1 : Fin 2) d e) := by
  have hE : (V3 m ρ c main_v9 : S32x32.Idx → EReal) = shapeCast S32x32 (extractStridedSlice S1x32x32 ![1, 0, 0] (V2 m ρ c main_arg1) Facts₀.slices_S2x32x32_S1x32x32_1_0_0) Facts₀.shapeCasts_S1x32x32_S32x32 := by
    show StableHlo.after hostOps1 (W2 m ρ c) (Proc.devRef .tc main_v9) = _
    after_results; rfl
  rw [hE, W2_arg m ρ c main_arg1 (by decide) (by decide)]; exact slice_w_apply _ 1 _ rfl _ _ d e

theorem host_v11 (c : Dev nD) (d e : Fin 32) : V3 m ρ c main_v11 (ix2 d e) = m ((c : Thread nD τ).loc main_arg2) (ix3 (1 : Fin 2) d e) := by
  have hE : (V3 m ρ c main_v11 : S32x32.Idx → EReal) = shapeCast S32x32 (extractStridedSlice S1x32x32 ![1, 0, 0] (V2 m ρ c main_arg2) Facts₀.slices_S2x32x32_S1x32x32_1_0_0) Facts₀.shapeCasts_S1x32x32_S32x32 := by
    show StableHlo.after hostOps1 (W2 m ρ c) (Proc.devRef .tc main_v11) = _
    after_results; rfl
  rw [hE, W2_arg m ρ c main_arg2 (by decide) (by decide)]; exact slice_w_apply _ 1 _ rfl _ _ d e

theorem host_v14 (c : Dev nD) (e : Fin 32) : V3 m ρ c main_v14 (ix2 (0 : Fin 1) e) = m ((c : Thread nD τ).loc main_arg3) (ix2 (1 : Fin 2) e) := by
  have hE : (V3 m ρ c main_v14 : S1x32.Idx → EReal) = shapeCast S1x32 (shapeCast S32 (extractStridedSlice S1x32 ![1, 0] (V2 m ρ c main_arg3) Facts₀.slices_S2x32_S1x32_1_0) Facts₀.shapeCasts_S1x32_S32) Facts₀.shapeCasts_S32_S1x32 := by
    show StableHlo.after hostOps1 (W2 m ρ c) (Proc.devRef .tc main_v14) = _
    after_results; rfl
  rw [hE, W2_arg m ρ c main_arg3 (by decide) (by decide)]; exact slice_b_apply _ 1 _ rfl _ _ _ e

end Cert.KernelIdeal.Hand

end
-- ==== Proof.Spec.lean ====
/-
  The mathematics both programs compute, as one function of the argument arrays over the extended reals.

  A graph of 2560 nodes per batch entry carries a feature row x[n, ·] of 32 numbers. The weight of the edge
  n → m is  adj[n, m] = tanh (max (⟨x[n, ·], x[m, ·]⟩, 0)), plus 1/2 on the diagonal (the self loop).
  One layer sends node features h to
      elu ( h[n, ·] · Ws  +  (Σ_m adj[n, m] · h[m, ·]) · Wn  +  bias ),
  with elu y = y for y > 0 and e^y − 1 otherwise; two layers are applied, the first to h = x, each with its
  own slice of the weights. Everything is stated index by index; float literals stay the words they are
  printed as, so that neither side ever evaluates one.
-/
import Idealize.ShloMosaic.PureOps.Ideal
import Idealize.ShloMosaic.Lib.ValueIdx

noncomputable section

namespace Cert.GnnSpec

open Idealize.ShloMosaic Idealize.ShloMosaic.ValueIdx

/-- The feature array's shape, [4, 2560, 32]; the stacked weights', [2, 32, 32]; the stacked biases', [2, 32]. -/
abbrev SX : Shape := ⟨3, ![4, 2560, 32]⟩
abbrev SW : Shape := ⟨3, ![2, 32, 32]⟩
abbrev SB : Shape := ⟨2, ![2, 32]⟩

/-- The literals: 0, 1/2 and 1 as the f32 words both programs print. -/
abbrev zero : EReal := Ideal.ofBits .f32 0x00000000#32
abbrev half : EReal := Ideal.ofBits .f32 0x3F000000#32
abbrev one : EReal := Ideal.ofBits .f32 0x3F800000#32

/-- The inner product of the feature rows of nodes `n` and `m`. -/
def gram (x : Fin 2560 → Fin 32 → EReal) (n m : Fin 2560) : EReal := ∑ f : Fin 32, x n f * x m f

/-- The squashed similarity tanh (max (⟨x n, x m⟩, 0)). -/
def sim (x : Fin 2560 → Fin 32 → EReal) (n m : Fin 2560) : EReal := Ideal.tanh (max (gram x n m) zero)

/-- The edge weight: the similarity, plus 1/2 on the diagonal. -/
def adj (x : Fin 2560 → Fin 32 → EReal) (n m : Fin 2560) : EReal := if n = m then sim x n m + half else sim x n m

/-- The neighbourhood aggregate Σ_m adj[n, m] · h[m, d]. -/
def agg (x h : Fin 2560 → Fin 32 → EReal) (n : Fin 2560) (d : Fin 32) : EReal := ∑ m : Fin 2560, adj x n m * h m d

/-- What the activation is applied to: h[n, ·] · ws + agg[n, ·] · wn + bias, at output feature `e`. -/
def preact (x h : Fin 2560 → Fin 32 → EReal) (ws wn : Fin 32 → Fin 32 → EReal) (bias : Fin 32 → EReal) (n : Fin 2560) (e : Fin 32) : EReal :=
  (∑ d : Fin 32, h n d * ws d e) + (∑ d : Fin 32, agg x h n d * wn d e) + bias e

/-- elu: y where y > 0, e^y − 1 elsewhere (the comparison and the choice as both programs print them). -/
def elu (y : EReal) : EReal := Scalar.select (FloatOps.cmpf (F := Ideal) (φ := .f32) .ogt y zero) y (Ideal.exp y - one)

/-- One layer on one batch entry. -/
def layerRow (x h : Fin 2560 → Fin 32 → EReal) (ws wn : Fin 32 → Fin 32 → EReal) (bias : Fin 32 → EReal) (n : Fin 2560) (e : Fin 32) : EReal :=
  elu (preact x h ws wn bias n e)

/-- One layer on the whole array: batch entry `b` by itself. -/
def layer (X h : SX.Idx → EReal) (ws wn : Fin 32 → Fin 32 → EReal) (bias : Fin 32 → EReal) : SX.Idx → EReal :=
  fun j => layerRow (fun n f => X (ix3 (j 0) n f)) (fun n d => h (ix3 (j 0) n d)) ws wn bias (j 1) (j 2)

/-- Both layers: the result array as a function of the four argument arrays. -/
def G (X : SX.Idx → EReal) (Ws Wn : SW.Idx → EReal) (B : SB.Idx → EReal) : SX.Idx → EReal :=
  layer X
    (layer X X (fun d e => Ws (ix3 0 d e)) (fun d e => Wn (ix3 0 d e)) (fun e => B (ix2 0 e)))
    (fun d e => Ws (ix3 1 d e)) (fun d e => Wn (ix3 1 d e)) (fun e => B (ix2 1 e))

end Cert.GnnSpec

end
-- ==== Proof.LibMatmulZero.lean ====
/-
  A matrix product into the zero accumulator, read at one entry, at the ideal values.

  For ANY dimension numbers of an [R, K] × [K, C] → [R, C] product that contract the left operand's axis 1 with the
  right operand's axis 0 (one contracted axis, of extent K) and carry the left's axis 0 and the right's axis 1 to the
  result, any operand formats and any precision attribute: at the ideal values, `matmul` with the all-zero f32
  accumulator has, at entry (p, q), the value
      Σ_{k < K} l(p, k) · r(k, q).
  The sum over the contraction shape's one-axis index type is re-indexed over `Fin K`, and the operand indices the
  dimension numbers read at result entry (p, q) and contracted position k are (p, k) and (k, q).

  The two hypotheses `hl0` and `hr1` say that the result's axis 0 is the left operand's axis 0 and the result's axis 1
  the right operand's axis 1; for a printed record `D` (no batch axes) each is four lines:
      fun i c => by
        unfold DotDims.lhsIdx
        rw [dif_neg (show ¬(0 : Fin _) ∈ D.lhsBatch by decide), dif_pos (show (0 : Fin _) ∈ D.lhsNonContracting by decide)]
        rfl
  (and the same with `rhsIdx`, `1`, `rhsBatch`, `rhsNonContracting`); `hlc`, `hrc`, `hr`, `hs` are `rfl`.
  Imports only the library.
-/
import Idealize.ShloMosaic.PureOps.Ideal.Laws
import Idealize.ShloMosaic.Lib.ValueIdx

noncomputable section

namespace Cert.LibMatmulZero

open Idealize.ShloMosaic Idealize.ShloMosaic.ValueIdx

/-- `matmul D prec l r 0 (p, q) = Σ_k l(p, k) · r(k, q)` at the ideal values, for two-dimensional operands with one
    contracted axis. -/
theorem matmul_zero_ix2 {R K C : Nat} {φ₁ φ₂ : FTy} (D : DotDims ⟨2, ![R, K]⟩ ⟨2, ![K, C]⟩ ⟨2, ![R, C]⟩)
    (hlc : D.lhsContracting = [1]) (hrc : D.rhsContracting = [0]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr1 : ∀ (i : (⟨2, ![R, C]⟩ : Shape).Idx) (c : D.contr.Idx), (D.rhsIdx i c 1).val = (i 1).val)
    (prec : Option ContractPrecision)
    (l : FVec Ideal ⟨2, ![R, K]⟩ φ₁) (r : FVec Ideal ⟨2, ![K, C]⟩ φ₂) (p : Fin R) (q : Fin C) :
    matmul D prec l r (constant ⟨2, ![R, C]⟩ .f32 0x00000000#32) (ix2 p q) = ∑ k : Fin K, l (ix2 p k) * r (ix2 k q) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 k q :=
    funext fun a => Fin.ext (by
      match a with
      | ⟨0, _⟩ => exact (D.rhsIdx_val_of_single hrc _ _).trans hk
      | ⟨1, _⟩ => exact hr1 _ _)
  rw [el, er]

end Cert.LibMatmulZero

end
-- ==== Proof.LibRowOps.lean ====
/-
  Row-wise operations of a matrix at the ideal values, read at explicit coordinates.

  For an [R, C] f32 matrix: the sum along the lanes at row n is the sum over the columns of the entries of that row; the
  maximum along the lanes at row n is the fold of max, from the starting word's value, over the columns; a vector of R
  entries recast as an [R, 1] column and broadcast to [R, C] has at (n, c) the vector's entry n.  For an [R, K] × [C, K]
  product into the zero accumulator that contracts axis 1 of both operands (a product with the second operand
  transposed), entry (p, q) is Σ_k l(p, k) · r(q, k).  All hold at any extents; indices are written by coordinates.
-/
import Idealize.ShloMosaic.PureOps.Ideal.Laws
import Idealize.ShloMosaic.Lib.ValueIdx
import Idealize.ShloMosaic.Lib.Pipeline.Value

noncomputable section

open scoped BigOperators

namespace Cert.LibRow

open Idealize.ShloMosaic Idealize.ShloMosaic.ValueIdx

/-- A sum along the lanes of an [R, C] matrix, at row n, is the sum over the columns of the entries of that row. -/
theorem rowAdd_apply {R C : Nat} (src : FVec Ideal ⟨2, ![R, C]⟩ .f32)
    (h : Shape.Reduces (⟨2, ![R, C]⟩ : Shape) [1] ⟨1, ![R]⟩) (hφ : FKind.Formats .f32)
    (hacc : (0x00000000#32 : BitVec 32) = FKind.add.neutral .f32 hφ) (n : Fin R) :
    multiReduction .add [1] ⟨1, ![R]⟩ src 0x00000000#32 h hφ hacc (ix1 n) = ∑ a : Fin C, src (ix2 n a) :=
  (Ideal.multiReduction_add_single src _ h hφ hacc (ix1 n)).trans
    (Finset.sum_congr rfl fun a _ => congrArg src (funext fun d => Fin.ext (by
      match d with
      | ⟨0, _⟩ => rfl
      | ⟨1, _⟩ => rfl)))

/-- A maximum along the lanes of an [R, C] matrix, at row n, is the fold of max, from the starting word's value, over
    the columns of the entries of that row. -/
theorem rowMax_apply {R C : Nat} (src : FVec Ideal ⟨2, ![R, C]⟩ .f32) (acc : BitVec 32)
    (h : Shape.Reduces (⟨2, ![R, C]⟩ : Shape) [1] ⟨1, ![R]⟩) (hφ : FKind.Formats .f32)
    (hacc : acc = FKind.maximumf.neutral .f32 hφ) (n : Fin R) :
    multiReduction .maximumf [1] ⟨1, ![R]⟩ src acc h hφ hacc (ix1 n)
      = (Finset.univ : Finset (Fin C)).fold max (Ideal.ofBits .f32 acc) (fun a => src (ix2 n a)) :=
  (Ideal.multiReduction_maximumf_single src acc h hφ hacc (ix1 n)).trans
    (congrArg (fun f => Finset.fold max (Ideal.ofBits .f32 acc) f (Finset.univ : Finset (Fin C)))
      (funext fun a => congrArg src (funext fun d => Fin.ext (by
        match d with
        | ⟨0, _⟩ => rfl
        | ⟨1, _⟩ => rfl))))

/-- A vector of R entries recast as an [R, 1] column and broadcast to [R, C] has at (n, c) the vector's entry n. -/
theorem colBroadcast_apply {R C : Nat} {α : Type} (v : (⟨1, ![R]⟩ : Shape).Idx → α)
    (h1 : (⟨1, ![R]⟩ : Shape).ShapeCasts ⟨2, ![R, 1]⟩) (h2 : (⟨2, ![R, 1]⟩ : Shape).Broadcasts ⟨2, ![R, C]⟩)
    (n : Fin R) (c : Fin C) :
    broadcastTo ⟨2, ![R, C]⟩ (shapeCast ⟨2, ![R, 1]⟩ v h1) h2 (ix2 n c) = v (ix1 n) := by
  refine (broadcastTo_apply (shapeCast ⟨2, ![R, 1]⟩ v h1) h2 (ix2 n c) (ix2 n (0 : Fin 1)) fun ax => ?_).trans ?_
  · match ax with
    | ⟨0, _⟩ =>
      show n.val = if R = 1 then 0 else n.val
      split
      · have := n.isLt; omega
      · rfl
    | ⟨1, _⟩ => rfl
  · exact shapeCast_apply v h1 _ _ (by
      rw [Shape.rowMajor_val_one, Shape.rowMajor_val_two]
      show n.val = n.val * 1 + 0
      omega)

/-- `matmul D prec l r 0 (p, q) = Σ_k l(p, k) · r(q, k)` at the ideal values, for an [R, K] × [C, K] → [R, C] product
    contracting axis 1 of both operands. -/
theorem matmul_zero_nt_ix2 {R K C : Nat} {φ₁ φ₂ : FTy} (D : DotDims ⟨2, ![R, K]⟩ ⟨2, ![C, K]⟩ ⟨2, ![R, C]⟩)
    (hlc : D.lhsContracting = [1]) (hrc : D.rhsContracting = [1]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr0 : ∀ (i : (⟨2, ![R, C]⟩ : Shape).Idx) (c : D.contr.Idx), (D.rhsIdx i c 0).val = (i 1).val)
    (prec : Option ContractPrecision)
    (l : FVec Ideal ⟨2, ![R, K]⟩ φ₁) (r : FVec Ideal ⟨2, ![C, K]⟩ φ₂) (p : Fin R) (q : Fin C) :
    matmul D prec l r (constant ⟨2, ![R, C]⟩ .f32 0x00000000#32) (ix2 p q) = ∑ k : Fin K, l (ix2 p k) * r (ix2 q k) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 q k :=
    funext fun a => Fin.ext (by
      match a with
      | ⟨0, _⟩ => exact hr0 _ _
      | ⟨1, _⟩ => exact (D.rhsIdx_val_of_single hrc _ _).trans hk)
  rw [el, er]

end Cert.LibRow

end
-- ==== Proof.Payload0.lean ====
/-
  The arithmetic of one grid step of the first launch, read at an index, over the extended reals.

  The step holds a tile of 256 node rows (rows 256·i₁ … 256·i₁ + 255 of the 2560 nodes of one batch entry) and the
  whole batch entry. It forms  tile · Ws,  the edge weights  tanh (max (tile_x · all_xᵀ, 0))  with 1/2 added where the
  global row number equals the column number,  the aggregate  weights · all_h,  then  tile · Ws + aggregate · Wn + bias
  and elu of that. Each product is into the zero accumulator, so at an entry it is the plain sum over the contracted
  axis; every rounding is the identity over the extended reals. The result at (0, r, e) is the specification's
  layer value at node n = 256·i₁ + r and output feature e.
-/
import proofs.«126938_j63393717289327_1_alg».proof.Proof.Spec
import proofs.«126938_j63393717289327_1_alg».proof.Proof.Gen.KernelIdeal.Skeleton
import proofs.«126938_j63393717289327_1_alg».proof.Proof.LibMatmulZero
import proofs.«126938_j63393717289327_1_alg».proof.Proof.LibRowOps
import Idealize.ShloMosaic.Lib.ValueLayout
import Idealize.ShloMosaic.Lib.Pipeline.Value

noncomputable section

namespace Cert.KernelSide

open Idealize.ShloMosaic Idealize.ShloMosaic.ValueIdx Cert.KernelIdeal Cert.KernelIdeal.Gen
open Cert.KernelIdeal.Facts₀ Cert.KernelIdeal.Facts

variable [Cert.KernelIdeal.Facts]

/-- The neighbour weights pass through unchanged. -/
theorem pay2_0_apply (wn : Vec Ideal S32x32 .f32) (d e : Fin 32) :
    k0_pay2 wn (ix2 d e) = wn (ix2 d e) := by
  unfold k0_pay2
  rw [shapeCast_self]
  rfl

/-- The tile times the self weights, at (r, e). -/
theorem pay3_0_apply (ht : Vec Ideal S1x256x32 .f32) (ws : Vec Ideal S32x32 .f32) (r : Fin 256) (e : Fin 32) :
    k0_pay3 ht ws (ix2 r e) = ∑ d : Fin 32, ht (ix3 0 r d) * ws (ix2 d e) := by
  unfold k0_pay3
  rw [shapeCast_self]
  refine (Cert.LibMatmulZero.matmul_zero_ix2 (R := 256) (K := 32) (C := 32) dot_S256x32_S32x32_S256x32_1_0_0_1_n_n rfl rfl rfl rfl
    (fun i c => by
      unfold DotDims.lhsIdx
      rw [dif_neg (show ¬(0 : Fin _) ∈ dot_S256x32_S32x32_S256x32_1_0_0_1_n_n.lhsBatch by decide),
        dif_pos (show (0 : Fin _) ∈ dot_S256x32_S32x32_S256x32_1_0_0_1_n_n.lhsNonContracting by decide)]
      rfl)
    (fun i c => by
      unfold DotDims.rhsIdx
      rw [dif_neg (show ¬(1 : Fin _) ∈ dot_S256x32_S32x32_S256x32_1_0_0_1_n_n.rhsBatch by decide),
        dif_pos (show (1 : Fin _) ∈ dot_S256x32_S32x32_S256x32_1_0_0_1_n_n.rhsNonContracting by decide)]
      rfl)
    none _ _ r e).trans ?_
  refine Finset.sum_congr rfl fun d _ => ?_
  rw [truncf_apply, truncf_apply, shapeCast_1ab_ab_apply]

/-- The global row number as a 32-bit word: 256·a + r for a < 10 and r < 256 does not wrap, and two node numbers below
    2560 have equal words exactly when they are equal. -/
theorem diag_bit (a : Nat) (ha : a < 10) (r : Fin 256) (m n : Fin 2560) (hn : n.val = 256 * a + r.val) :
    IntOp.cmpi .eq (IntOp.addi (Scalar.muli (BitVec.ofNat 32 a) 256#32) (BitVec.ofNat 32 r.val)) (BitVec.ofNat 32 m.val)
      = if n = m then 1#1 else 0#1 := by
  have hrow : IntOp.addi (Scalar.muli (BitVec.ofNat 32 a) 256#32) (BitVec.ofNat 32 r.val) = BitVec.ofNat 32 n.val := by
    apply BitVec.eq_of_toNat_eq
    have hr := r.isLt
    simp only [IntOp.addi, Scalar.muli, IntOp.muli, BitVec.toNat_add, BitVec.toNat_mul, BitVec.toNat_ofNat]
    omega
  rw [hrow]
  unfold IntOp.cmpi
  by_cases h : n = m
  · subst h
    simp
  · have hne : ¬ (BitVec.ofNat 32 n.val = BitVec.ofNat 32 m.val) := by
      intro hh
      have h2 := congrArg BitVec.toNat hh
      simp only [BitVec.toNat_ofNat] at h2
      have := n.isLt
      have := m.isLt
      exact h (Fin.ext (by omega))
    have hb : (BitVec.ofNat 32 n.val == BitVec.ofNat 32 m.val) = false := beq_eq_false_iff_ne.mpr hne
    rw [hb, if_neg h]
    rfl

/-- The tile's feature rows against all feature rows, at (r, m): the inner product of the two rows. -/
theorem gram0_apply (xt : Vec Ideal S1x256x32 .f32) (xa : Vec Ideal S1x2560x32 .f32)
    (h1 : S1x256x32.ShapeCasts S256x32) (h2 : S1x2560x32.ShapeCasts S2560x32) (hb : FTy.bits .bf16 < FTy.bits .f32)
    (r : Fin 256) (m : Fin 2560) :
    matmul (F := Ideal) dot_S256x32_S2560x32_S256x2560_1_1_0_0_n_n none
        (truncf .bf16 (shapeCast S256x32 xt h1 : FVec Ideal S256x32 .f32) hb : FVec Ideal S256x32 .bf16)
        (truncf .bf16 (shapeCast S2560x32 xa h2 : FVec Ideal S2560x32 .f32) hb : FVec Ideal S2560x32 .bf16)
        (constant (F := Ideal) S256x2560 .f32 0x00000000#32) (ix2 r m)
      = ∑ f : Fin 32, xt (ix3 0 r f) * xa (ix3 0 m f) := by
  refine (Cert.LibRow.matmul_zero_nt_ix2 (R := 256) (K := 32) (C := 2560) dot_S256x32_S2560x32_S256x2560_1_1_0_0_n_n rfl rfl rfl rfl
    (fun i c => by
      unfold DotDims.lhsIdx
      rw [dif_neg (show ¬(0 : Fin _) ∈ dot_S256x32_S2560x32_S256x2560_1_1_0_0_n_n.lhsBatch by decide),
        dif_pos (show (0 : Fin _) ∈ dot_S256x32_S2560x32_S256x2560_1_1_0_0_n_n.lhsNonContracting by decide)]
      rfl)
    (fun i c => by
      unfold DotDims.rhsIdx
      rw [dif_neg (show ¬(0 : Fin _) ∈ dot_S256x32_S2560x32_S256x2560_1_1_0_0_n_n.rhsBatch by decide),
        dif_pos (show (0 : Fin _) ∈ dot_S256x32_S2560x32_S256x2560_1_1_0_0_n_n.rhsNonContracting by decide)]
      rfl)
    none _ _ r m).trans ?_
  refine Finset.sum_congr rfl fun f _ => ?_
  rw [truncf_apply, truncf_apply, shapeCast_1ab_ab_apply, shapeCast_1ab_ab_apply]

/-- The diagonal test at (r, m): the row counter 256·a + r against the column counter m. -/
theorem rowcol_bit (a : Nat) (ha : a < 10) (h0 : S256x2560.Iotas .tc 32 [0]) (h1 : S256x2560.Iotas .tc 32 [1])
    (r : Fin 256) (m n : Fin 2560) (hn : n.val = 256 * a + r.val) :
    cmpi .eq (addi (broadcast S256x2560 (Scalar.muli (BitVec.ofNat 32 a) 256#32)) (iota .tc S256x2560 32 [0] h0))
        (iota .tc S256x2560 32 [1] h1) (ix2 r m)
      = if n = m then 1#1 else 0#1 := by
  show IntOp.cmpi .eq (IntOp.addi (Scalar.muli (BitVec.ofNat 32 a) 256#32) (iota .tc S256x2560 32 [0] h0 (ix2 r m)))
      (iota .tc S256x2560 32 [1] h1 (ix2 r m)) = _
  rw [iota_single_apply, iota_single_apply]
  exact diag_bit a ha r m n hn

/-- The squashed similarity of the tile's row r and node m is the specification's, at node n, when the tile's row r is
    node n's feature row. -/
theorem sim0_apply (xt : Vec Ideal S1x256x32 .f32) (xa : Vec Ideal S1x2560x32 .f32)
    (h1 : S1x256x32.ShapeCasts S256x32) (h2 : S1x2560x32.ShapeCasts S2560x32) (hb : FTy.bits .bf16 < FTy.bits .f32)
    (r : Fin 256) (m n : Fin 2560) (hx : ∀ f : Fin 32, xt (ix3 0 r f) = xa (ix3 0 n f)) :
    tanh (F := Ideal) (maximumf (matmul (F := Ideal) dot_S256x32_S2560x32_S256x2560_1_1_0_0_n_n none
        (truncf .bf16 (shapeCast S256x32 xt h1 : FVec Ideal S256x32 .f32) hb : FVec Ideal S256x32 .bf16)
        (truncf .bf16 (shapeCast S2560x32 xa h2 : FVec Ideal S2560x32 .f32) hb : FVec Ideal S2560x32 .bf16)
        (constant (F := Ideal) S256x2560 .f32 0x00000000#32))
        (broadcast S256x2560 (FloatOps.ofBits (F := Ideal) .f32 0x00000000#32))) (ix2 r m)
      = Cert.GnnSpec.sim (fun m f => xa (ix3 0 m f)) n m := by
  show Ideal.tanh (max (matmul (F := Ideal) dot_S256x32_S2560x32_S256x2560_1_1_0_0_n_n none
        (truncf .bf16 (shapeCast S256x32 xt h1 : FVec Ideal S256x32 .f32) hb : FVec Ideal S256x32 .bf16)
        (truncf .bf16 (shapeCast S2560x32 xa h2 : FVec Ideal S2560x32 .f32) hb : FVec Ideal S2560x32 .bf16)
        (constant (F := Ideal) S256x2560 .f32 0x00000000#32) (ix2 r m)) (Ideal.ofBits .f32 0x00000000#32)) = _
  rw [gram0_apply]
  unfold Cert.GnnSpec.sim Cert.GnnSpec.gram
  simp only [hx]

/-- The neighbourhood aggregate of the tile's row r, at feature d: the specification's aggregate at node n = 256·i₁ + r. -/
theorem pay4_0_apply (i : grid0.Coords) (xt : Vec Ideal S1x256x32 .f32) (xa : Vec Ideal S1x2560x32 .f32)
    (ha : Vec Ideal S1x2560x32 .f32) (r : Fin 256) (d : Fin 32) (n : Fin 2560) (hn : n.val = 256 * (i 1).val + r.val)
    (hx : ∀ f : Fin 32, xt (ix3 0 r f) = xa (ix3 0 n f)) :
    k0_pay4 i xt xa ha (ix2 r d)
      = Cert.GnnSpec.agg (fun m f => xa (ix3 0 m f)) (fun m d' => ha (ix3 0 m d')) n d := by
  have hi : (i 1).val < 10 := (i 1).isLt
  unfold k0_pay4
  rw [truncf_apply]
  refine (Cert.LibMatmulZero.matmul_zero_ix2 (R := 256) (K := 2560) (C := 32) dot_S256x2560_S2560x32_S256x32_1_0_0_1_n_n rfl rfl rfl rfl
    (fun i c => by
      unfold DotDims.lhsIdx
      rw [dif_neg (show ¬(0 : Fin _) ∈ dot_S256x2560_S2560x32_S256x32_1_0_0_1_n_n.lhsBatch by decide),
        dif_pos (show (0 : Fin _) ∈ dot_S256x2560_S2560x32_S256x32_1_0_0_1_n_n.lhsNonContracting by decide)]
      rfl)
    (fun i c => by
      unfold DotDims.rhsIdx
      rw [dif_neg (show ¬(1 : Fin _) ∈ dot_S256x2560_S2560x32_S256x32_1_0_0_1_n_n.rhsBatch by decide),
        dif_pos (show (1 : Fin _) ∈ dot_S256x2560_S2560x32_S256x32_1_0_0_1_n_n.rhsNonContracting by decide)]
      rfl)
    none _ _ r d).trans ?_
  unfold Cert.GnnSpec.agg
  refine Finset.sum_congr rfl fun m _ => ?_
  rw [truncf_apply, truncf_apply, shapeCast_1ab_ab_apply]
  congr 1
  rw [select_apply, rowcol_bit (i 1).val hi _ _ r m n hn, addf_apply, broadcast_apply, sim0_apply xt xa _ _ _ r m n hx]
  unfold Cert.GnnSpec.adj
  split
  · exact select_one _ _
  · exact select_zero _ _

/-- The vector exponential at an index. -/
theorem exp_apply' {s : Shape} {φ : FTy} (x : FVec Ideal s φ) (j : s.Idx) : exp x j = Ideal.exp (x j) := rfl

/-- What the activation is applied to, at (r, e): the specification's at node n = 256·i₁ + r. -/
theorem pre0_apply (i : grid0.Coords)
    (xt : Vec Ideal S1x256x32 .f32) (xa : Vec Ideal S1x2560x32 .f32) (ht : Vec Ideal S1x256x32 .f32) (ha : Vec Ideal S1x2560x32 .f32)
    (ws wn : Vec Ideal S32x32 .f32) (bv : Vec Ideal S1x32 .f32)
    (h1 : S1x32.ShapeCasts S1x32) (h2 : S1x32.Broadcasts S256x32)
    (r : Fin 256) (e : Fin 32) (n : Fin 2560) (hn : n.val = 256 * (i 1).val + r.val)
    (hx : ∀ f : Fin 32, xt (ix3 0 r f) = xa (ix3 0 n f)) (hh : ∀ d : Fin 32, ht (ix3 0 r d) = ha (ix3 0 n d)) :
    addf (addf (k0_pay3 ht ws)
        (matmul (F := Ideal) dot_S256x32_S32x32_S256x32_1_0_0_1_n_n none (k0_pay4 i xt xa ha) (k0_pay2 wn)
          (constant (F := Ideal) S256x32 .f32 0x00000000#32)))
        (broadcastTo S256x32 (shapeCast S1x32 bv h1) h2) (ix2 r e)
      = Cert.GnnSpec.preact (fun m f => xa (ix3 0 m f)) (fun m d => ha (ix3 0 m d)) (fun d e' => ws (ix2 d e'))
          (fun d e' => wn (ix2 d e')) (fun e' => bv (ix2 0 e')) n e := by
  rw [addf_apply, addf_apply, pay3_0_apply, broadcastTo_1b_ab_apply, shapeCast_self]
  rw [Cert.LibMatmulZero.matmul_zero_ix2 (R := 256) (K := 32) (C := 32) dot_S256x32_S32x32_S256x32_1_0_0_1_n_n rfl rfl rfl rfl
    (fun i c => by
      unfold DotDims.lhsIdx
      rw [dif_neg (show ¬(0 : Fin _) ∈ dot_S256x32_S32x32_S256x32_1_0_0_1_n_n.lhsBatch by decide),
        dif_pos (show (0 : Fin _) ∈ dot_S256x32_S32x32_S256x32_1_0_0_1_n_n.lhsNonContracting by decide)]
      rfl)
    (fun i c => by
      unfold DotDims.rhsIdx
      rw [dif_neg (show ¬(1 : Fin _) ∈ dot_S256x32_S32x32_S256x32_1_0_0_1_n_n.rhsBatch by decide),
        dif_pos (show (1 : Fin _) ∈ dot_S256x32_S32x32_S256x32_1_0_0_1_n_n.rhsNonContracting by decide)]
      rfl)
    none _ _ r e]
  unfold Cert.GnnSpec.preact
  congr 1
  congr 1
  · exact Finset.sum_congr rfl fun d _ => by rw [hh]
  · exact Finset.sum_congr rfl fun d _ => by rw [pay4_0_apply i xt xa ha r d n hn hx, pay2_0_apply]

/-- The value stored at (0, r, e) by a grid step of the first launch is the specification's layer value at node
    n = 256·i₁ + r and output feature e, the tile blocks being rows 256·i₁ … of the whole blocks. -/
theorem pay0_apply (i : grid0.Coords)
    (xt : Vec Ideal S1x256x32 .f32) (xa : Vec Ideal S1x2560x32 .f32) (ht : Vec Ideal S1x256x32 .f32) (ha : Vec Ideal S1x2560x32 .f32)
    (ws wn : Vec Ideal S32x32 .f32) (bv : Vec Ideal S1x32 .f32)
    (r : Fin 256) (e : Fin 32) (n : Fin 2560) (hn : n.val = 256 * (i 1).val + r.val)
    (hx : ∀ f : Fin 32, xt (ix3 0 r f) = xa (ix3 0 n f)) (hh : ∀ d : Fin 32, ht (ix3 0 r d) = ha (ix3 0 n d)) :
    k0_pay1 (k0_pay2 wn) (k0_pay3 ht ws) (k0_pay4 i xt xa ha) (constant (F := Ideal) S256x32 .f32 0x00000000#32) bv (ix3 0 r e)
      = Cert.GnnSpec.layerRow (fun m f => xa (ix3 0 m f)) (fun m d => ha (ix3 0 m d)) (fun d e' => ws (ix2 d e'))
          (fun d e' => wn (ix2 d e')) (fun e' => bv (ix2 0 e')) n e := by
  unfold k0_pay1
  rw [shapeCast_ab_1ab_apply, select_apply, cmpf_apply, subf_apply, exp_apply', broadcast_apply, broadcast_apply,
    pre0_apply i xt xa ht ha ws wn bv _ _ r e n hn hx hh]
  rfl

end Cert.KernelSide

end
-- ==== Proof.IdealValue0.lean ====
/-
  Launch 0: what its result array holds after the last grid point, as one function of the arrays it read.

  Grid point t = 10·b + i works on batch entry b and on rows 256·i … 256·i + 255. Its tile windows read those
  rows of the feature array and of the layer's input, its whole-entry windows all 2560 rows of entry b, the
  weight and bias windows the whole small arrays; the stored tile is, entry by entry, one layer of the
  specification applied to batch entry b at row 256·i + r. The forty tiles are disjoint and cover the result array,
  so the array ends holding the layer of the whole arrays.
-/
import proofs.«126938_j63393717289327_1_alg».proof.Proof.IdealBody0
import proofs.«126938_j63393717289327_1_alg».proof.Proof.Payload0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The layer launch 0 computes, of the arrays as the launch finds them. -/
def layerOf0 (c : Dev nD) : S4x2560x32.Idx → EReal :=
  Cert.GnnSpec.layer (V c main_arg0) (V c main_arg0) (fun d e => V c main_v1 (ix2 d e)) (fun d e => V c main_v3 (ix2 d e)) (fun e => V c main_v6 (ix2 0 e))

theorem hz3_0 : (![0, 0, 0] : Fin 3 → Nat) = fun _ => 0 := funext fun a => by fin_cases a <;> rfl
theorem hz2_0 : (![0, 0] : Fin 2 → Nat) = fun _ => 0 := funext fun a => by fin_cases a <;> rfl

/-- The printed index maps, decided over the forty grid points: point t = 10·b + i has the tile windows at block
    (b, i, 0), the whole-entry windows at (b, 0, 0), the small windows at the origin, and grid coordinates (b, i). -/
theorem idx_facts0 : ∀ t : Fin cfg0.N,
    (win0_0.index t (0 : Fin 3) = t.val / 10 ∧ win0_0.index t (1 : Fin 3) = t.val % 10 ∧ win0_0.index t (2 : Fin 3) = 0)
    ∧ (win0_1.index t (0 : Fin 3) = t.val / 10 ∧ win0_1.index t (1 : Fin 3) = 0 ∧ win0_1.index t (2 : Fin 3) = 0)
    ∧ (win0_2.index t (0 : Fin 3) = t.val / 10 ∧ win0_2.index t (1 : Fin 3) = t.val % 10 ∧ win0_2.index t (2 : Fin 3) = 0)
    ∧ (win0_3.index t (0 : Fin 3) = t.val / 10 ∧ win0_3.index t (1 : Fin 3) = 0 ∧ win0_3.index t (2 : Fin 3) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 3) = t.val / 10 ∧ win0_7.index t (1 : Fin 3) = t.val % 10 ∧ win0_7.index t (2 : Fin 3) = 0)
    ∧ ((grid0.coords t (1 : Fin 2)).val = t.val % 10) :=
  (by decide +kernel : ∀ t : Fin grid0.N, _)

/-- Every (batch entry, tile) pair is some point's. -/
theorem idx_onto0 : ∀ (q0 : Fin 4) (q1 : Fin 10), ∃ t : Fin cfg0.N, t.val = 10 * q0.val + q1.val :=
  fun q0 q1 => ⟨⟨10 * q0.val + q1.val, by have := q0.isLt; have := q1.isLt; show _ < grid0.N; rw [N_0]; omega⟩, rfl⟩

theorem tlt0 (t : Fin cfg0.N) : t.val < 40 := lt_of_lt_of_eq t.isLt N_0
theorem tdiv0 (t : Fin cfg0.N) : t.val / 10 < 4 := by have := tlt0 t; omega
theorem trow0 (t : Fin cfg0.N) (r : Fin 256) : 256 * (t.val % 10) + r.val < 2560 := by have := r.isLt; omega

/-! ## The blocks read where the arrays say -/

/-- A tile window's block at point t: rows 256·i … of batch entry b. -/
theorem tileX_read0 (c : Dev nD) (t : Fin cfg0.N) (r : Fin 256) (f : Fin 32) :
    iblk0 V c 0 t (ix3 (0 : Fin 1) r f) = V c main_arg0 (ix3 (⟨t.val / 10, tdiv0 t⟩ : Fin 4) (⟨256 * (t.val % 10) + r.val, trow0 t r⟩ : Fin 2560) f) := by
  obtain ⟨⟨e0, e1, e2⟩, -⟩ := idx_facts0 t
  show V c main_arg0 (((cfg0.win 0).blk t).view.emb (ix3 (0 : Fin 1) r f)) = _
  refine congrArg (V c main_arg0) ?_
  funext a; apply Fin.ext
  match a with
  | ⟨0, _⟩ => show win0_0.index t (0 : Fin 3) * 1 + 1 * 0 = t.val / 10; omega
  | ⟨1, _⟩ => show win0_0.index t (1 : Fin 3) * 256 + 1 * r.val = 256 * (t.val % 10) + r.val; omega
  | ⟨2, _⟩ => show win0_0.index t (2 : Fin 3) * 32 + 1 * f.val = f.val; omega

theorem tileH_read0 (c : Dev nD) (t : Fin cfg0.N) (r : Fin 256) (f : Fin 32) :
    iblk0 V c 2 t (ix3 (0 : Fin 1) r f) = V c main_arg0 (ix3 (⟨t.val / 10, tdiv0 t⟩ : Fin 4) (⟨256 * (t.val % 10) + r.val, trow0 t r⟩ : Fin 2560) f) := by
  obtain ⟨-, -, ⟨e0, e1, e2⟩, -⟩ := idx_facts0 t
  show V c main_arg0 (((cfg0.win 2).blk t).view.emb (ix3 (0 : Fin 1) r f)) = _
  refine congrArg (V c main_arg0) ?_
  funext a; apply Fin.ext
  match a with
  | ⟨0, _⟩ => show win0_2.index t (0 : Fin 3) * 1 + 1 * 0 = t.val / 10; omega
  | ⟨1, _⟩ => show win0_2.index t (1 : Fin 3) * 256 + 1 * r.val = 256 * (t.val % 10) + r.val; omega
  | ⟨2, _⟩ => show win0_2.index t (2 : Fin 3) * 32 + 1 * f.val = f.val; omega

/-- A whole-entry window's block at point t: all rows of batch entry b. -/
theorem allX_read0 (c : Dev nD) (t : Fin cfg0.N) (n : Fin 2560) (f : Fin 32) :
    iblk0 V c 1 t (ix3 (0 : Fin 1) n f) = V c main_arg0 (ix3 (⟨t.val / 10, tdiv0 t⟩ : Fin 4) n f) := by
  obtain ⟨-, ⟨e0, e1, e2⟩, -⟩ := idx_facts0 t
  show V c main_arg0 (((cfg0.win 1).blk t).view.emb (ix3 (0 : Fin 1) n f)) = _
  refine congrArg (V c main_arg0) ?_
  funext a; apply Fin.ext
  match a with
  | ⟨0, _⟩ => show win0_1.index t (0 : Fin 3) * 1 + 1 * 0 = t.val / 10; omega
  | ⟨1, _⟩ => show win0_1.index t (1 : Fin 3) * 2560 + 1 * n.val = n.val; omega
  | ⟨2, _⟩ => show win0_1.index t (2 : Fin 3) * 32 + 1 * f.val = f.val; omega

theorem allH_read0 (c : Dev nD) (t : Fin cfg0.N) (n : Fin 2560) (f : Fin 32) :
    iblk0 V c 3 t (ix3 (0 : Fin 1) n f) = V c main_arg0 (ix3 (⟨t.val / 10, tdiv0 t⟩ : Fin 4) n f) := by
  obtain ⟨-, -, -, ⟨e0, e1, e2⟩, -⟩ := idx_facts0 t
  show V c main_arg0 (((cfg0.win 3).blk t).view.emb (ix3 (0 : Fin 1) n f)) = _
  refine congrArg (V c main_arg0) ?_
  funext a; apply Fin.ext
  match a with
  | ⟨0, _⟩ => show win0_3.index t (0 : Fin 3) * 1 + 1 * 0 = t.val / 10; omega
  | ⟨1, _⟩ => show win0_3.index t (1 : Fin 3) * 2560 + 1 * n.val = n.val; omega
  | ⟨2, _⟩ => show win0_3.index t (2 : Fin 3) * 32 + 1 * f.val = f.val; omega

/-- The weight and bias windows' blocks are the whole small arrays. -/
theorem ws_read0 (c : Dev nD) (t : Fin cfg0.N) (d e : Fin 32) : iblk0 V c 4 t (ix2 d e) = V c main_v1 (ix2 d e) := by
  obtain ⟨-, -, -, -, ⟨e0, e1⟩, -⟩ := idx_facts0 t
  show V c main_v1 (((cfg0.win 4).blk t).view.emb (ix2 d e)) = _
  refine congrArg (V c main_v1) ?_
  funext a; apply Fin.ext
  match a with
  | ⟨0, _⟩ => show win0_4.index t (0 : Fin 2) * 32 + 1 * d.val = d.val; omega
  | ⟨1, _⟩ => show win0_4.index t (1 : Fin 2) * 32 + 1 * e.val = e.val; omega

theorem wn_read0 (c : Dev nD) (t : Fin cfg0.N) (d e : Fin 32) : iblk0 V c 5 t (ix2 d e) = V c main_v3 (ix2 d e) := by
  obtain ⟨-, -, -, -, -, ⟨e0, e1⟩, -⟩ := idx_facts0 t
  show V c main_v3 (((cfg0.win 5).blk t).view.emb (ix2 d e)) = _
  refine congrArg (V c main_v3) ?_
  funext a; apply Fin.ext
  match a with
  | ⟨0, _⟩ => show win0_5.index t (0 : Fin 2) * 32 + 1 * d.val = d.val; omega
  | ⟨1, _⟩ => show win0_5.index t (1 : Fin 2) * 32 + 1 * e.val = e.val; omega

theorem bias_read0 (c : Dev nD) (t : Fin cfg0.N) (e : Fin 32) : iblk0 V c 6 t (ix2 (0 : Fin 1) e) = V c main_v6 (ix2 (0 : Fin 1) e) := by
  obtain ⟨-, -, -, -, -, -, ⟨e0, e1⟩, -⟩ := idx_facts0 t
  show V c main_v6 (((cfg0.win 6).blk t).view.emb (ix2 (0 : Fin 1) e)) = _
  refine congrArg (V c main_v6) ?_
  funext a; apply Fin.ext
  match a with
  | ⟨0, _⟩ => show win0_6.index t (0 : Fin 2) * 1 + 1 * 0 = 0; omega
  | ⟨1, _⟩ => show win0_6.index t (1 : Fin 2) * 32 + 1 * e.val = e.val; omega

/-- Where the output tile's entries sit in the result array. -/
theorem out_emb0 (t : Fin cfg0.N) (r : Fin 256) (e : Fin 32) :
    ((cfg0.win 7).blk t).view.emb (ix3 (0 : Fin 1) r e) = ix3 (⟨t.val / 10, tdiv0 t⟩ : Fin 4) (⟨256 * (t.val % 10) + r.val, trow0 t r⟩ : Fin 2560) e := by
  obtain ⟨-, -, -, -, -, -, -, ⟨e0, e1, e2⟩, -⟩ := idx_facts0 t
  funext a; apply Fin.ext
  match a with
  | ⟨0, _⟩ => show win0_7.index t (0 : Fin 3) * 1 + 1 * 0 = t.val / 10; omega
  | ⟨1, _⟩ => show win0_7.index t (1 : Fin 3) * 256 + 1 * r.val = 256 * (t.val % 10) + r.val; omega
  | ⟨2, _⟩ => show win0_7.index t (2 : Fin 3) * 32 + 1 * e.val = e.val; omega

/-! ## What a point writes back -/

/-- WHAT POINT `t` WRITES BACK is block `t` of the layer of the arrays as the launch finds them. -/
theorem flushed0_eq (c : Dev nD) (t : Fin cfg0.N) :
    (dat0 V c).flushed 7 t = ((cfg0.win 7).blk t).view.read (Elt Ideal) (layerOf0 V c) := by
  show (cfg0.win 7).cut (grid0.coords t) ((dat0 V c).after 7 t) = _
  rw [after0_7]
  unfold out0_7
  rw [View.canon_unit_zero hz3_0]
  simp only [View.ld_unit_zero (S := S1x256x32) hz3_0, View.ld_unit_zero (S := S1x2560x32) hz3_0, View.ld_unit_zero (S := S32x32) hz2_0, View.ld_unit_zero (S := S1x32) hz2_0]
  funext y
  obtain ⟨a0, r, e, rfl⟩ : ∃ (a0 : Fin 1) (r : Fin 256) (e : Fin 32), y = ix3 a0 r e := ⟨y 0, y 1, y 2, eq_ix3 y⟩
  obtain rfl : a0 = 0 := Subsingleton.elim _ _
  have hi : (grid0.coords t (1 : Fin 2)).val = t.val % 10 := (idx_facts0 t).2.2.2.2.2.2.2.2
  refine (Cert.KernelSide.pay0_apply (grid0.coords t) (iblk0 V c 0 t) (iblk0 V c 1 t) (iblk0 V c 2 t) (iblk0 V c 3 t) (iblk0 V c 4 t) (iblk0 V c 5 t) (iblk0 V c 6 t) r e
    (⟨256 * (t.val % 10) + r.val, trow0 t r⟩ : Fin 2560) (by show 256 * (t.val % 10) + r.val = 256 * (grid0.coords t (1 : Fin 2)).val + r.val; rw [hi])
    (fun f => (tileX_read0 V c t r f).trans (allX_read0 V c t _ f).symm)
    (fun d => (tileH_read0 V c t r d).trans (allH_read0 V c t _ d).symm)).trans ?_
  show _ = layerOf0 V c (((cfg0.win 7).blk t).view.emb (ix3 (0 : Fin 1) r e))
  rw [out_emb0 t r e]
  unfold layerOf0 Cert.GnnSpec.layer
  show Cert.GnnSpec.layerRow _ _ _ _ _ _ _ = Cert.GnnSpec.layerRow (fun n f => V c main_arg0 (ix3 (⟨t.val / 10, tdiv0 t⟩ : Fin 4) n f)) (fun n d => V c main_arg0 (ix3 (⟨t.val / 10, tdiv0 t⟩ : Fin 4) n d)) _ _ _ (⟨256 * (t.val % 10) + r.val, trow0 t r⟩ : Fin 2560) e
  rw [show (fun m f => iblk0 V c 1 t (ix3 (0 : Fin 1) m f)) = (fun n f => V c main_arg0 (ix3 (⟨t.val / 10, tdiv0 t⟩ : Fin 4) n f)) from funext fun n => funext fun f => allX_read0 V c t n f,
    show (fun m d => iblk0 V c 3 t (ix3 (0 : Fin 1) m d)) = (fun n d => V c main_arg0 (ix3 (⟨t.val / 10, tdiv0 t⟩ : Fin 4) n d)) from funext fun n => funext fun d => allH_read0 V c t n d,
    show (fun d e' => iblk0 V c 4 t (ix2 d e')) = (fun d e' => V c main_v1 (ix2 d e')) from funext fun d => funext fun e' => ws_read0 V c t d e',
    show (fun d e' => iblk0 V c 5 t (ix2 d e')) = (fun d e' => V c main_v3 (ix2 d e')) from funext fun d => funext fun e' => wn_read0 V c t d e',
    show (fun e' => iblk0 V c 6 t (ix2 (0 : Fin 1) e')) = (fun e' => V c main_v6 (ix2 (0 : Fin 1) e')) from funext fun e' => bias_read0 V c t e']

/-! ## The tiles cover the array -/

/-- An index of the result array is in point `t`'s tile iff each coordinate is in the tile's range. -/
theorem mem_blk0 (t : Fin cfg0.N) (i : S4x2560x32.Idx) :
    i ∈ ((cfg0.win 7).blk t).view.set ↔ ∀ a : Fin 3, win0_7.index t a * S1x256x32.size a ≤ (i a).val ∧ (i a).val < win0_7.index t a * S1x256x32.size a + S1x256x32.size a := by
  show i ∈ ((View.whole main_v7).slice (win0_7.rect t)).set ↔ _
  rw [View.set_slice_whole, Rect.mem_set_unit]
  exact Iff.rfl

/-- Every index is in some point's tile: batch entry b, row n sits in the tile of point 10·b + n / 256. -/
theorem cover0 (i : S4x2560x32.Idx) : ∃ t : Fin cfg0.N, (cfg0.win 7).flush t = true ∧ i ∈ ((cfg0.win 7).blk t).view.set := by
  have hi0 : (i 0).val < 4 := (i 0).isLt
  have hi1 : (i 1).val < 2560 := (i 1).isLt
  have hi2 : (i 2).val < 32 := (i 2).isLt
  obtain ⟨t, ht⟩ := idx_onto0 ⟨(i 0).val, hi0⟩ ⟨(i 1).val / 256, by omega⟩
  have ht' : t.val = 10 * (i 0).val + (i 1).val / 256 := ht
  obtain ⟨-, -, -, -, -, -, -, ⟨e0, e1, e2⟩, -⟩ := idx_facts0 t
  refine ⟨t, flush0_7 t, ?_⟩
  rw [mem_blk0]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 256 ≤ (i 1).val ∧ (i 1).val < win0_7.index t (1 : Fin 3) * 256 + 256; omega
  | ⟨2, _⟩ => show win0_7.index t (2 : Fin 3) * 32 ≤ (i 2).val ∧ (i 2).val < win0_7.index t (2 : Fin 3) * 32 + 32; omega

/-- THE RESULT ARRAY after the last point: the layer of the arrays as the launch finds them. -/
theorem final0 (c : Dev nD) : (dat0 V c).arrAt 7 cfg0.N = layerOf0 V c :=
  (dat0 V c).arrAt_eq_of_cover 7 (layerOf0 V c) (fun t _ => flushed0_eq V c t) (cover0)

end Cert.KernelIdeal.Hand

end
-- ==== Proof.Payload1.lean ====
/-
  The arithmetic of one grid step of the second launch, read at an index, over the extended reals.

  The second launch runs the same step as the first on the first layer's result as node features h (the similarity
  still taken from the input features x) and with the second slice of the weights. The statements are those of the
  first launch; the lemmas that do not mention a launch (the diagonal test, the inner products, the squashed
  similarity) are taken from there.
-/
import proofs.«126938_j63393717289327_1_alg».proof.Proof.Payload0

noncomputable section

namespace Cert.KernelSide

open Idealize.ShloMosaic Idealize.ShloMosaic.ValueIdx Cert.KernelIdeal Cert.KernelIdeal.Gen
open Cert.KernelIdeal.Facts₀ Cert.KernelIdeal.Facts

variable [Cert.KernelIdeal.Facts]

/-- The neighbour weights pass through unchanged. -/
theorem pay2_1_apply (wn : Vec Ideal S32x32 .f32) (d e : Fin 32) :
    k1_pay2 wn (ix2 d e) = wn (ix2 d e) := by
  unfold k1_pay2
  rw [shapeCast_self]
  rfl

/-- The tile times the self weights, at (r, e). -/
theorem pay3_1_apply (ht : Vec Ideal S1x256x32 .f32) (ws : Vec Ideal S32x32 .f32) (r : Fin 256) (e : Fin 32) :
    k1_pay3 ht ws (ix2 r e) = ∑ d : Fin 32, ht (ix3 0 r d) * ws (ix2 d e) := by
  unfold k1_pay3
  rw [shapeCast_self]
  refine (Cert.LibMatmulZero.matmul_zero_ix2 (R := 256) (K := 32) (C := 32) dot_S256x32_S32x32_S256x32_1_0_0_1_n_n rfl rfl rfl rfl
    (fun i c => by
      unfold DotDims.lhsIdx
      rw [dif_neg (show ¬(0 : Fin _) ∈ dot_S256x32_S32x32_S256x32_1_0_0_1_n_n.lhsBatch by decide),
        dif_pos (show (0 : Fin _) ∈ dot_S256x32_S32x32_S256x32_1_0_0_1_n_n.lhsNonContracting by decide)]
      rfl)
    (fun i c => by
      unfold DotDims.rhsIdx
      rw [dif_neg (show ¬(1 : Fin _) ∈ dot_S256x32_S32x32_S256x32_1_0_0_1_n_n.rhsBatch by decide),
        dif_pos (show (1 : Fin _) ∈ dot_S256x32_S32x32_S256x32_1_0_0_1_n_n.rhsNonContracting by decide)]
      rfl)
    none _ _ r e).trans ?_
  refine Finset.sum_congr rfl fun d _ => ?_
  rw [truncf_apply, truncf_apply, shapeCast_1ab_ab_apply]

/-- The neighbourhood aggregate of the tile's row r, at feature d: the specification's aggregate at node n = 256·i₁ + r. -/
theorem pay4_1_apply (i : grid1.Coords) (xt : Vec Ideal S1x256x32 .f32) (xa : Vec Ideal S1x2560x32 .f32)
    (ha : Vec Ideal S1x2560x32 .f32) (r : Fin 256) (d : Fin 32) (n : Fin 2560) (hn : n.val = 256 * (i 1).val + r.val)
    (hx : ∀ f : Fin 32, xt (ix3 0 r f) = xa (ix3 0 n f)) :
    k1_pay4 i xt xa ha (ix2 r d)
      = Cert.GnnSpec.agg (fun m f => xa (ix3 0 m f)) (fun m d' => ha (ix3 0 m d')) n d := by
  have hi : (i 1).val < 10 := (i 1).isLt
  unfold k1_pay4
  rw [truncf_apply]
  refine (Cert.LibMatmulZero.matmul_zero_ix2 (R := 256) (K := 2560) (C := 32) dot_S256x2560_S2560x32_S256x32_1_0_0_1_n_n rfl rfl rfl rfl
    (fun i c => by
      unfold DotDims.lhsIdx
      rw [dif_neg (show ¬(0 : Fin _) ∈ dot_S256x2560_S2560x32_S256x32_1_0_0_1_n_n.lhsBatch by decide),
        dif_pos (show (0 : Fin _) ∈ dot_S256x2560_S2560x32_S256x32_1_0_0_1_n_n.lhsNonContracting by decide)]
      rfl)
    (fun i c => by
      unfold DotDims.rhsIdx
      rw [dif_neg (show ¬(1 : Fin _) ∈ dot_S256x2560_S2560x32_S256x32_1_0_0_1_n_n.rhsBatch by decide),
        dif_pos (show (1 : Fin _) ∈ dot_S256x2560_S2560x32_S256x32_1_0_0_1_n_n.rhsNonContracting by decide)]
      rfl)
    none _ _ r d).trans ?_
  unfold Cert.GnnSpec.agg
  refine Finset.sum_congr rfl fun m _ => ?_
  rw [truncf_apply, truncf_apply, shapeCast_1ab_ab_apply]
  congr 1
  rw [select_apply, rowcol_bit (i 1).val hi _ _ r m n hn, addf_apply, broadcast_apply, sim0_apply xt xa _ _ _ r m n hx]
  unfold Cert.GnnSpec.adj
  split
  · exact select_one _ _
  · exact select_zero _ _

/-- What the activation is applied to, at (r, e): the specification's at node n = 256·i₁ + r. -/
theorem pre1_apply (i : grid1.Coords)
    (xt : Vec Ideal S1x256x32 .f32) (xa : Vec Ideal S1x2560x32 .f32) (ht : Vec Ideal S1x256x32 .f32) (ha : Vec Ideal S1x2560x32 .f32)
    (ws wn : Vec Ideal S32x32 .f32) (bv : Vec Ideal S1x32 .f32)
    (h1 : S1x32.ShapeCasts S1x32) (h2 : S1x32.Broadcasts S256x32)
    (r : Fin 256) (e : Fin 32) (n : Fin 2560) (hn : n.val = 256 * (i 1).val + r.val)
    (hx : ∀ f : Fin 32, xt (ix3 0 r f) = xa (ix3 0 n f)) (hh : ∀ d : Fin 32, ht (ix3 0 r d) = ha (ix3 0 n d)) :
    addf (addf (k1_pay3 ht ws)
        (matmul (F := Ideal) dot_S256x32_S32x32_S256x32_1_0_0_1_n_n none (k1_pay4 i xt xa ha) (k1_pay2 wn)
          (constant (F := Ideal) S256x32 .f32 0x00000000#32)))
        (broadcastTo S256x32 (shapeCast S1x32 bv h1) h2) (ix2 r e)
      = Cert.GnnSpec.preact (fun m f => xa (ix3 0 m f)) (fun m d => ha (ix3 0 m d)) (fun d e' => ws (ix2 d e'))
          (fun d e' => wn (ix2 d e')) (fun e' => bv (ix2 0 e')) n e := by
  rw [addf_apply, addf_apply, pay3_1_apply, broadcastTo_1b_ab_apply, shapeCast_self]
  rw [Cert.LibMatmulZero.matmul_zero_ix2 (R := 256) (K := 32) (C := 32) dot_S256x32_S32x32_S256x32_1_0_0_1_n_n rfl rfl rfl rfl
    (fun i c => by
      unfold DotDims.lhsIdx
      rw [dif_neg (show ¬(0 : Fin _) ∈ dot_S256x32_S32x32_S256x32_1_0_0_1_n_n.lhsBatch by decide),
        dif_pos (show (0 : Fin _) ∈ dot_S256x32_S32x32_S256x32_1_0_0_1_n_n.lhsNonContracting by decide)]
      rfl)
    (fun i c => by
      unfold DotDims.rhsIdx
      rw [dif_neg (show ¬(1 : Fin _) ∈ dot_S256x32_S32x32_S256x32_1_0_0_1_n_n.rhsBatch by decide),
        dif_pos (show (1 : Fin _) ∈ dot_S256x32_S32x32_S256x32_1_0_0_1_n_n.rhsNonContracting by decide)]
      rfl)
    none _ _ r e]
  unfold Cert.GnnSpec.preact
  congr 1
  congr 1
  · exact Finset.sum_congr rfl fun d _ => by rw [hh]
  · exact Finset.sum_congr rfl fun d _ => by rw [pay4_1_apply i xt xa ha r d n hn hx, pay2_1_apply]

/-- The value stored at (0, r, e) by a grid step of the second launch is the specification's layer value at node
    n = 256·i₁ + r and output feature e, the tile blocks being rows 256·i₁ … of the whole blocks. -/
theorem pay1_apply (i : grid1.Coords)
    (xt : Vec Ideal S1x256x32 .f32) (xa : Vec Ideal S1x2560x32 .f32) (ht : Vec Ideal S1x256x32 .f32) (ha : Vec Ideal S1x2560x32 .f32)
    (ws wn : Vec Ideal S32x32 .f32) (bv : Vec Ideal S1x32 .f32)
    (r : Fin 256) (e : Fin 32) (n : Fin 2560) (hn : n.val = 256 * (i 1).val + r.val)
    (hx : ∀ f : Fin 32, xt (ix3 0 r f) = xa (ix3 0 n f)) (hh : ∀ d : Fin 32, ht (ix3 0 r d) = ha (ix3 0 n d)) :
    k1_pay1 (k1_pay2 wn) (k1_pay3 ht ws) (k1_pay4 i xt xa ha) (constant (F := Ideal) S256x32 .f32 0x00000000#32) bv (ix3 0 r e)
      = Cert.GnnSpec.layerRow (fun m f => xa (ix3 0 m f)) (fun m d => ha (ix3 0 m d)) (fun d e' => ws (ix2 d e'))
          (fun d e' => wn (ix2 d e')) (fun e' => bv (ix2 0 e')) n e := by
  unfold k1_pay1
  rw [shapeCast_ab_1ab_apply, select_apply, cmpf_apply, subf_apply, exp_apply', broadcast_apply, broadcast_apply,
    pre1_apply i xt xa ht ha ws wn bv _ _ r e n hn hx hh]
  rfl

end Cert.KernelSide

end
-- ==== Proof.IdealValue1.lean ====
/-
  Launch 1: what its result array holds after the last grid point, as one function of the arrays it read.

  Grid point t = 10·b + i works on batch entry b and on rows 256·i … 256·i + 255. Its tile windows read those
  rows of the feature array and of the layer's input, its whole-entry windows all 2560 rows of entry b, the
  weight and bias windows the whole small arrays; the stored tile is, entry by entry, one layer of the
  specification applied to batch entry b at row 256·i + r. The forty tiles are disjoint and cover the result array,
  so the array ends holding the layer of the whole arrays.
-/
import proofs.«126938_j63393717289327_1_alg».proof.Proof.IdealBody1
import proofs.«126938_j63393717289327_1_alg».proof.Proof.Payload1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The layer launch 1 computes, of the arrays as the launch finds them. -/
def layerOf1 (c : Dev nD) : S4x2560x32.Idx → EReal :=
  Cert.GnnSpec.layer (V c main_arg0) (V c main_v7) (fun d e => V c main_v9 (ix2 d e)) (fun d e => V c main_v11 (ix2 d e)) (fun e => V c main_v14 (ix2 0 e))

theorem hz3_1 : (![0, 0, 0] : Fin 3 → Nat) = fun _ => 0 := funext fun a => by fin_cases a <;> rfl
theorem hz2_1 : (![0, 0] : Fin 2 → Nat) = fun _ => 0 := funext fun a => by fin_cases a <;> rfl

/-- The printed index maps, decided over the forty grid points: point t = 10·b + i has the tile windows at block
    (b, i, 0), the whole-entry windows at (b, 0, 0), the small windows at the origin, and grid coordinates (b, i). -/
theorem idx_facts1 : ∀ t : Fin cfg1.N,
    (win1_0.index t (0 : Fin 3) = t.val / 10 ∧ win1_0.index t (1 : Fin 3) = t.val % 10 ∧ win1_0.index t (2 : Fin 3) = 0)
    ∧ (win1_1.index t (0 : Fin 3) = t.val / 10 ∧ win1_1.index t (1 : Fin 3) = 0 ∧ win1_1.index t (2 : Fin 3) = 0)
    ∧ (win1_2.index t (0 : Fin 3) = t.val / 10 ∧ win1_2.index t (1 : Fin 3) = t.val % 10 ∧ win1_2.index t (2 : Fin 3) = 0)
    ∧ (win1_3.index t (0 : Fin 3) = t.val / 10 ∧ win1_3.index t (1 : Fin 3) = 0 ∧ win1_3.index t (2 : Fin 3) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 3) = t.val / 10 ∧ win1_7.index t (1 : Fin 3) = t.val % 10 ∧ win1_7.index t (2 : Fin 3) = 0)
    ∧ ((grid1.coords t (1 : Fin 2)).val = t.val % 10) :=
  (by decide +kernel : ∀ t : Fin grid1.N, _)

/-- Every (batch entry, tile) pair is some point's. -/
theorem idx_onto1 : ∀ (q0 : Fin 4) (q1 : Fin 10), ∃ t : Fin cfg1.N, t.val = 10 * q0.val + q1.val :=
  fun q0 q1 => ⟨⟨10 * q0.val + q1.val, by have := q0.isLt; have := q1.isLt; show _ < grid1.N; rw [N_1]; omega⟩, rfl⟩

theorem tlt1 (t : Fin cfg1.N) : t.val < 40 := lt_of_lt_of_eq t.isLt N_1
theorem tdiv1 (t : Fin cfg1.N) : t.val / 10 < 4 := by have := tlt1 t; omega
theorem trow1 (t : Fin cfg1.N) (r : Fin 256) : 256 * (t.val % 10) + r.val < 2560 := by have := r.isLt; omega

/-! ## The blocks read where the arrays say -/

/-- A tile window's block at point t: rows 256·i … of batch entry b. -/
theorem tileX_read1 (c : Dev nD) (t : Fin cfg1.N) (r : Fin 256) (f : Fin 32) :
    iblk1 V c 0 t (ix3 (0 : Fin 1) r f) = V c main_arg0 (ix3 (⟨t.val / 10, tdiv1 t⟩ : Fin 4) (⟨256 * (t.val % 10) + r.val, trow1 t r⟩ : Fin 2560) f) := by
  obtain ⟨⟨e0, e1, e2⟩, -⟩ := idx_facts1 t
  show V c main_arg0 (((cfg1.win 0).blk t).view.emb (ix3 (0 : Fin 1) r f)) = _
  refine congrArg (V c main_arg0) ?_
  funext a; apply Fin.ext
  match a with
  | ⟨0, _⟩ => show win1_0.index t (0 : Fin 3) * 1 + 1 * 0 = t.val / 10; omega
  | ⟨1, _⟩ => show win1_0.index t (1 : Fin 3) * 256 + 1 * r.val = 256 * (t.val % 10) + r.val; omega
  | ⟨2, _⟩ => show win1_0.index t (2 : Fin 3) * 32 + 1 * f.val = f.val; omega

theorem tileH_read1 (c : Dev nD) (t : Fin cfg1.N) (r : Fin 256) (f : Fin 32) :
    iblk1 V c 2 t (ix3 (0 : Fin 1) r f) = V c main_v7 (ix3 (⟨t.val / 10, tdiv1 t⟩ : Fin 4) (⟨256 * (t.val % 10) + r.val, trow1 t r⟩ : Fin 2560) f) := by
  obtain ⟨-, -, ⟨e0, e1, e2⟩, -⟩ := idx_facts1 t
  show V c main_v7 (((cfg1.win 2).blk t).view.emb (ix3 (0 : Fin 1) r f)) = _
  refine congrArg (V c main_v7) ?_
  funext a; apply Fin.ext
  match a with
  | ⟨0, _⟩ => show win1_2.index t (0 : Fin 3) * 1 + 1 * 0 = t.val / 10; omega
  | ⟨1, _⟩ => show win1_2.index t (1 : Fin 3) * 256 + 1 * r.val = 256 * (t.val % 10) + r.val; omega
  | ⟨2, _⟩ => show win1_2.index t (2 : Fin 3) * 32 + 1 * f.val = f.val; omega

/-- A whole-entry window's block at point t: all rows of batch entry b. -/
theorem allX_read1 (c : Dev nD) (t : Fin cfg1.N) (n : Fin 2560) (f : Fin 32) :
    iblk1 V c 1 t (ix3 (0 : Fin 1) n f) = V c main_arg0 (ix3 (⟨t.val / 10, tdiv1 t⟩ : Fin 4) n f) := by
  obtain ⟨-, ⟨e0, e1, e2⟩, -⟩ := idx_facts1 t
  show V c main_arg0 (((cfg1.win 1).blk t).view.emb (ix3 (0 : Fin 1) n f)) = _
  refine congrArg (V c main_arg0) ?_
  funext a; apply Fin.ext
  match a with
  | ⟨0, _⟩ => show win1_1.index t (0 : Fin 3) * 1 + 1 * 0 = t.val / 10; omega
  | ⟨1, _⟩ => show win1_1.index t (1 : Fin 3) * 2560 + 1 * n.val = n.val; omega
  | ⟨2, _⟩ => show win1_1.index t (2 : Fin 3) * 32 + 1 * f.val = f.val; omega

theorem allH_read1 (c : Dev nD) (t : Fin cfg1.N) (n : Fin 2560) (f : Fin 32) :
    iblk1 V c 3 t (ix3 (0 : Fin 1) n f) = V c main_v7 (ix3 (⟨t.val / 10, tdiv1 t⟩ : Fin 4) n f) := by
  obtain ⟨-, -, -, ⟨e0, e1, e2⟩, -⟩ := idx_facts1 t
  show V c main_v7 (((cfg1.win 3).blk t).view.emb (ix3 (0 : Fin 1) n f)) = _
  refine congrArg (V c main_v7) ?_
  funext a; apply Fin.ext
  match a with
  | ⟨0, _⟩ => show win1_3.index t (0 : Fin 3) * 1 + 1 * 0 = t.val / 10; omega
  | ⟨1, _⟩ => show win1_3.index t (1 : Fin 3) * 2560 + 1 * n.val = n.val; omega
  | ⟨2, _⟩ => show win1_3.index t (2 : Fin 3) * 32 + 1 * f.val = f.val; omega

/-- The weight and bias windows' blocks are the whole small arrays. -/
theorem ws_read1 (c : Dev nD) (t : Fin cfg1.N) (d e : Fin 32) : iblk1 V c 4 t (ix2 d e) = V c main_v9 (ix2 d e) := by
  obtain ⟨-, -, -, -, ⟨e0, e1⟩, -⟩ := idx_facts1 t
  show V c main_v9 (((cfg1.win 4).blk t).view.emb (ix2 d e)) = _
  refine congrArg (V c main_v9) ?_
  funext a; apply Fin.ext
  match a with
  | ⟨0, _⟩ => show win1_4.index t (0 : Fin 2) * 32 + 1 * d.val = d.val; omega
  | ⟨1, _⟩ => show win1_4.index t (1 : Fin 2) * 32 + 1 * e.val = e.val; omega

theorem wn_read1 (c : Dev nD) (t : Fin cfg1.N) (d e : Fin 32) : iblk1 V c 5 t (ix2 d e) = V c main_v11 (ix2 d e) := by
  obtain ⟨-, -, -, -, -, ⟨e0, e1⟩, -⟩ := idx_facts1 t
  show V c main_v11 (((cfg1.win 5).blk t).view.emb (ix2 d e)) = _
  refine congrArg (V c main_v11) ?_
  funext a; apply Fin.ext
  match a with
  | ⟨0, _⟩ => show win1_5.index t (0 : Fin 2) * 32 + 1 * d.val = d.val; omega
  | ⟨1, _⟩ => show win1_5.index t (1 : Fin 2) * 32 + 1 * e.val = e.val; omega

theorem bias_read1 (c : Dev nD) (t : Fin cfg1.N) (e : Fin 32) : iblk1 V c 6 t (ix2 (0 : Fin 1) e) = V c main_v14 (ix2 (0 : Fin 1) e) := by
  obtain ⟨-, -, -, -, -, -, ⟨e0, e1⟩, -⟩ := idx_facts1 t
  show V c main_v14 (((cfg1.win 6).blk t).view.emb (ix2 (0 : Fin 1) e)) = _
  refine congrArg (V c main_v14) ?_
  funext a; apply Fin.ext
  match a with
  | ⟨0, _⟩ => show win1_6.index t (0 : Fin 2) * 1 + 1 * 0 = 0; omega
  | ⟨1, _⟩ => show win1_6.index t (1 : Fin 2) * 32 + 1 * e.val = e.val; omega

/-- Where the output tile's entries sit in the result array. -/
theorem out_emb1 (t : Fin cfg1.N) (r : Fin 256) (e : Fin 32) :
    ((cfg1.win 7).blk t).view.emb (ix3 (0 : Fin 1) r e) = ix3 (⟨t.val / 10, tdiv1 t⟩ : Fin 4) (⟨256 * (t.val % 10) + r.val, trow1 t r⟩ : Fin 2560) e := by
  obtain ⟨-, -, -, -, -, -, -, ⟨e0, e1, e2⟩, -⟩ := idx_facts1 t
  funext a; apply Fin.ext
  match a with
  | ⟨0, _⟩ => show win1_7.index t (0 : Fin 3) * 1 + 1 * 0 = t.val / 10; omega
  | ⟨1, _⟩ => show win1_7.index t (1 : Fin 3) * 256 + 1 * r.val = 256 * (t.val % 10) + r.val; omega
  | ⟨2, _⟩ => show win1_7.index t (2 : Fin 3) * 32 + 1 * e.val = e.val; omega

/-! ## What a point writes back -/

/-- WHAT POINT `t` WRITES BACK is block `t` of the layer of the arrays as the launch finds them. -/
theorem flushed1_eq (c : Dev nD) (t : Fin cfg1.N) :
    (dat1 V c).flushed 7 t = ((cfg1.win 7).blk t).view.read (Elt Ideal) (layerOf1 V c) := by
  show (cfg1.win 7).cut (grid1.coords t) ((dat1 V c).after 7 t) = _
  rw [after1_7]
  unfold out1_7
  rw [View.canon_unit_zero hz3_1]
  simp only [View.ld_unit_zero (S := S1x256x32) hz3_1, View.ld_unit_zero (S := S1x2560x32) hz3_1, View.ld_unit_zero (S := S32x32) hz2_1, View.ld_unit_zero (S := S1x32) hz2_1]
  funext y
  obtain ⟨a0, r, e, rfl⟩ : ∃ (a0 : Fin 1) (r : Fin 256) (e : Fin 32), y = ix3 a0 r e := ⟨y 0, y 1, y 2, eq_ix3 y⟩
  obtain rfl : a0 = 0 := Subsingleton.elim _ _
  have hi : (grid1.coords t (1 : Fin 2)).val = t.val % 10 := (idx_facts1 t).2.2.2.2.2.2.2.2
  refine (Cert.KernelSide.pay1_apply (grid1.coords t) (iblk1 V c 0 t) (iblk1 V c 1 t) (iblk1 V c 2 t) (iblk1 V c 3 t) (iblk1 V c 4 t) (iblk1 V c 5 t) (iblk1 V c 6 t) r e
    (⟨256 * (t.val % 10) + r.val, trow1 t r⟩ : Fin 2560) (by show 256 * (t.val % 10) + r.val = 256 * (grid1.coords t (1 : Fin 2)).val + r.val; rw [hi])
    (fun f => (tileX_read1 V c t r f).trans (allX_read1 V c t _ f).symm)
    (fun d => (tileH_read1 V c t r d).trans (allH_read1 V c t _ d).symm)).trans ?_
  show _ = layerOf1 V c (((cfg1.win 7).blk t).view.emb (ix3 (0 : Fin 1) r e))
  rw [out_emb1 t r e]
  unfold layerOf1 Cert.GnnSpec.layer
  show Cert.GnnSpec.layerRow _ _ _ _ _ _ _ = Cert.GnnSpec.layerRow (fun n f => V c main_arg0 (ix3 (⟨t.val / 10, tdiv1 t⟩ : Fin 4) n f)) (fun n d => V c main_v7 (ix3 (⟨t.val / 10, tdiv1 t⟩ : Fin 4) n d)) _ _ _ (⟨256 * (t.val % 10) + r.val, trow1 t r⟩ : Fin 2560) e
  rw [show (fun m f => iblk1 V c 1 t (ix3 (0 : Fin 1) m f)) = (fun n f => V c main_arg0 (ix3 (⟨t.val / 10, tdiv1 t⟩ : Fin 4) n f)) from funext fun n => funext fun f => allX_read1 V c t n f,
    show (fun m d => iblk1 V c 3 t (ix3 (0 : Fin 1) m d)) = (fun n d => V c main_v7 (ix3 (⟨t.val / 10, tdiv1 t⟩ : Fin 4) n d)) from funext fun n => funext fun d => allH_read1 V c t n d,
    show (fun d e' => iblk1 V c 4 t (ix2 d e')) = (fun d e' => V c main_v9 (ix2 d e')) from funext fun d => funext fun e' => ws_read1 V c t d e',
    show (fun d e' => iblk1 V c 5 t (ix2 d e')) = (fun d e' => V c main_v11 (ix2 d e')) from funext fun d => funext fun e' => wn_read1 V c t d e',
    show (fun e' => iblk1 V c 6 t (ix2 (0 : Fin 1) e')) = (fun e' => V c main_v14 (ix2 (0 : Fin 1) e')) from funext fun e' => bias_read1 V c t e']

/-! ## The tiles cover the array -/

/-- An index of the result array is in point `t`'s tile iff each coordinate is in the tile's range. -/
theorem mem_blk1 (t : Fin cfg1.N) (i : S4x2560x32.Idx) :
    i ∈ ((cfg1.win 7).blk t).view.set ↔ ∀ a : Fin 3, win1_7.index t a * S1x256x32.size a ≤ (i a).val ∧ (i a).val < win1_7.index t a * S1x256x32.size a + S1x256x32.size a := by
  show i ∈ ((View.whole main_v15).slice (win1_7.rect t)).set ↔ _
  rw [View.set_slice_whole, Rect.mem_set_unit]
  exact Iff.rfl

/-- Every index is in some point's tile: batch entry b, row n sits in the tile of point 10·b + n / 256. -/
theorem cover1 (i : S4x2560x32.Idx) : ∃ t : Fin cfg1.N, (cfg1.win 7).flush t = true ∧ i ∈ ((cfg1.win 7).blk t).view.set := by
  have hi0 : (i 0).val < 4 := (i 0).isLt
  have hi1 : (i 1).val < 2560 := (i 1).isLt
  have hi2 : (i 2).val < 32 := (i 2).isLt
  obtain ⟨t, ht⟩ := idx_onto1 ⟨(i 0).val, hi0⟩ ⟨(i 1).val / 256, by omega⟩
  have ht' : t.val = 10 * (i 0).val + (i 1).val / 256 := ht
  obtain ⟨-, -, -, -, -, -, -, ⟨e0, e1, e2⟩, -⟩ := idx_facts1 t
  refine ⟨t, flush1_7 t, ?_⟩
  rw [mem_blk1]
  intro a
  match a with
  | ⟨0, _⟩ => show win1_7.index t (0 : Fin 3) * 1 ≤ (i 0).val ∧ (i 0).val < win1_7.index t (0 : Fin 3) * 1 + 1; omega
  | ⟨1, _⟩ => show win1_7.index t (1 : Fin 3) * 256 ≤ (i 1).val ∧ (i 1).val < win1_7.index t (1 : Fin 3) * 256 + 256; omega
  | ⟨2, _⟩ => show win1_7.index t (2 : Fin 3) * 32 ≤ (i 2).val ∧ (i 2).val < win1_7.index t (2 : Fin 3) * 32 + 32; omega

/-- THE RESULT ARRAY after the last point: the layer of the arrays as the launch finds them. -/
theorem final1 (c : Dev nD) : (dat1 V c).arrAt 7 cfg1.N = layerOf1 V c :=
  (dat1 V c).arrAt_eq_of_cover 7 (layerOf1 V c) (fun t _ => flushed1_eq V c t) (cover1)

end Cert.KernelIdeal.Hand

end
-- ==== Proof.IdealFinal.lean ====
/-
  The idealized kernel's result array is the specification of the four argument arrays.

  The second launch leaves the layer of (features, first launch's result, second slices of the weights and
  biases); the first launch leaves the layer of (features, features, first slices). The host stretches hand
  each launch exactly those slices, so the composition is both layers of the specification.
-/
import proofs.«126938_j63393717289327_1_alg».proof.Proof.IdealHost
import proofs.«126938_j63393717289327_1_alg».proof.Proof.IdealValue0
import proofs.«126938_j63393717289327_1_alg».proof.Proof.IdealValue1

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- The result array after the run: both layers of the specification, of the launch contents of the arguments. -/
theorem result_eq (c : Dev nD) :
    (dat1 (V3 m ρ) c).arrAt 7 cfg1.N
      = Cert.GnnSpec.G (m ((c : Thread nD τ).loc main_arg0)) (m ((c : Thread nD τ).loc main_arg1)) (m ((c : Thread nD τ).loc main_arg2)) (m ((c : Thread nD τ).loc main_arg3)) := by
  rw [final1 (V3 m ρ) c]
  unfold layerOf1
  rw [host3_arg0 m ρ c, host3_v7 m ρ c, final0 (V1 m ρ) c]
  unfold layerOf0
  rw [host_arg0 m ρ c]
  unfold Cert.GnnSpec.G
  rw [show (fun d e => V1 m ρ c main_v1 (ix2 d e)) = (fun d e => m ((c : Thread nD τ).loc main_arg1) (ix3 (0 : Fin 2) d e)) from funext fun d => funext fun e => host_v1 m ρ c d e,
    show (fun d e => V1 m ρ c main_v3 (ix2 d e)) = (fun d e => m ((c : Thread nD τ).loc main_arg2) (ix3 (0 : Fin 2) d e)) from funext fun d => funext fun e => host_v3 m ρ c d e,
    show (fun e => V1 m ρ c main_v6 (ix2 (0 : Fin 1) e)) = (fun e => m ((c : Thread nD τ).loc main_arg3) (ix2 (0 : Fin 2) e)) from funext fun e => host_v6 m ρ c e,
    show (fun d e => V3 m ρ c main_v9 (ix2 d e)) = (fun d e => m ((c : Thread nD τ).loc main_arg1) (ix3 (1 : Fin 2) d e)) from funext fun d => funext fun e => host_v9 m ρ c d e,
    show (fun d e => V3 m ρ c main_v11 (ix2 d e)) = (fun d e => m ((c : Thread nD τ).loc main_arg2) (ix3 (1 : Fin 2) d e)) from funext fun d => funext fun e => host_v11 m ρ c d e,
    show (fun e => V3 m ρ c main_v14 (ix2 (0 : Fin 1) e)) = (fun e => m ((c : Thread nD τ).loc main_arg3) (ix2 (1 : Fin 2) e)) from funext fun e => host_v14 m ρ c e]

/-- THE RUN of the idealized kernel, read: the result array at the specification, the arguments unchanged. -/
theorem run_value : θ_run defs (onTc (τ := τ) (main (F := Ideal))) ⟨m, fun _ => 0, ρ⟩ (fun r => ∀ c : Dev nD,
      r.2.mem ((c.tc : Thread nD τ).loc main_v15) = Cert.GnnSpec.G (m ((c : Thread nD τ).loc main_arg0)) (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result_eq m ρ c), (h c).2⟩) (run_main (F := Ideal) m ρ)

end Cert.KernelIdeal.Hand

end
-- ==== Proof.RefRunOps.lean ====
/-
  The reference program's @main as the list of its 74 host operations — the three outlined functions'
  operations written at their call sites over each call's own buffers — and the elementary facts the run
  theorem takes: @main is that straight line, no buffer or semaphore is scoped, every operation touches
  only the device's buffers.
-/
import proofs.«126938_j63393717289327_1_alg».proof.Proof.Gen.ReferenceIdeal
import Idealize.ShloMosaic.Lib.StableHlo.Run

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- @main's 74 operations, in order: the inner products of the feature rows, the clamp at zero (three operations of
    the outlined maximum), tanh, the diagonal indicator scaled by 1/2 (thirteen), the sum; then for each of the two
    layers the aggregate, the two weight slices and their products, the bias row broadcast and added (thirteen), and
    the outlined activation (fifteen: two comparisons with zero, the inner choice, e^y - 1, the product with one, the
    outer choice). -/
abbrev ops : List (HloOp τ sig (Elt F)) :=
  [ StableHlo.binary main_arg0 main_arg0 main_v0 ((fun l r => Host.dotGeneral dot_S4x2560x32_S4x2560x32_S4x2560x2560_2_2_1_1_0_0 none l r) : (⟨S4x2560x32, .f32⟩ : BufTy).Contents (Elt F) → (⟨S4x2560x32, .f32⟩ : BufTy).Contents (Elt F) → (⟨S4x2560x2560, .f32⟩ : BufTy).Contents (Elt F)),
    StableHlo.TRef.nullary main_call0.cst (constant S_ .f32 0x00000000#32),
    StableHlo.TRef.unary main_call0.cst main_call0.v0 (broadcastInDim S4x2560x2560 ![] bcast_S_S4x2560x2560),
    StableHlo.TRef.binary (StableHlo.TRef.of main_v0 : StableHlo.TRef sig ⟨S4x2560x2560, .f32⟩) main_call0.v0 main_call0.v1 maximumf,
    StableHlo.unary main_v1 main_v2 (Host.tanh : (⟨S4x2560x2560, .f32⟩ : BufTy).Contents (Elt F) → (⟨S4x2560x2560, .f32⟩ : BufTy).Contents (Elt F)),
    StableHlo.nullary main_v3 (iotaInDim S2560x2560 32 0),
    StableHlo.nullary main_v4 (iotaInDim S2560x2560 32 1),
    StableHlo.nullary main_c (constantI S_ 32 0#32),
    StableHlo.unary main_c main_v5 (broadcastInDim S2560x2560 ![] bcast_S_S2560x2560 : (⟨S_, .i32⟩ : BufTy).Contents (Elt F) → (⟨S2560x2560, .i32⟩ : BufTy).Contents (Elt F)),
    StableHlo.binary main_v3 main_v5 main_v6 (addi : (⟨S2560x2560, .i32⟩ : BufTy).Contents (Elt F) → (⟨S2560x2560, .i32⟩ : BufTy).Contents (Elt F) → (⟨S2560x2560, .i32⟩ : BufTy).Contents (Elt F)),
    StableHlo.binary main_v6 main_v4 main_v7 (cmpi .eq : (⟨S2560x2560, .i32⟩ : BufTy).Contents (Elt F) → (⟨S2560x2560, .i32⟩ : BufTy).Contents (Elt F) → (⟨S2560x2560, .i1⟩ : BufTy).Contents (Elt F)),
    StableHlo.unary main_v7 main_v8 (uitofp .f32 : (⟨S2560x2560, .i1⟩ : BufTy).Contents (Elt F) → (⟨S2560x2560, .f32⟩ : BufTy).Contents (Elt F)),
    StableHlo.nullary main_cst (constant S_ .f32 0x3F000000#32),
    StableHlo.unary main_cst main_v9 (broadcastInDim S2560x2560 ![] bcast_S_S2560x2560 : (⟨S_, .f32⟩ : BufTy).Contents (Elt F) → (⟨S2560x2560, .f32⟩ : BufTy).Contents (Elt F)),
    StableHlo.binary main_v9 main_v8 main_v10 (mulf : (⟨S2560x2560, .f32⟩ : BufTy).Contents (Elt F) → (⟨S2560x2560, .f32⟩ : BufTy).Contents (Elt F) → (⟨S2560x2560, .f32⟩ : BufTy).Contents (Elt F)),
    StableHlo.unary main_v10 main_v11 (broadcastInDim S1x2560x2560 ![1, 2] bcast_S2560x2560_S1x2560x2560_1_2 : (⟨S2560x2560, .f32⟩ : BufTy).Contents (Elt F) → (⟨S1x2560x2560, .f32⟩ : BufTy).Contents (Elt F)),
    StableHlo.unary main_v11 main_v12 (broadcastInDim S4x2560x2560 ![0, 1, 2] bcast_S1x2560x2560_S4x2560x2560_0_1_2 : (⟨S1x2560x2560, .f32⟩ : BufTy).Contents (Elt F) → (⟨S4x2560x2560, .f32⟩ : BufTy).Contents (Elt F)),
    StableHlo.binary main_v2 main_v12 main_v13 (addf : (⟨S4x2560x2560, .f32⟩ : BufTy).Contents (Elt F) → (⟨S4x2560x2560, .f32⟩ : BufTy).Contents (Elt F) → (⟨S4x2560x2560, .f32⟩ : BufTy).Contents (Elt F)),
    StableHlo.binary main_v13 main_arg0 main_v14 ((fun l r => Host.dotGeneral dot_S4x2560x2560_S4x2560x32_S4x2560x32_2_1_1_2_0_0 none l r) : (⟨S4x2560x2560, .f32⟩ : BufTy).Contents (Elt F) → (⟨S4x2560x32, .f32⟩ : BufTy).Contents (Elt F) → (⟨S4x2560x32, .f32⟩ : BufTy).Contents (Elt F)),
    StableHlo.unary main_arg1 main_v15 ((extractStridedSlice S1x32x32 ![0, 0, 0] · slices_S2x32x32_S1x32x32_0_0_0) : (⟨S2x32x32, .f32⟩ : BufTy).Contents (Elt F) → (⟨S1x32x32, .f32⟩ : BufTy).Contents (Elt F)),
    StableHlo.reshape main_v15 main_v16 rfl shapeCasts_S1x32x32_S32x32,
    StableHlo.binary main_arg0 main_v16 main_v17 ((fun l r => Host.dotGeneral dot_S4x2560x32_S32x32_S4x2560x32_2_0_01_1_n_n none l r) : (⟨S4x2560x32, .f32⟩ : BufTy).Contents (Elt F) → (⟨S32x32, .f32⟩ : BufTy).Contents (Elt F) → (⟨S4x2560x32, .f32⟩ : BufTy).Contents (Elt F)),
    StableHlo.unary main_arg2 main_v18 ((extractStridedSlice S1x32x32 ![0, 0, 0] · slices_S2x32x32_S1x32x32_0_0_0) : (⟨S2x32x32, .f32⟩ : BufTy).Contents (Elt F) → (⟨S1x32x32, .f32⟩ : BufTy).Contents (Elt F)),
    StableHlo.reshape main_v18 main_v19 rfl shapeCasts_S1x32x32_S32x32,
    StableHlo.binary main_v14 main_v19 main_v20 ((fun l r => Host.dotGeneral dot_S4x2560x32_S32x32_S4x2560x32_2_0_01_1_n_n none l r) : (⟨S4x2560x32, .f32⟩ : BufTy).Contents (Elt F) → (⟨S32x32, .f32⟩ : BufTy).Contents (Elt F) → (⟨S4x2560x32, .f32⟩ : BufTy).Contents (Elt F)),
    StableHlo.binary main_v17 main_v20 main_v21 (addf : (⟨S4x2560x32, .f32⟩ : BufTy).Contents (Elt F) → (⟨S4x2560x32, .f32⟩ : BufTy).Contents (Elt F) → (⟨S4x2560x32, .f32⟩ : BufTy).Contents (Elt F)),
    StableHlo.unary main_arg3 main_v22 ((extractStridedSlice S1x32 ![0, 0] · slices_S2x32_S1x32_0_0) : (⟨S2x32, .f32⟩ : BufTy).Contents (Elt F) → (⟨S1x32, .f32⟩ : BufTy).Contents (Elt F)),
    StableHlo.reshape main_v22 main_v23 rfl shapeCasts_S1x32_S32,
    StableHlo.unary main_v23 main_v24 (broadcastInDim S1x1x32 ![2] bcast_S32_S1x1x32_2 : (⟨S32, .f32⟩ : BufTy).Contents (Elt F) → (⟨S1x1x32, .f32⟩ : BufTy).Contents (Elt F)),
    StableHlo.unary main_v24 main_v25 (broadcastInDim S4x2560x32 ![0, 1, 2] bcast_S1x1x32_S4x2560x32_0_1_2 : (⟨S1x1x32, .f32⟩ : BufTy).Contents (Elt F) → (⟨S4x2560x32, .f32⟩ : BufTy).Contents (Elt F)),
    StableHlo.binary main_v21 main_v25 main_v26 (addf : (⟨S4x2560x32, .f32⟩ : BufTy).Contents (Elt F) → (⟨S4x2560x32, .f32⟩ : BufTy).Contents (Elt F) → (⟨S4x2560x32, .f32⟩ : BufTy).Contents (Elt F)),
    StableHlo.TRef.nullary main_call1.cst (constant S_ .f32 0x00000000#32),
    StableHlo.TRef.unary main_call1.cst main_call1.v0 (broadcastInDim S4x2560x32 ![] bcast_S_S4x2560x32),
    StableHlo.TRef.binary (StableHlo.TRef.of main_v26 : StableHlo.TRef sig ⟨S4x2560x32, .f32⟩) main_call1.v0 main_call1.v1 (cmpf .ogt),
    StableHlo.TRef.nullary main_call1.cst_0 (constant S_ .f32 0x00000000#32),
    StableHlo.TRef.unary main_call1.cst_0 main_call1.v2 (broadcastInDim S4x2560x32 ![] bcast_S_S4x2560x32),
    StableHlo.TRef.binary (StableHlo.TRef.of main_v26 : StableHlo.TRef sig ⟨S4x2560x32, .f32⟩) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S4x2560x32 ![] bcast_S_S4x2560x32),
    StableHlo.TRef.ternary main_call1.v3 main_call1.call0.v1 (StableHlo.TRef.of main_v26 : StableHlo.TRef sig ⟨S4x2560x32, .f32⟩) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S4x2560x32 ![] bcast_S_S4x2560x32),
    StableHlo.TRef.binary main_call1.v6 main_call1.v5 main_call1.v7 mulf,
    StableHlo.TRef.ternary main_call1.v1 (StableHlo.TRef.of main_v26 : StableHlo.TRef sig ⟨S4x2560x32, .f32⟩) main_call1.v7 main_call1.call1.v0 select,
    StableHlo.binary main_v13 main_v27 main_v28 ((fun l r => Host.dotGeneral dot_S4x2560x2560_S4x2560x32_S4x2560x32_2_1_1_2_0_0 none l r) : (⟨S4x2560x2560, .f32⟩ : BufTy).Contents (Elt F) → (⟨S4x2560x32, .f32⟩ : BufTy).Contents (Elt F) → (⟨S4x2560x32, .f32⟩ : BufTy).Contents (Elt F)),
    StableHlo.unary main_arg1 main_v29 ((extractStridedSlice S1x32x32 ![1, 0, 0] · slices_S2x32x32_S1x32x32_1_0_0) : (⟨S2x32x32, .f32⟩ : BufTy).Contents (Elt F) → (⟨S1x32x32, .f32⟩ : BufTy).Contents (Elt F)),
    StableHlo.reshape main_v29 main_v30 rfl shapeCasts_S1x32x32_S32x32,
    StableHlo.binary main_v27 main_v30 main_v31 ((fun l r => Host.dotGeneral dot_S4x2560x32_S32x32_S4x2560x32_2_0_01_1_n_n none l r) : (⟨S4x2560x32, .f32⟩ : BufTy).Contents (Elt F) → (⟨S32x32, .f32⟩ : BufTy).Contents (Elt F) → (⟨S4x2560x32, .f32⟩ : BufTy).Contents (Elt F)),
    StableHlo.unary main_arg2 main_v32 ((extractStridedSlice S1x32x32 ![1, 0, 0] · slices_S2x32x32_S1x32x32_1_0_0) : (⟨S2x32x32, .f32⟩ : BufTy).Contents (Elt F) → (⟨S1x32x32, .f32⟩ : BufTy).Contents (Elt F)),
    StableHlo.reshape main_v32 main_v33 rfl shapeCasts_S1x32x32_S32x32,
    StableHlo.binary main_v28 main_v33 main_v34 ((fun l r => Host.dotGeneral dot_S4x2560x32_S32x32_S4x2560x32_2_0_01_1_n_n none l r) : (⟨S4x2560x32, .f32⟩ : BufTy).Contents (Elt F) → (⟨S32x32, .f32⟩ : BufTy).Contents (Elt F) → (⟨S4x2560x32, .f32⟩ : BufTy).Contents (Elt F)),
    StableHlo.binary main_v31 main_v34 main_v35 (addf : (⟨S4x2560x32, .f32⟩ : BufTy).Contents (Elt F) → (⟨S4x2560x32, .f32⟩ : BufTy).Contents (Elt F) → (⟨S4x2560x32, .f32⟩ : BufTy).Contents (Elt F)),
    StableHlo.unary main_arg3 main_v36 ((extractStridedSlice S1x32 ![1, 0] · slices_S2x32_S1x32_1_0) : (⟨S2x32, .f32⟩ : BufTy).Contents (Elt F) → (⟨S1x32, .f32⟩ : BufTy).Contents (Elt F)),
    StableHlo.reshape main_v36 main_v37 rfl shapeCasts_S1x32_S32,
    StableHlo.unary main_v37 main_v38 (broadcastInDim S1x1x32 ![2] bcast_S32_S1x1x32_2 : (⟨S32, .f32⟩ : BufTy).Contents (Elt F) → (⟨S1x1x32, .f32⟩ : BufTy).Contents (Elt F)),
    StableHlo.unary main_v38 main_v39 (broadcastInDim S4x2560x32 ![0, 1, 2] bcast_S1x1x32_S4x2560x32_0_1_2 : (⟨S1x1x32, .f32⟩ : BufTy).Contents (Elt F) → (⟨S4x2560x32, .f32⟩ : BufTy).Contents (Elt F)),
    StableHlo.binary main_v35 main_v39 main_v40 (addf : (⟨S4x2560x32, .f32⟩ : BufTy).Contents (Elt F) → (⟨S4x2560x32, .f32⟩ : BufTy).Contents (Elt F) → (⟨S4x2560x32, .f32⟩ : BufTy).Contents (Elt F)),
    StableHlo.TRef.nullary main_call2.cst (constant S_ .f32 0x00000000#32),
    StableHlo.TRef.unary main_call2.cst main_call2.v0 (broadcastInDim S4x2560x32 ![] bcast_S_S4x2560x32),
    StableHlo.TRef.binary (StableHlo.TRef.of main_v40 : StableHlo.TRef sig ⟨S4x2560x32, .f32⟩) main_call2.v0 main_call2.v1 (cmpf .ogt),
    StableHlo.TRef.nullary main_call2.cst_0 (constant S_ .f32 0x00000000#32),
    StableHlo.TRef.unary main_call2.cst_0 main_call2.v2 (broadcastInDim S4x2560x32 ![] bcast_S_S4x2560x32),
    StableHlo.TRef.binary (StableHlo.TRef.of main_v40 : StableHlo.TRef sig ⟨S4x2560x32, .f32⟩) main_call2.v2 main_call2.v3 (cmpf .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S4x2560x32 ![] bcast_S_S4x2560x32),
    StableHlo.TRef.ternary main_call2.v3 main_call2.call0.v1 (StableHlo.TRef.of main_v40 : StableHlo.TRef sig ⟨S4x2560x32, .f32⟩) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S4x2560x32 ![] bcast_S_S4x2560x32),
    StableHlo.TRef.binary main_call2.v6 main_call2.v5 main_call2.v7 mulf,
    StableHlo.TRef.ternary main_call2.v1 (StableHlo.TRef.of main_v40 : StableHlo.TRef sig ⟨S4x2560x32, .f32⟩) main_call2.v7 main_call2.call1.v0 select ]

set_option maxRecDepth 65536 in
/-- @main is that straight line: sequencing in the free monad is structural, so with the functions' bodies
    unfolded at their calls both sides are one chain of the same steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., nullary_bufs_sub .., unary_bufs_sub .., binary_bufs_sub .., unary_bufs_sub .., nullary_bufs_sub .., nullary_bufs_sub .., nullary_bufs_sub .., unary_bufs_sub .., binary_bufs_sub .., binary_bufs_sub .., unary_bufs_sub .., nullary_bufs_sub .., unary_bufs_sub .., binary_bufs_sub .., unary_bufs_sub .., unary_bufs_sub .., binary_bufs_sub .., binary_bufs_sub .., unary_bufs_sub .., reshape_bufs_sub .., binary_bufs_sub .., unary_bufs_sub .., reshape_bufs_sub .., binary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub .., unary_bufs_sub .., reshape_bufs_sub .., binary_bufs_sub .., unary_bufs_sub .., reshape_bufs_sub .., binary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

end Cert.RefSide

end
-- ==== Proof.RefRun.lean ====
/-
  The reference program's run read back: every weakly fair execution of @main terminates with the result
  buffer holding one pure term of the four argument arrays, the arguments unchanged. The term is written
  stage by stage — the edge-weight array once, shared by both layers — so that it can be read index by index.
-/
import proofs.«126938_j63393717289327_1_alg».proof.Proof.RefRunOps

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- The edge weights, a [4, 2560, 2560] array: tanh of the inner products of the feature rows clamped at zero, plus
    1/2 times the indicator of the diagonal (row number = column number, compared as 32-bit integers), the
    indicator broadcast along the batch axis. -/
def adjT (X : FVec F S4x2560x32 .f32) : FVec F S4x2560x2560 .f32 :=
  addf
    (Host.tanh (maximumf (Host.dotGeneral dot_S4x2560x32_S4x2560x32_S4x2560x2560_2_2_1_1_0_0 none X X)
      (broadcastInDim S4x2560x2560 ![] bcast_S_S4x2560x2560 (constant S_ .f32 0x00000000#32))))
    (broadcastInDim S4x2560x2560 ![0, 1, 2] bcast_S1x2560x2560_S4x2560x2560_0_1_2
      (broadcastInDim S1x2560x2560 ![1, 2] bcast_S2560x2560_S1x2560x2560_1_2
        (mulf (broadcastInDim S2560x2560 ![] bcast_S_S2560x2560 (constant S_ .f32 0x3F000000#32))
          (uitofp .f32 (cmpi .eq
            (addi (iotaInDim S2560x2560 32 0) (broadcastInDim S2560x2560 ![] bcast_S_S2560x2560 (constantI S_ 32 0#32)))
            (iotaInDim S2560x2560 32 1))))))

/-- Slice 0 of a stacked [2, 32, 32] weight array, as a [32, 32] array. -/
def w0 (W : FVec F S2x32x32 .f32) : FVec F S32x32 .f32 :=
  shapeCast S32x32 (extractStridedSlice S1x32x32 ![0, 0, 0] W slices_S2x32x32_S1x32x32_0_0_0) shapeCasts_S1x32x32_S32x32
/-- Slice 1 of a stacked [2, 32, 32] weight array, as a [32, 32] array. -/
def w1 (W : FVec F S2x32x32 .f32) : FVec F S32x32 .f32 :=
  shapeCast S32x32 (extractStridedSlice S1x32x32 ![1, 0, 0] W slices_S2x32x32_S1x32x32_1_0_0) shapeCasts_S1x32x32_S32x32
/-- Row 0 of the stacked [2, 32] biases, as a [32] array. -/
def b0 (B : FVec F S2x32 .f32) : FVec F S32 .f32 :=
  shapeCast S32 (extractStridedSlice S1x32 ![0, 0] B slices_S2x32_S1x32_0_0) shapeCasts_S1x32_S32
/-- Row 1 of the stacked [2, 32] biases, as a [32] array. -/
def b1 (B : FVec F S2x32 .f32) : FVec F S32 .f32 :=
  shapeCast S32 (extractStridedSlice S1x32 ![1, 0] B slices_S2x32_S1x32_1_0) shapeCasts_S1x32_S32

/-- What one layer applies its activation to: the node features times the self weights, plus the
    neighbourhood aggregate (edge weights times node features, per batch entry) times the neighbour weights,
    plus the bias row broadcast over batch entries and nodes. -/
def preT (A : FVec F S4x2560x2560 .f32) (H : FVec F S4x2560x32 .f32) (ws wn : FVec F S32x32 .f32) (b : FVec F S32 .f32) :
    FVec F S4x2560x32 .f32 :=
  addf
    (addf (Host.dotGeneral dot_S4x2560x32_S32x32_S4x2560x32_2_0_01_1_n_n none H ws)
      (Host.dotGeneral dot_S4x2560x32_S32x32_S4x2560x32_2_0_01_1_n_n none (Host.dotGeneral dot_S4x2560x2560_S4x2560x32_S4x2560x32_2_1_1_2_0_0 none A H) wn))
    (broadcastInDim S4x2560x32 ![0, 1, 2] bcast_S1x1x32_S4x2560x32_0_1_2 (broadcastInDim S1x1x32 ![2] bcast_S32_S1x1x32_2 b))

/-- The activation as the program computes it: where y > 0 choose y, elsewhere 1 · (e^s − 1) with s itself a
    choice, 0 where y > 0 and y elsewhere. -/
def eluT (Y : FVec F S4x2560x32 .f32) : FVec F S4x2560x32 .f32 :=
  select (cmpf .ogt Y (broadcastInDim S4x2560x32 ![] bcast_S_S4x2560x32 (constant S_ .f32 0x00000000#32))) Y
    (mulf (broadcastInDim S4x2560x32 ![] bcast_S_S4x2560x32 (constant S_ .f32 0x3F800000#32))
      (Host.expm1 (select (cmpf .ogt Y (broadcastInDim S4x2560x32 ![] bcast_S_S4x2560x32 (constant S_ .f32 0x00000000#32)))
        (broadcastInDim S4x2560x32 ![] bcast_S_S4x2560x32 (id (constant S_ .f32 0x00000000#32))) Y)))

/-- Both layers over one edge-weight array: the first applied to the features themselves. -/
def outT (A : FVec F S4x2560x2560 .f32) (X : FVec F S4x2560x32 .f32) (Ws Wn : FVec F S2x32x32 .f32) (B : FVec F S2x32 .f32) :
    FVec F S4x2560x32 .f32 :=
  eluT (preT A (eluT (preT A X (w0 Ws) (w0 Wn) (b0 B))) (w1 Ws) (w1 Wn) (b1 B))

/-- The result array as one pure term of the four argument arrays. -/
def refTerm (X : FVec F S4x2560x32 .f32) (Ws Wn : FVec F S2x32x32 .f32) (B : FVec F S2x32 .f32) : FVec F S4x2560x32 .f32 :=
  outT (adjT X) X Ws Wn B

set_option maxRecDepth 65536 in
set_option maxHeartbeats 1000000 in
/-- The fold of the 74 operations at the result buffer is that term of the launch contents. -/
theorem out_eq (V : Valuation τ sig (Elt F)) :
    after ops V (main_v41 : DevRef τ sig)
      = refTerm (V (main_arg0 : DevRef τ sig)) (V (main_arg1 : DevRef τ sig)) (V (main_arg2 : DevRef τ sig)) (V (main_arg3 : DevRef τ sig)) := by
  after_results_simp
  rfl

set_option maxRecDepth 65536 in
set_option maxHeartbeats 1000000 in
/-- No operation writes an argument buffer. -/
theorem arg0_eq (V : Valuation τ sig (Elt F)) : after ops V (main_arg0 : DevRef τ sig) = V (main_arg0 : DevRef τ sig) := by
  after_results_simp
set_option maxRecDepth 65536 in
set_option maxHeartbeats 1000000 in
theorem arg1_eq (V : Valuation τ sig (Elt F)) : after ops V (main_arg1 : DevRef τ sig) = V (main_arg1 : DevRef τ sig) := by
  after_results_simp
set_option maxRecDepth 65536 in
set_option maxHeartbeats 1000000 in
theorem arg2_eq (V : Valuation τ sig (Elt F)) : after ops V (main_arg2 : DevRef τ sig) = V (main_arg2 : DevRef τ sig) := by
  after_results_simp
set_option maxRecDepth 65536 in
set_option maxHeartbeats 1000000 in
theorem arg3_eq (V : Valuation τ sig (Elt F)) : after ops V (main_arg3 : DevRef τ sig) = V (main_arg3 : DevRef τ sig) := by
  after_results_simp

set_option maxRecDepth 65536 in
/-- On every device, for any float values, from any memory with zero counters: every weakly fair execution of
    @main terminates with the result buffer at the term above of the arguments' launch contents, and the four
    argument buffers unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v41)
          = refTerm (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v41).trans (out_eq _), (h c main_arg0).trans (arg0_eq _),
      (h c main_arg1).trans (arg1_eq _), (h c main_arg2).trans (arg2_eq _), (h c main_arg3).trans (arg3_eq _)⟩)
    (run_seq scopedRefs_eq scopedSems_eq defs main (fun _ => ops) main_eq (fun _ => ops_sub) m ρ)

end Cert.RefSide

end
-- ==== Proof.RefValue.lean ====
/-
  The reference program's term is the specification, index by index. Each stage of the term is read at an index:
  a contraction with one contracted axis is the sum over that coordinate of the products of the operands' entries;
  a broadcast, a slice and a reshape each read their operand at one index; the diagonal indicator, compared as
  32-bit words, is decided from the coordinates (both below 2560); 1/2 · 1 = 1/2, 1/2 · 0 = 0 and t + 0 = t on the
  extended reals; the activation is decided by the one comparison bit. No sum is ever rearranged.
-/
import proofs.«126938_j63393717289327_1_alg».proof.Proof.RefRun
import proofs.«126938_j63393717289327_1_alg».proof.Proof.Spec
import Idealize.ShloMosaic.PureOps.Ideal.Laws
import Idealize.ShloMosaic.Lib.ValueIdx
import Idealize.ShloMosaic.Lib.StackMember
import Idealize.ShloMosaic.Lib.Pipeline.Value

noncomputable section

namespace Cert.RefSide

open Cert.ReferenceIdeal Cert.ReferenceIdeal.Gen Idealize.ShloMosaic Idealize.ShloMosaic.TcCoe Idealize.SL.Sem Idealize.ShloMosaic.ValueIdx Idealize.ShloMosaic.StackMember
/-! ## Contractions read at an index -/

/-- The product of a stack with a stack along the LAST axis of both — batch axes 0 and 0, contracting axes 2 and 2 —
    read at an index: the sum over the contracted coordinate of the products of the two rows' entries. -/
theorem dotGeneral_rowsRows_apply {G m n k : Nat} {φ₁ φ₂ : FTy}
    (w : DotDims.WF ⟨3, ![G, m, k]⟩ ⟨3, ![G, n, k]⟩ ⟨3, ![G, m, n]⟩ [2] [2] [1] [1] [0] [0])
    (prec : Option ContractPrecision) (A : FVec Ideal ⟨3, ![G, m, k]⟩ φ₁) (B : FVec Ideal ⟨3, ![G, n, k]⟩ φ₂)
    (g : Fin G) (a : Fin m) (b : Fin n) :
    Host.dotGeneral (⟨[2], [2], [1], [1], [0], [0], w⟩ : DotDims _ _ _) prec A B (ix3 g a b)
      = ∑ c : Fin k, A (ix3 g a c) * B (ix3 g b c) := by
  show FloatOps.dotGeneral _ prec _ A B (ix3 g a b) = _
  rw [Ideal.dotGeneral_apply,
    ← Equiv.sum_comp (contrEquiv1 (⟨[2], [2], [1], [1], [0], [0], w⟩ : DotDims _ _ _) k rfl rfl).symm]
  refine Finset.sum_congr rfl fun c _ => ?_
  have c3 := contrEquiv1_symm_val
    (⟨[2], [2], [1], [1], [0], [0], w⟩ : DotDims ⟨3, ![G, m, k]⟩ ⟨3, ![G, n, k]⟩ ⟨3, ![G, m, n]⟩) k rfl rfl c
  have l3 : (⟨[2], [2], [1], [1], [0], [0], w⟩ : DotDims ⟨3, ![G, m, k]⟩ ⟨3, ![G, n, k]⟩ ⟨3, ![G, m, n]⟩).lhsIdx (ix3 g a b)
      ((contrEquiv1 _ k rfl rfl).symm c) = ix3 g a c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [2], [1], [1], [0], [0], w⟩ : DotDims ⟨3, ![G, m, k]⟩ ⟨3, ![G, n, k]⟩ ⟨3, ![G, m, n]⟩).rhsIdx (ix3 g a b)
      ((contrEquiv1 _ k rfl rfl).symm c) = ix3 g b c := by
    funext ax; apply Fin.ext
    match ax with
    | ⟨0, _⟩ => simp [DotDims.rhsIdx]; rfl
    | ⟨1, _⟩ => simp [DotDims.rhsIdx]; rfl
    | ⟨2, _⟩ => simp [DotDims.rhsIdx]; exact c3
  rw [l3, r3]

/-- The product of a stack of matrices with ONE matrix — no batch axis, contracting axes 2 and 0 — read at an index:
    the sum over the contracted coordinate of the products of the entries. -/
theorem dotGeneral_stackMat_apply {G m n k : Nat} {φ₁ φ₂ : FTy}
    (w : DotDims.WF ⟨3, ![G, m, k]⟩ ⟨2, ![k, n]⟩ ⟨3, ![G, m, n]⟩ [2] [0] [0, 1] [1] [] [])
    (prec : Option ContractPrecision) (A : FVec Ideal ⟨3, ![G, m, k]⟩ φ₁) (B : FVec Ideal ⟨2, ![k, n]⟩ φ₂)
    (g : Fin G) (a : Fin m) (b : Fin n) :
    Host.dotGeneral (⟨[2], [0], [0, 1], [1], [], [], w⟩ : DotDims _ _ _) prec A B (ix3 g a b)
      = ∑ c : Fin k, A (ix3 g a c) * B (ix2 c b) := by
  show FloatOps.dotGeneral _ prec _ A B (ix3 g a b) = _
  rw [Ideal.dotGeneral_apply,
    ← Equiv.sum_comp (contrEquiv1 (⟨[2], [0], [0, 1], [1], [], [], w⟩ : DotDims _ _ _) k rfl rfl).symm]
  refine Finset.sum_congr rfl fun c _ => ?_
  have c3 := contrEquiv1_symm_val
    (⟨[2], [0], [0, 1], [1], [], [], w⟩ : DotDims ⟨3, ![G, m, k]⟩ ⟨2, ![k, n]⟩ ⟨3, ![G, m, n]⟩) k rfl rfl c
  have l3 : (⟨[2], [0], [0, 1], [1], [], [], w⟩ : DotDims ⟨3, ![G, m, k]⟩ ⟨2, ![k, n]⟩ ⟨3, ![G, m, n]⟩).lhsIdx (ix3 g a b)
      ((contrEquiv1 _ k rfl rfl).symm c) = ix3 g a c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [0], [0, 1], [1], [], [], w⟩ : DotDims ⟨3, ![G, m, k]⟩ ⟨2, ![k, n]⟩ ⟨3, ![G, m, n]⟩).rhsIdx (ix3 g a b)
      ((contrEquiv1 _ k rfl rfl).symm c) = ix2 c b := by
    funext ax; apply Fin.ext
    match ax with
    | ⟨0, _⟩ => simp [DotDims.rhsIdx]; exact c3
    | ⟨1, _⟩ => simp [DotDims.rhsIdx]; rfl
  rw [l3, r3]

/-! ## The literal words -/

/-- The word 0x3F800000 is the number one. -/
theorem one_word : Ideal.ofBits .f32 0x3F800000#32 = 1 := IdealRules.sign_bit.ideal_onePat .f32
/-! ## Layout operations read at an index -/

/-- Slice 0 of the stacked weights, read at (d, e). -/
theorem w0_apply (W : FVec Ideal S2x32x32 .f32) (d e : Fin 32) : w0 W (ix2 d e) = W (ix3 0 d e) := by
  unfold w0
  refine (shapeCast_apply _ shapeCasts_S1x32x32_S32x32 (ix2 d e) (ix3 0 d e) ?_).trans ?_
  · rw [Shape.rowMajor_val_three, Shape.rowMajor_val_two]
    show ((0 : ℕ) * 32 + d.val) * 32 + e.val = d.val * 32 + e.val
    omega
  · exact extractStridedSlice_apply ![0, 0, 0] W slices_S2x32x32_S1x32x32_0_0_0 (ix3 0 d e) (ix3 0 d e)
      (fun a => match a with
        | ⟨0, _⟩ => by show (0 : ℕ) = 0 + 0; omega
        | ⟨1, _⟩ => by show d.val = 0 + d.val; omega
        | ⟨2, _⟩ => by show e.val = 0 + e.val; omega)

/-- Slice 1 of the stacked weights, read at (d, e). -/
theorem w1_apply (W : FVec Ideal S2x32x32 .f32) (d e : Fin 32) : w1 W (ix2 d e) = W (ix3 1 d e) := by
  unfold w1
  refine (shapeCast_apply _ shapeCasts_S1x32x32_S32x32 (ix2 d e) (ix3 0 d e) ?_).trans ?_
  · rw [Shape.rowMajor_val_three, Shape.rowMajor_val_two]
    show ((0 : ℕ) * 32 + d.val) * 32 + e.val = d.val * 32 + e.val
    omega
  · exact extractStridedSlice_apply ![1, 0, 0] W slices_S2x32x32_S1x32x32_1_0_0 (ix3 0 d e) (ix3 1 d e)
      (fun a => match a with
        | ⟨0, _⟩ => by show (1 : ℕ) = 1 + 0; omega
        | ⟨1, _⟩ => by show d.val = 0 + d.val; omega
        | ⟨2, _⟩ => by show e.val = 0 + e.val; omega)

/-- Row 0 of the stacked biases, read at e. -/
theorem b0_apply (B : FVec Ideal S2x32 .f32) (e : Fin 32) : b0 B (ix1 e) = B (ix2 0 e) := by
  unfold b0
  refine (shapeCast_apply _ shapeCasts_S1x32_S32 (ix1 e) (ix2 0 e) ?_).trans ?_
  · rw [Shape.rowMajor_val_two, Shape.rowMajor_val_one]
    show (0 : ℕ) * 32 + e.val = e.val
    omega
  · exact extractStridedSlice_apply ![0, 0] B slices_S2x32_S1x32_0_0 (ix2 0 e) (ix2 0 e)
      (fun a => match a with
        | ⟨0, _⟩ => by show (0 : ℕ) = 0 + 0; omega
        | ⟨1, _⟩ => by show e.val = 0 + e.val; omega)

/-- Row 1 of the stacked biases, read at e. -/
theorem b1_apply (B : FVec Ideal S2x32 .f32) (e : Fin 32) : b1 B (ix1 e) = B (ix2 1 e) := by
  unfold b1
  refine (shapeCast_apply _ shapeCasts_S1x32_S32 (ix1 e) (ix2 0 e) ?_).trans ?_
  · rw [Shape.rowMajor_val_two, Shape.rowMajor_val_one]
    show (0 : ℕ) * 32 + e.val = e.val
    omega
  · exact extractStridedSlice_apply ![1, 0] B slices_S2x32_S1x32_1_0 (ix2 0 e) (ix2 1 e)
      (fun a => match a with
        | ⟨0, _⟩ => by show (1 : ℕ) = 1 + 0; omega
        | ⟨1, _⟩ => by show e.val = 0 + e.val; omega)

/-- A [2560, 2560] array given a unit leading axis and then copied along the batch axis reads, at (b, n, m), the array at (n, m). -/
theorem bcastBatch_apply {α : Type} (D : S2560x2560.Idx → α) (b : Fin 4) (n m : Fin 2560) :
    broadcastInDim S4x2560x2560 ![0, 1, 2] bcast_S1x2560x2560_S4x2560x2560_0_1_2
      (broadcastInDim S1x2560x2560 ![1, 2] bcast_S2560x2560_S1x2560x2560_1_2 D) (ix3 b n m) = D (ix2 n m) := by
  refine (broadcastInDim_apply _ _ _ (ix3 b n m) (ix3 0 n m)
    (fun a => match a with | ⟨0, _⟩ => rfl | ⟨1, _⟩ => rfl | ⟨2, _⟩ => rfl)).trans ?_
  exact broadcastInDim_apply _ _ _ (ix3 0 n m) (ix2 n m) (fun a => match a with | ⟨0, _⟩ => rfl | ⟨1, _⟩ => rfl)

/-- A [32] row given two unit leading axes and then copied over batch entries and nodes reads, at (b, n, e), the row at e. -/
theorem bcastRow_apply {α : Type} (v : S32.Idx → α) (b : Fin 4) (n : Fin 2560) (e : Fin 32) :
    broadcastInDim S4x2560x32 ![0, 1, 2] bcast_S1x1x32_S4x2560x32_0_1_2
      (broadcastInDim S1x1x32 ![2] bcast_S32_S1x1x32_2 v) (ix3 b n e) = v (ix1 e) := by
  refine (broadcastInDim_apply _ _ _ (ix3 b n e) (ix3 0 0 e)
    (fun a => match a with | ⟨0, _⟩ => rfl | ⟨1, _⟩ => rfl | ⟨2, _⟩ => rfl)).trans ?_
  exact broadcastInDim_apply _ _ _ (ix3 0 0 e) (ix1 e) (fun a => match a with | ⟨0, _⟩ => rfl)
/-! ## The diagonal -/

/-- Row number plus zero equals column number, compared as 32-bit words: the bit is 1 exactly on the diagonal
    (both numbers are below 2560, far below 2^32). -/
theorem diagBit (n m : Fin 2560) :
    IntOp.cmpi .eq (IntOp.addi (BitVec.ofNat 32 n.val) 0#32) (BitVec.ofNat 32 m.val) = if n = m then 1#1 else 0#1 := by
  have hn := n.isLt
  have hm := m.isLt
  unfold IntOp.cmpi IntOp.addi
  by_cases h : n = m
  · subst h
    simp
  · rw [if_neg h]
    have hne : ¬ (BitVec.ofNat 32 n.val = BitVec.ofNat 32 m.val) := by
      intro hh
      apply h
      apply Fin.ext
      have h2 := congrArg BitVec.toNat hh
      simp only [BitVec.toNat_ofNat] at h2
      omega
    rw [BitVec.add_zero, beq_eq_false_iff_ne.mpr hne]
    rfl

/-- The indicator of the diagonal scaled by 1/2, read at (n, m): the word for 1/2 on the diagonal, zero off it. -/
theorem diag_apply (n m : Fin 2560) :
    (mulf (broadcastInDim S2560x2560 ![] bcast_S_S2560x2560 (constant (F := Ideal) S_ .f32 0x3F000000#32))
      (uitofp .f32 (cmpi .eq
        (addi (iotaInDim S2560x2560 32 0) (broadcastInDim S2560x2560 ![] bcast_S_S2560x2560 (constantI S_ 32 0#32)))
        (iotaInDim S2560x2560 32 1)))) (ix2 n m)
      = if n = m then Cert.GnnSpec.half else 0 := by
  show Ideal.ofBits .f32 0x3F000000#32
      * (((IntOp.cmpi .eq (IntOp.addi (BitVec.ofNat 32 n.val) 0#32) (BitVec.ofNat 32 m.val)).toNat : ℝ) : EReal) = _
  rw [diagBit]
  by_cases h : n = m
  · rw [if_pos h, if_pos h]
    show Ideal.ofBits .f32 0x3F000000#32 * (((1 : ℕ) : ℝ) : EReal) = _
    rw [Nat.cast_one, EReal.coe_one, mul_one]
  · rw [if_neg h, if_neg h]
    show Ideal.ofBits .f32 0x3F000000#32 * (((0 : ℕ) : ℝ) : EReal) = _
    rw [Nat.cast_zero, EReal.coe_zero, mul_zero]

/-! ## The stages read at an index -/

/-- The edge-weight array at (b, n, m) is the specification's edge weight of batch entry b. -/
theorem adjT_apply (X : FVec Ideal S4x2560x32 .f32) (b : Fin 4) (n m : Fin 2560) :
    adjT X (ix3 b n m) = Cert.GnnSpec.adj (fun n f => X (ix3 b n f)) n m := by
  unfold adjT
  show Ideal.tanh (max (Host.dotGeneral dot_S4x2560x32_S4x2560x32_S4x2560x2560_2_2_1_1_0_0 none X X (ix3 b n m)) (Ideal.ofBits .f32 0x00000000#32))
      + broadcastInDim S4x2560x2560 (![0, 1, 2] : Fin 3 → Fin S4x2560x2560.rank) bcast_S1x2560x2560_S4x2560x2560_0_1_2
          (broadcastInDim S1x2560x2560 (![1, 2] : Fin 2 → Fin S1x2560x2560.rank) bcast_S2560x2560_S1x2560x2560_1_2
            (_ : S2560x2560.Idx → EReal)) (ix3 b n m) = _
  rw [bcastBatch_apply, diag_apply]
  have hg : Host.dotGeneral dot_S4x2560x32_S4x2560x32_S4x2560x2560_2_2_1_1_0_0 none X X (ix3 b n m) = Cert.GnnSpec.gram (fun n f => X (ix3 b n f)) n m :=
    dotGeneral_rowsRows_apply _ none X X b n m
  rw [hg]
  unfold Cert.GnnSpec.adj Cert.GnnSpec.sim
  by_cases h : n = m
  · rw [if_pos h, if_pos h]
  · rw [if_neg h, if_neg h, add_zero]

/-- What a layer applies its activation to, at (b, n, e): the three sums of the specification, over any edge-weight
    array A and node features H. -/
theorem preT_apply (A : FVec Ideal S4x2560x2560 .f32) (H : FVec Ideal S4x2560x32 .f32) (ws wn : FVec Ideal S32x32 .f32)
    (bias : FVec Ideal S32 .f32) (b : Fin 4) (n : Fin 2560) (e : Fin 32) :
    preT A H ws wn bias (ix3 b n e)
      = (∑ d : Fin 32, H (ix3 b n d) * ws (ix2 d e))
        + (∑ d : Fin 32, (∑ m : Fin 2560, A (ix3 b n m) * H (ix3 b m d)) * wn (ix2 d e)) + bias (ix1 e) := by
  unfold preT
  show (Host.dotGeneral dot_S4x2560x32_S32x32_S4x2560x32_2_0_01_1_n_n none H ws (ix3 b n e)
        + Host.dotGeneral dot_S4x2560x32_S32x32_S4x2560x32_2_0_01_1_n_n none (Host.dotGeneral dot_S4x2560x2560_S4x2560x32_S4x2560x32_2_1_1_2_0_0 none A H) wn (ix3 b n e))
      + broadcastInDim S4x2560x32 ![0, 1, 2] bcast_S1x1x32_S4x2560x32_0_1_2 (broadcastInDim S1x1x32 ![2] bcast_S32_S1x1x32_2 bias) (ix3 b n e) = _
  rw [bcastRow_apply]
  have h1 : Host.dotGeneral dot_S4x2560x32_S32x32_S4x2560x32_2_0_01_1_n_n none H ws (ix3 b n e) = ∑ d : Fin 32, H (ix3 b n d) * ws (ix2 d e) :=
    dotGeneral_stackMat_apply _ none H ws b n e
  have h2 : Host.dotGeneral dot_S4x2560x32_S32x32_S4x2560x32_2_0_01_1_n_n none (Host.dotGeneral dot_S4x2560x2560_S4x2560x32_S4x2560x32_2_1_1_2_0_0 none A H) wn (ix3 b n e)
      = ∑ d : Fin 32, (Host.dotGeneral dot_S4x2560x2560_S4x2560x32_S4x2560x32_2_1_1_2_0_0 none A H) (ix3 b n d) * wn (ix2 d e) :=
    dotGeneral_stackMat_apply _ none _ wn b n e
  have h3 : ∀ d : Fin 32, (Host.dotGeneral dot_S4x2560x2560_S4x2560x32_S4x2560x32_2_1_1_2_0_0 none A H) (ix3 b n d) = ∑ m : Fin 2560, A (ix3 b n m) * H (ix3 b m d) :=
    fun d => dotGeneral_stack_apply _ none A H b n d
  rw [h1, h2]
  simp only [h3]

/-- The activation at an index is the specification's elu of the element: where y > 0 both choose y; elsewhere the
    inner choice returns y, and one times e^y - 1 is e^y - 1. -/
theorem eluT_apply (Y : FVec Ideal S4x2560x32 .f32) (j : S4x2560x32.Idx) : eluT Y j = Cert.GnnSpec.elu (Y j) := by
  unfold eluT Cert.GnnSpec.elu
  show Scalar.select (FloatOps.cmpf (F := Ideal) (φ := .f32) .ogt (Y j) (Ideal.ofBits .f32 0x00000000#32)) (Y j)
      (Ideal.ofBits .f32 0x3F800000#32 * (Ideal.exp (Scalar.select (FloatOps.cmpf (F := Ideal) (φ := .f32) .ogt (Y j) (Ideal.ofBits .f32 0x00000000#32))
        (Ideal.ofBits .f32 0x00000000#32) (Y j)) - 1)) = _
  rcases BitVec.eq_zero_or_eq_one (FloatOps.cmpf (F := Ideal) (φ := .f32) .ogt (Y j) (Ideal.ofBits .f32 0x00000000#32)) with hc | hc
  · show _ = Scalar.select (FloatOps.cmpf (F := Ideal) (φ := .f32) .ogt (Y j) (Ideal.ofBits .f32 0x00000000#32)) (Y j) (Ideal.exp (Y j) - Ideal.ofBits .f32 0x3F800000#32)
    rw [hc, select_zero, select_zero, select_zero, one_word, one_mul]
  · show _ = Scalar.select (FloatOps.cmpf (F := Ideal) (φ := .f32) .ogt (Y j) (Ideal.ofBits .f32 0x00000000#32)) (Y j) (Ideal.exp (Y j) - Ideal.ofBits .f32 0x3F800000#32)
    rw [hc, select_one, select_one]

/-- One layer of the program over the program's edge weights is one layer of the specification. -/
theorem layer_eq (X H : FVec Ideal S4x2560x32 .f32) (ws wn : FVec Ideal S32x32 .f32) (bias : FVec Ideal S32 .f32) :
    eluT (preT (adjT X) H ws wn bias)
      = Cert.GnnSpec.layer X H (fun d e => ws (ix2 d e)) (fun d e => wn (ix2 d e)) (fun e => bias (ix1 e)) := by
  funext j
  obtain ⟨b, n, e, rfl⟩ : ∃ (b : Fin 4) (n : Fin 2560) (e : Fin 32), j = ix3 b n e := ⟨j 0, j 1, j 2, eq_ix3 j⟩
  rw [eluT_apply, preT_apply]
  simp only [adjT_apply]
  rfl

/-- The program's term is the specification. -/
theorem refTerm_eq (X : FVec Ideal S4x2560x32 .f32) (Ws Wn : FVec Ideal S2x32x32 .f32) (B : FVec Ideal S2x32 .f32) :
    refTerm X Ws Wn B = Cert.GnnSpec.G X Ws Wn B := by
  unfold refTerm outT Cert.GnnSpec.G
  rw [layer_eq, layer_eq]
  simp only [w0_apply, w1_apply, b0_apply, b1_apply]

/-! ## The run against the specification -/

/-- The run with the result read as the specification: for any proof of the program's side conditions, every weakly
    fair execution of @main at the ideal values terminates with the result buffer holding the two layers of the
    specification applied to the arguments' launch contents, and the four argument buffers unchanged. -/
theorem run_spec [Cert.ReferenceIdeal.Facts]
    (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ fun r => ∀ c : Dev Cert.ReferenceIdeal.nD,
      r.2.mem ((c.tc : Thread Cert.ReferenceIdeal.nD Cert.ReferenceIdeal.τ).loc main_v41)
          = Cert.GnnSpec.G (m ((c.tc : Thread Cert.ReferenceIdeal.nD Cert.ReferenceIdeal.τ).loc main_arg0))
              (m ((c.tc : Thread Cert.ReferenceIdeal.nD Cert.ReferenceIdeal.τ).loc main_arg1))
              (m ((c.tc : Thread Cert.ReferenceIdeal.nD Cert.ReferenceIdeal.τ).loc main_arg2))
              (m ((c.tc : Thread Cert.ReferenceIdeal.nD Cert.ReferenceIdeal.τ).loc main_arg3))
      ∧ r.2.mem ((c.tc : Thread Cert.ReferenceIdeal.nD Cert.ReferenceIdeal.τ).loc main_arg0) = m ((c.tc : Thread Cert.ReferenceIdeal.nD Cert.ReferenceIdeal.τ).loc main_arg0)
      ∧ r.2.mem ((c.tc : Thread Cert.ReferenceIdeal.nD Cert.ReferenceIdeal.τ).loc main_arg1) = m ((c.tc : Thread Cert.ReferenceIdeal.nD Cert.ReferenceIdeal.τ).loc main_arg1)
      ∧ r.2.mem ((c.tc : Thread Cert.ReferenceIdeal.nD Cert.ReferenceIdeal.τ).loc main_arg2) = m ((c.tc : Thread Cert.ReferenceIdeal.nD Cert.ReferenceIdeal.τ).loc main_arg2)
      ∧ r.2.mem ((c.tc : Thread Cert.ReferenceIdeal.nD Cert.ReferenceIdeal.τ).loc main_arg3) = m ((c.tc : Thread Cert.ReferenceIdeal.nD Cert.ReferenceIdeal.τ).loc main_arg3) :=
  (θ_run _ _ _).mono (fun _ h c => ⟨(h c).1.trans (refTerm_eq _ _ _ _), (h c).2⟩) (run (F := Ideal) m ρ)

end Cert.RefSide

end
-- ==== Proof.lean ====
/-
  The five claims about the two-layer graph kernel and its reference.

  Both idealized programs compute, over the extended reals, the same function of the four argument arrays —
  two layers of  elu (h · Ws + (adj · h) · Wn + bias)  with adj = tanh (max (x · xᵀ, 0)) + ½·I  (Proof/Spec.lean).
  The kernel side: each launch's grid of forty tiles leaves one layer of the arrays it read (Proof/IdealValue0,
  Proof/IdealValue1, over the body's arithmetic read entry by entry in Proof/Payload0, Proof/Payload1), the host
  stretches hand each launch its slice of the stacked weights (Proof/IdealHost), and the whole program runs from
  any memory to the end with the arguments untouched (Proof/IdealRun; the same run of the word-level kernel in
  Proof/BitsRun). The reference side: its host operations composed (Proof/RefRun) are that function entry by entry
  (Proof/RefValue). The only laws used are those of sums and products on the extended reals that hold at the
  infinities too, so the precondition is never opened.
-/
import proofs.«126938_j63393717289327_1_alg».proof.Defs
import proofs.«126938_j63393717289327_1_alg».proof.Proof.Gen.Kernel
import proofs.«126938_j63393717289327_1_alg».proof.Proof.Gen.KernelIdeal
import proofs.«126938_j63393717289327_1_alg».proof.Proof.Gen.ReferenceIdeal
import proofs.«126938_j63393717289327_1_alg».proof.Proof.Gen.Pre_finite_inputs
import proofs.«126938_j63393717289327_1_alg».proof.Proof.BitsRun
import proofs.«126938_j63393717289327_1_alg».proof.Proof.IdealFinal
import proofs.«126938_j63393717289327_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs to the end and leaves its arguments as launched. -/
theorem frame_k : Cert.frame_Kernel := fun m ρ _ =>
  (θ_run Cert.Kernel.defs _ _).mono (fun _ h c => (h c).2) (Cert.Kernel.Hand.run_main (F := Bits) m ρ)

/-- So does the idealized kernel. -/
theorem frame_ki : Cert.frame_KernelIdeal := fun m ρ _ =>
  (θ_run Cert.KernelIdeal.defs _ _).mono (fun _ h c => (h c).2) (Cert.KernelIdeal.Hand.run_main (F := Ideal) m ρ)

/-- And the idealized reference. -/
theorem frame_ri : Cert.frame_ReferenceIdeal := fun m ρ _ =>
  (θ_run Cert.ReferenceIdeal.defs _ _).mono (fun _ h c => (h c).2) (Cert.RefSide.run (F := Ideal) m ρ)

/-- The ideal pass rewrote nothing. -/
theorem preserves : Cert.preserves_Kernel_KernelIdeal := trivial

/-- From memories that agree on the arguments both idealized programs end with the result array at the
    specification of the arguments: the kernel's by its tiles, the reference's by its composed operations. -/
theorem algebraic : Cert.algebraic_KernelIdeal_ReferenceIdeal := by
  intro m ρ m' ρ' _ hagree
  refine ⟨fun c => Cert.GnnSpec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    Cert.KernelIdeal.Hand.run_value m ρ, ?_⟩
  refine (θ_run Cert.ReferenceIdeal.defs _ _).mono (fun _ h c => ⟨(h c).1.trans ?_, (h c).2⟩) (Cert.RefSide.run (F := Ideal) m' ρ')
  rw [Cert.RefSide.refTerm_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
